-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S1000x128 : Shape := ⟨2, ![1000, 128]⟩
abbrev S819200 : Shape := ⟨1, ![819200]⟩
abbrev S819200x128 : Shape := ⟨2, ![819200, 128]⟩
abbrev S25600 : Shape := ⟨1, ![25600]⟩
abbrev S128x128 : Shape := ⟨2, ![128, 128]⟩
abbrev S_ : Shape := ⟨0, ![]⟩
abbrev S64x128 : Shape := ⟨2, ![64, 128]⟩
abbrev S40x128 : Shape := ⟨2, ![40, 128]⟩
abbrev S128 : Shape := ⟨1, ![128]⟩
abbrev S4096x200x128 : Shape := ⟨3, ![4096, 200, 128]⟩

abbrev nBuf : Table → Nat
  | .hbm => 5
  | .shared => 1
  | .local .scVector .vmem => 6
  | _ => 0

abbrev bufTy : (tb : Table) → Fin (nBuf tb) → BufTy
  | .hbm, ⟨0, _⟩ => ⟨S4096x200, .i32⟩
  | .hbm, ⟨1, _⟩ => ⟨S1000x128, .f32⟩
  | .hbm, ⟨2, _⟩ => ⟨S819200, .i32⟩
  | .hbm, ⟨3, _⟩ => ⟨S819200x128, .f32⟩
  | .hbm, ⟨4, _⟩ => ⟨S4096x200x128, .f32⟩
  | .shared, ⟨0, _⟩ => ⟨S1000x128, .f32⟩
  | .local .scVector .vmem, ⟨0, _⟩ => ⟨S25600, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x200, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 5 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch1 : Ref sig .scVector := ⟨.shared, 0, rfl⟩
abbrev cc0_scratch0 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev cc0_scratch5 : Ref sig .scVector := ⟨.vmem, 4, rfl⟩
abbrev cc0_scratch6 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c15_i32 : BitVec 32 := 15#32
  let v3 : BitVec 1 := Scalar.cmpi .slt arg1 c15_i32
  let v4 : BitVec 32 := Scalar.extui v3
  let c0_i32 : BitVec 32 := 0#32
  let v5 : BitVec 1 := Scalar.cmpi .ne v4 c0_i32
  v5

def k0_off1 (i : grid0.Coords) : Fin 2 → Nat :=
  let arg1 : BitVec 32 := BitVec.ofNat 32 (i 1).val
  let c64_i32_15 : BitVec 32 := 64#32
  let v21 : BitVec 32 := Scalar.muli arg1 c64_i32_15
  let c0_i32_16_r0 : BitVec 32 := 0#32
  ![v21.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_3 : BitVec 32 := 0#32
  let c40_i32 : BitVec 32 := 40#32
  let v9 : BitVec 32 := Scalar.addi c0_i32_3 c40_i32
  let c1_i32 : BitVec 32 := 1#32
  ⟨c0_i32_3, v9, c1_i32⟩
def k0_cond3 (k0_t1 : Fin k0_t1_loop.trips) : BitVec 1 :=
  let c0_i32_3 : BitVec 32 := 0#32
  let c1_i32 : BitVec 32 := 1#32
  let arg22 : BitVec 32 := Scf.iv c0_i32_3 c1_i32 k0_t1
  let c0_i32_15 : BitVec 32 := 0#32
  let v22 : BitVec 1 := Scalar.cmpi .sgt arg22 c0_i32_15
  let v23 : BitVec 32 := Scalar.extui v22
  let c0_i32_16 : BitVec 32 := 0#32
  let v24 : BitVec 1 := Scalar.cmpi .ne v23 c0_i32_16
  v24

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32 : BitVec 32 := 1#32
  let arg22 : BitVec 32 := Scf.iv c0_i32_3 c1_i32 k0_t1
  let c640_i32 : BitVec 32 := 640#32
  let v20 : BitVec 32 := Scalar.muli arg22 c640_i32
  let v21 : BitVec 32 := Scalar.addi v2 v20
  let c0_i32_66 : BitVec 32 := 0#32
  ![v21.toNat, 0]
def k0_off4 (k0_t1 : Fin k0_t1_loop.trips) (c0_i32_17 : BitVec 32) : Fin 1 → Nat :=
  let c0_i32_3 : BitVec 32 := 0#32
  let c1_i32 : BitVec 32 := 1#32
  let arg22 : BitVec 32 := Scf.iv c0_i32_3 c1_i32 k0_t1
  let c640_i32 : BitVec 32 := 640#32
  let v20 : BitVec 32 := Scalar.muli arg22 c640_i32
  let v25 : BitVec 32 := Scalar.addi v20 c0_i32_17
  ![v25.toNat]
def k0_cond4 (k0_t1 : Fin k0_t1_loop.trips) : BitVec 1 :=
  let c0_i32_3 : BitVec 32 := 0#32
  let c1_i32 : BitVec 32 := 1#32
  let arg22 : BitVec 32 := Scf.iv c0_i32_3 c1_i32 k0_t1
  let c0_i32_20 : BitVec 32 := 0#32
  let v28 : BitVec 1 := Scalar.cmpi .sgt arg22 c0_i32_20
  let v29 : BitVec 32 := Scalar.extui v28
  let c0_i32_21 : BitVec 32 := 0#32
  let v30 : BitVec 1 := Scalar.cmpi .ne v29 c0_i32_21
  v30

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32 : BitVec 32 := 1#32
  let arg22 : BitVec 32 := Scf.iv c0_i32_3 c1_i32 k0_t1
  let c640_i32 : BitVec 32 := 640#32
  let v20 : BitVec 32 := Scalar.muli arg22 c640_i32
  let v21 : BitVec 32 := Scalar.addi v2 v20
  let c0_i32_66 : BitVec 32 := 0#32
  ![v21.toNat, 0]
def k0_cond5 (k0_t1 : Fin k0_t1_loop.trips) : BitVec 1 :=
  let c0_i32_3 : BitVec 32 := 0#32
  let c1_i32 : BitVec 32 := 1#32
  let arg22 : BitVec 32 := Scf.iv c0_i32_3 c1_i32 k0_t1
  let c0_i32_24 : BitVec 32 := 0#32
  let v34 : BitVec 1 := Scalar.cmpi .sgt arg22 c0_i32_24
  let v35 : BitVec 32 := Scalar.extui v34
  let c0_i32_25 : BitVec 32 := 0#32
  let v36 : BitVec 1 := Scalar.cmpi .ne v35 c0_i32_25
  v36

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32 : BitVec 32 := 1#32
  let arg22 : BitVec 32 := Scf.iv c0_i32_3 c1_i32 k0_t1
  let c640_i32 : BitVec 32 := 640#32
  let v20 : BitVec 32 := Scalar.muli arg22 c640_i32
  let v21 : BitVec 32 := Scalar.addi v2 v20
  let c0_i32_66 : BitVec 32 := 0#32
  ![v21.toNat, 0]
def k0_cond6 (k0_t1 : Fin k0_t1_loop.trips) : BitVec 1 :=
  let c0_i32_3 : BitVec 32 := 0#32
  let c1_i32 : BitVec 32 := 1#32
  let arg22 : BitVec 32 := Scf.iv c0_i32_3 c1_i32 k0_t1
  let c0_i32_28 : BitVec 32 := 0#32
  let v40 : BitVec 1 := Scalar.cmpi .sgt arg22 c0_i32_28
  let v41 : BitVec 32 := Scalar.extui v40
  let c0_i32_29 : BitVec 32 := 0#32
  let v42 : BitVec 1 := Scalar.cmpi .ne v41 c0_i32_29
  v42

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32 : BitVec 32 := 1#32
  let arg22 : BitVec 32 := Scf.iv c0_i32_3 c1_i32 k0_t1
  let c640_i32 : BitVec 32 := 640#32
  let v20 : BitVec 32 := Scalar.muli arg22 c640_i32
  let v21 : BitVec 32 := Scalar.addi v2 v20
  let c0_i32_66 : BitVec 32 := 0#32
  ![v21.toNat, 0]
def k0_cond7 (k0_t1 : Fin k0_t1_loop.trips) : BitVec 1 :=
  let c0_i32_3 : BitVec 32 := 0#32
  let c1_i32 : BitVec 32 := 1#32
  let arg22 : BitVec 32 := Scf.iv c0_i32_3 c1_i32 k0_t1
  let c0_i32_32 : BitVec 32 := 0#32
  let v46 : BitVec 1 := Scalar.cmpi .sgt arg22 c0_i32_32
  let v47 : BitVec 32 := Scalar.extui v46
  let c0_i32_33 : BitVec 32 := 0#32
  let v48 : BitVec 1 := Scalar.cmpi .ne v47 c0_i32_33
  v48

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32 : BitVec 32 := 1#32
  let arg22 : BitVec 32 := Scf.iv c0_i32_3 c1_i32 k0_t1
  let c640_i32 : BitVec 32 := 640#32
  let v20 : BitVec 32 := Scalar.muli arg22 c640_i32
  let v21 : BitVec 32 := Scalar.addi v2 v20
  let c0_i32_66 : BitVec 32 := 0#32
  ![v21.toNat, 0]
def k0_off9 (i : grid0.Coords) (k0_t1 : Fin k0_t1_loop.trips) (c0_i32_39 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32 : BitVec 32 := 1#32
  let arg22 : BitVec 32 := Scf.iv c0_i32_3 c1_i32 k0_t1
  let c640_i32 : BitVec 32 := 640#32
  let v20 : BitVec 32 := Scalar.muli arg22 c640_i32
  let v21 : BitVec 32 := Scalar.addi v2 v20
  let v55 : BitVec 32 := Scalar.addi v21 c0_i32_39
  let c0_i32_40 : BitVec 32 := 0#32
  ![v55.toNat, 0]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_5 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  inb_S1000x128_S40x128_960_0 : ∀ a, (![960, 0] : Fin 2 → Nat) a + S40x128.size a ≤ S1000x128.size a
  inb_S1000x128_S1000x128_0_0 : ∀ a, (![0, 0] : Fin 2 → Nat) a + S1000x128.size a ≤ S1000x128.size a
  gathers_S1000x128_S128x128 : S1000x128.Gathers 0 S128x128
  shapeCasts_S819200x128_S4096x200x128 : S819200x128.ShapeCasts S4096x200x128
  hcc0_scratch7 : 0 + S_.numel ≤ 13
  hcc0_scratch8 : 1 + S_.numel ≤ 13
  hcc0_scratch9 : 2 + S_.numel ≤ 13
  hcc0_scratch10 : 3 + S_.numel ≤ 13
  hcc0_scratch11 : 4 + S_.numel ≤ 13
  hcc0_scratch12 : 5 + S_.numel ≤ 13
  hcc0_scratch13 : 6 + S_.numel ≤ 13
  hcc0_scratch14 : 7 + S_.numel ≤ 13
  hcc0_scratch15 : 8 + S_.numel ≤ 13
  hcc0_scratch16 : 9 + S_.numel ≤ 13
  hcc0_scoped0 : 10 + S_.numel ≤ 13
  hcc0_scoped1 : 11 + S_.numel ≤ 13
  hcc0_scoped2 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S64x128.size a ≤ S1000x128.size a
  k0_off2_inb : ∀ i : grid0.Coords, ∀ a, (k0_off2 i) a + S25600.size a ≤ S819200.size a
  k0_t1_ok : k0_t1_loop.OK
  k0_off3_inb : ∀ (i : grid0.Coords) (k0_t1 : Fin k0_t1_loop.trips), ∀ (k0_h3 : k0_cond3 k0_t1 = 1#1), ∀ a, (k0_off3 i k0_t1) a + S128x128.size a ≤ S819200x128.size a
  k0_off4_inb : ∀ k0_t1 : Fin k0_t1_loop.trips, ∀ (r : Fin 5), ∀ a, (k0_off4 k0_t1 (BitVec.ofNat 32 (128 * r.val))) a + S128.size a ≤ S25600.size a
  k0_off5_inb : ∀ (i : grid0.Coords) (k0_t1 : Fin k0_t1_loop.trips), ∀ (k0_h4 : k0_cond4 k0_t1 = 1#1), ∀ a, (k0_off5 i k0_t1) a + S128x128.size a ≤ S819200x128.size a
  k0_off6_inb : ∀ (i : grid0.Coords) (k0_t1 : Fin k0_t1_loop.trips), ∀ (k0_h5 : k0_cond5 k0_t1 = 1#1), ∀ a, (k0_off6 i k0_t1) a + S128x128.size a ≤ S819200x128.size a
  k0_off7_inb : ∀ (i : grid0.Coords) (k0_t1 : Fin k0_t1_loop.trips), ∀ (k0_h6 : k0_cond6 k0_t1 = 1#1), ∀ a, (k0_off7 i k0_t1) a + S128x128.size a ≤ S819200x128.size a
  k0_off8_inb : ∀ (i : grid0.Coords) (k0_t1 : Fin k0_t1_loop.trips), ∀ (k0_h7 : k0_cond7 k0_t1 = 1#1), ∀ a, (k0_off8 i k0_t1) a + S128x128.size a ≤ S819200x128.size a
  k0_off9_inb : ∀ (i : grid0.Coords) (k0_t1 : Fin k0_t1_loop.trips), ∀ (r : Fin 5), ∀ a, (k0_off9 i k0_t1 (BitVec.ofNat 32 (128 * r.val))) a + S128x128.size a ≤ S819200x128.size a
  k0_off10_inb : ∀ i : grid0.Coords, ∀ a, (k0_off10 i) a + S128x128.size a ≤ S819200x128.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scratch15 : DmaSems sig S_ := SemArray.consecutive 8 S_ hcc0_scratch15
abbrev cc0_scratch16 : DmaSems sig S_ := SemArray.consecutive 9 S_ hcc0_scratch16
abbrev cc0_scoped0 : DmaSems sig S_ := SemArray.consecutive 10 S_ hcc0_scoped0
abbrev cc0_scoped1 : DmaSems sig S_ := SemArray.consecutive 11 S_ hcc0_scoped1
abbrev cc0_scoped2 : DmaSems sig S_ := SemArray.consecutive 12 S_ hcc0_scoped2

class Facts : Prop extends Facts₀ where

variable [Facts]
-- ==== ReferenceIdeal.lean ====
abbrev S4096x200 : Shape := ⟨2, ![4096, 200]⟩
abbrev S1000x128 : Shape := ⟨2, ![1000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S1000x128_S4096x200x1_S4096x200x128_2_0_n_n_0_2_1128_wf : GatherDims.WF S1000x128 S4096x200x1 S4096x200x128 [2] [0] [] [0] [] 2 ![1, 128]

variable [Facts₀]

def gather_S1000x128_S4096x200x1_S4096x200x128_2_0_n_n_0_2_1128 : GatherDims S1000x128 S4096x200x1 S4096x200x128 where
  offsetDims := [2]
  collapsedSliceDims := [0]
  operandBatchingDims := []
  startIndicesBatchingDims := []
  startIndexMap := [0]
  indexVectorDim := 2
  sliceSizes := ![1, 128]
  wf := gather_S1000x128_S4096x200x1_S4096x200x128_2_0_n_n_0_2_1128_wf

class Facts : Prop extends Facts₀ where

variable [Facts]
-- ==== Proof.KB.Setup.lean ====
/-
  The embedding lookup on the SparseCores: what the launch theorem is applied to. Thirty-two vector subcores
  (two SparseCores of sixteen) each own 25,600 consecutive rows of the output; the sixteen of one SparseCore
  first fill that SparseCore's shared copy of the table, sixty-four rows each (the last forty), and meet at the
  subcore barrier; afterwards every subcore reads the whole shared table. This module fixes the program's
  configuration, the ghost state (the launch handshakes, the barrier cells, the transfers' counters), the
  buffers' names and the subcores' threads.
-/
import proofs.«204301_g9028021256511_cont_9to1_m_920_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204301_g9028021256511_cont_9to1_m_920_22_alg».proof.Proof.Gen.Kernel
import proofs.«204301_g9028021256511_cont_9to1_m_920_22_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

abbrev EH : Emb UH (MT nD τ sig (HIx 1) (Elt F) ℕ UU ℕ) := embL
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (MT nD τ sig (HIx 1) (Elt F) ℕ UU ℕ)).LandsIn (upEmb : UEmb _ (MT nD τ sig (HIx 1) (Elt F) ℕ UU ℕ)) := by
  unfold EB; infer_instance

/-! ## Threads and locations -/

theorem nSub_eq : τ.nSub = 16 := rfl
theorem nSC_eq : τ.nSC = 2 := rfl
theorem bound_zero : grid0.bound 0 = 2 := rfl
theorem bound_one : grid0.bound 1 = 16 := rfl

abbrev cV (L : grid0.Coords) : Fin τ.nSC := (L 0).castLE hcore0
abbrev jV (L : grid0.Coords) : Fin τ.nSub := (L 1).castLE hsub0

/-- The flattened indices, the table, the flat output, as locations of device `d`. -/
abbrev xfLoc (d : Dev nD) : Loc nD τ sig := (SparseCore.T d).loc main_v0
abbrev wLoc (d : Dev nD) : Loc nD τ sig := (SparseCore.T d).loc main_arg1
abbrev oLoc (d : Dev nD) : Loc nD τ sig := (SparseCore.T d).loc main_v1
/-- SparseCore `c`'s shared copy of the table. -/
abbrev shRef (c : Fin τ.nSC) : DevRef τ sig := ⟨.shared, ⟨0, by decide⟩, c⟩
abbrev shLoc (d : Dev nD) (c : Fin τ.nSC) : Loc nD τ sig := (d, shRef c)

def coordsV (c : Fin (grid0.bound 0)) (s : Fin (grid0.bound 1)) : grid0.Coords :=
  fun | 0 => c | 1 => s | ⟨_ + 2, h⟩ => absurd h (Nat.not_lt.2 (Nat.le_add_left _ _))

end Cert.Proof.KB

end
-- ==== Proof.KB.Values.lean ====
/-
  The values the subcores move, index by index. Row n of the flat output is row x[n] of the table: each chunk of
  128 output rows is one indexed copy out of the shared table followed by one plain copy, so an output entry
  (n, q) is the shared table's entry (x[n], q), and the shared table is the table.
-/
import proofs.«204301_g9028021256511_cont_9to1_m_920_22_alg».proof.Proof.KB.Setup
import Idealize.ShloMosaic.Lib.ValueIdx
import Idealize.ShloMosaic.Lib.Writes

noncomputable section

namespace Cert.Proof.KB

open Cert.Kernel Cert.Kernel.Gen
open Idealize.ShloMosaic Idealize.ShloMosaic.ValueIdx

variable {F : FTy → Type}

/-- A table row named by an index word: the word's value, held below the table's height. -/
def rowOf (w : BitVec 32) : Fin 1000 := ⟨min w.toNat 999, by omega⟩

theorem rowOf_val {w : BitVec 32} (h : w.toNat < 1000) : (rowOf w).val = w.toNat := by
  unfold rowOf; simp only; omega

/-- The flat output the kernel is to produce: row `n` is the table's row `x[n]`. -/
def Gflat (X : S819200.Idx → BitVec 32) (Wt : S1000x128.Idx → Elt F .f32) : S819200x128.Idx → Elt F .f32 :=
  fun i => Wt (ix2 (rowOf (X (ix1 (i 0)))) (i 1))

/-- Position `k` of a rank-one shape in row-major order is the index `k`. -/
theorem rowMajor_symm_one {n : Nat} (k : Fin ((⟨1, ![n]⟩ : Shape).numel)) (hk : k.val < n) :
    (⟨1, ![n]⟩ : Shape).rowMajor.symm k = ix1 ⟨k.val, hk⟩ := by
  funext a
  obtain rfl : a = 0 := Subsingleton.elim _ _
  refine Fin.ext ?_
  have h := Shape.rowMajor_val_one ((⟨1, ![n]⟩ : Shape).rowMajor.symm k)
  rw [Equiv.apply_symm_apply] at h
  exact h.symm

variable [FloatOps F]

local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)

/-- A write of a whole view, read back on the view's elements: the written values. -/
theorem landed_congr {sig : RefSig} {κ : Kind} {sp : Space} {s : Shape} {e : EltTy} {Val : EltTy → Type}
    (v : View sig κ sp s e) (f : v.ty.Contents Val) (w : s.Idx → Val e) (G : v.ty.Contents Val)
    (h : ∀ x, G (v.emb x) = _root_.cast (congrArg Val v.elt_eq.symm) (w x)) :
    ∀ i ∈ v.set, v.writes Val f [⟨Rect.whole s, w⟩] i = G i := by
  intro i hi
  obtain ⟨x, -, rfl⟩ := Finset.mem_map.mp hi
  rw [View.writes_singleton]
  have e' : (v.slice (Rect.whole s)).emb x = v.emb x := by
    show v.emb ((Rect.whole s).emb x) = v.emb x
    rw [Rect.emb_whole_apply]
  have hw := View.write_emb_of_mem (v := v.slice (Rect.whole s)) f w (Finset.mem_univ x)
  rw [e'] at hw
  exact hw.trans (h x).symm

/-- The 128 index words of a chunk, as the program slices them out of the index scratch. -/
abbrev idxRect (k : Fin k0_t1_loop.trips) (s : Fin 5) : Rect S25600 :=
  Rect.unit (s := S25600) (k0_off4 k (BitVec.ofNat 32 (128 * s.val))) S128.size (k0_off4_inb k s)
abbrev idxChunk (k : Fin k0_t1_loop.trips) (s : Fin 5) : Memref sig .scVector .vmem S128 .i32 := (idxV).slice (idxRect k s) (fun _ => rfl)
/-- The 128 output rows of a chunk, as the program slices them out of the flat output. -/
abbrev oRect (L : grid0.Coords) (k : Fin k0_t1_loop.trips) (s : Fin 5) : Rect S819200x128 :=
  Rect.unit (s := S819200x128) (k0_off9 L k (BitVec.ofNat 32 (128 * s.val))) S128x128.size (k0_off9_inb L k s)
abbrev oChunk (L : grid0.Coords) (k : Fin k0_t1_loop.trips) (s : Fin 5) : Memref sig .scVector .hbm S128x128 .f32 := (oV).slice (oRect L k s) (fun _ => rfl)
abbrev shWhole : Memref sig .scVector .shared S1000x128 .f32 :=
  (shV).slice (Rect.unit (s := S1000x128) ![0, 0] S1000x128.size inb_S1000x128_S1000x128_0_0) (fun _ => rfl)

/-- What one indexed copy brings: entry (r, q) is the shared table's entry (the chunk's r-th index word, q). -/
def idxAt (k s r : ℕ) : S25600.Idx := ix1 ⟨(640 * k + 128 * s + r) % 25600, Nat.mod_lt _ (by decide)⟩
def rowsVal (fi : S25600.Idx → BitVec 32) (fw : S1000x128.Idx → Elt F .f32) (k s : ℕ) :
    S128x128.Idx → Elt F .f32 :=
  fun x => fw (ix2 (rowOf (fi (idxAt k s (x 0).val))) (x 1))

theorem trips_eq : k0_t1_loop.trips = 40 := by decide

theorem idxRect_emb (k : Fin k0_t1_loop.trips) (s : Fin 5) (r : Fin 128) :
    (idxRect k s).emb (ix1 r) = idxAt k.val s.val r.val := by
  funext a
  obtain rfl : a = 0 := Subsingleton.elim _ _
  refine Fin.ext ?_
  show (k0_off4 k (BitVec.ofNat 32 (128 * s.val))) 0 + 1 * r.val = (640 * k.val + 128 * s.val + r.val) % 25600
  rw [k0_off4_eq]
  have hk : k.val < 40 := trips_eq ▸ k.isLt
  have hs := s.isLt
  have hr := r.isLt
  show 640 * k.val + 128 * s.val + 1 * r.val = _
  omega

theorem gather_closed (k : Fin k0_t1_loop.trips) (s : Fin 5) (fi : S25600.Idx → BitVec 32)
    (fw : S1000x128.Idx → Elt F .f32) (hn : S128.numel = S128x128.size (gathers_S1000x128_S128x128).axis')
    (hin : ∀ x, ((idxChunk k s).view.read (Elt F) fi x).toNat < S1000x128.size (gathers_S1000x128_S128x128).axis) :
    SparseCore.gatherPayload (F := F) gathers_S1000x128_S128x128 ((shWhole).view.read (Elt F) fw)
      (SparseCore.rows ((idxChunk k s).view.read (Elt F) fi) hn hin) = rowsVal fi fw k.val s.val := by
  funext x
  unfold SparseCore.gatherPayload rowsVal
  have e : idxAt k.val s.val (x 0).val = (idxRect k s).emb (ix1 (x 0)) := (idxRect_emb k s (x 0)).symm
  rw [e]
  show fw _ = fw _
  refine congrArg fw (funext fun a => Fin.ext ?_)
  match a with
  | ⟨0, _⟩ =>
    show 0 + 1 * (SparseCore.rows _ hn hin (x 0)).val = _
    unfold SparseCore.rows
    simp only [Nat.zero_add, Nat.one_mul]
    rw [rowMajor_symm_one _ (x 0).isLt]
    exact (rowOf_val (hin (ix1 (x 0)))).symm
  | ⟨1, _⟩ =>
    show 0 + 1 * (x 1).val = (x 1).val
    omega

/-! ## The output's rows, chunk by chunk -/

/-- Chunk `(k, s)` of subcore `L`: output rows `128 n` to `128 n + 127` for this `n`. -/
def chunkNo (L : grid0.Coords) (k s : ℕ) : ℕ := 400 * (L 1).val + 200 * (L 0).val + 5 * k + s
/-- An output index's row and column, as numbers. -/
def rowN (i : S819200x128.Idx) : ℕ := (i 0).val
def colN (i : S819200x128.Idx) : ℕ := (i 1).val
theorem rowN_lt (i : S819200x128.Idx) : rowN i < 819200 := (i 0).isLt
theorem colN_lt (i : S819200x128.Idx) : colN i < 128 := (i 1).isLt
def chunkSet (L : grid0.Coords) (k s : ℕ) : Finset S819200x128.Idx :=
  Finset.univ.filter fun i => rowN i / 128 = chunkNo L k s

theorem mem_chunkSet {L : grid0.Coords} {k s : ℕ} {i : S819200x128.Idx} :
    i ∈ chunkSet L k s ↔ rowN i / 128 = chunkNo L k s := by
  unfold chunkSet
  exact Finset.mem_filter.trans (and_iff_right (Finset.mem_univ _))

theorem oChunk_set (L : grid0.Coords) (k : Fin k0_t1_loop.trips) (s : Fin 5) :
    (oChunk L k s).view.set = chunkSet L k.val s.val := by
  show ((View.whole (main_v1_scv : Ref sig .scVector)).slice (oRect L k s)).set = _
  rw [View.set_slice_whole]
  ext i
  rw [Rect.mem_set_unit, k0_off9_eq, mem_chunkSet]
  unfold chunkNo
  have h1 : colN i < 128 := colN_lt i
  constructor
  · intro h
    have h0 : 51200 * (L 1).val + 25600 * (L 0).val + 640 * k.val + 128 * s.val ≤ rowN i
        ∧ rowN i < 51200 * (L 1).val + 25600 * (L 0).val + 640 * k.val + 128 * s.val + 128 := h (0 : Fin 2)
    omega
  · intro h a
    match a with
    | ⟨0, _⟩ =>
      show 51200 * (L 1).val + 25600 * (L 0).val + 640 * k.val + 128 * s.val ≤ rowN i
        ∧ rowN i < 51200 * (L 1).val + 25600 * (L 0).val + 640 * k.val + 128 * s.val + 128
      omega
    | ⟨1, _⟩ =>
      show (0 : ℕ) ≤ colN i ∧ colN i < 0 + 128
      omega

end Cert.Proof.KB

end
-- ==== Proof.KB.Deliver.lean ====
/-
  What a chunk's write-back delivers when it lands. The engine hands back the chunk's 128 output rows written with
  what the row scratch held, and the row scratch itself; the row scratch held what the indexed copy brought, the
  shared table's rows at the chunk's index words. So the chunk's rows are the expected output there.
-/
import proofs.«204301_g9028021256511_cont_9to1_m_920_22_alg».proof.Proof.KB.Values

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

abbrev thr (d : Dev nD) (L : grid0.Coords) : Thread nD τ := V d (cV L) (jV L)

theorem readAs_same {s : Shape} {e : EltTy} (w : s.Idx → Elt F e) : ReadAs.same.apply w = w := rfl

theorem deliver0 (d : Dev nD) (L : grid0.Coords) (k : Fin k0_t1_loop.trips)
    (fi : S25600.Idx → BitVec 32) (fw : S1000x128.Idx → Elt F .f32)
    (g0 : Buf (Elt F) (oLoc d)) (f0 : Buf (Elt F) ((r0V).view.loc (thr d L))) (Gd : Buf (Elt F) (oLoc d))
    (gath dmaw : S128x128.Idx → Elt F .f32) (hg : gath = rowsVal fi fw k.val 0)
    (hd : dmaw = ReadAs.same.apply ((r0V).view.read (Elt F) ((r0V).view.writes (Elt F) f0 [⟨Rect.whole cc0_scratch2.ty.shape, gath⟩])))
    (hG : ∀ x, Gd ((oChunk L k 0).view.emb x) = rowsVal fi fw k.val 0 x) :
    (iprop(((oChunk L k 0).view.loc (thr d L) ↦[(oChunk L k 0).view.set]{fullShare}
          (oChunk L k 0).view.writes (Elt F) g0 [⟨Rect.whole S128x128, dmaw⟩])
        ∗ ((r0V).view.loc (thr d L) ↦[(r0V).view.set]{fullShare}
            (r0V).view.writes (Elt F) f0 [⟨Rect.whole cc0_scratch2.ty.shape, gath⟩])) : sProp 𝕄)
    ⊢ iprop((oLoc d ↦[chunkSet L k.val 0]{fullShare} Gd)
        ∗ ((r0V).view.loc (thr d L) ↦[(r0V).view.set]{fullShare} rowsVal fi fw k.val 0)) := by
  subst hd
  subst hg
  have e2 : ∀ i ∈ (r0V).view.set, (r0V).view.writes (Elt F) f0 [⟨Rect.whole cc0_scratch2.ty.shape, rowsVal fi fw k.val 0⟩] i
      = (rowsVal fi fw k.val 0 : Buf (Elt F) ((r0V).view.loc (thr d L))) i :=
    landed_congr (r0V).view f0 (rowsVal fi fw k.val 0) (rowsVal fi fw k.val 0) (fun x => rfl)
  have hr : ∀ x, (r0V).view.read (Elt F) ((r0V).view.writes (Elt F) f0 [⟨Rect.whole cc0_scratch2.ty.shape, rowsVal fi fw k.val 0⟩]) x
      = rowsVal fi fw k.val 0 x := fun x => by
    have := View.read_writes_cons_emb (r0V).view f0 (Rect.whole cc0_scratch2.ty.shape) (rowsVal fi fw k.val 0) [] x
    rwa [Rect.emb_whole_apply] at this
  have e1 : ∀ i ∈ (oChunk L k 0).view.set, (oChunk L k 0).view.writes (Elt F) g0 [⟨Rect.whole S128x128, ReadAs.same.apply ((r0V).view.read (Elt F)
            ((r0V).view.writes (Elt F) f0 [⟨Rect.whole cc0_scratch2.ty.shape, rowsVal fi fw k.val 0⟩]))⟩] i = Gd i :=
    landed_congr (oChunk L k 0).view g0 _ Gd (fun x => (hG x).trans (hr x).symm)
  refine BIClass.sep_mono ?_ ?_
  · rw [show chunkSet L k.val 0 = (oChunk L k 0).view.set from (oChunk_set L k 0).symm]; exact Entails.of_eq (pointsTo_congr e1)
  · exact Entails.of_eq (pointsTo_congr e2)

theorem deliver1 (d : Dev nD) (L : grid0.Coords) (k : Fin k0_t1_loop.trips)
    (fi : S25600.Idx → BitVec 32) (fw : S1000x128.Idx → Elt F .f32)
    (g0 : Buf (Elt F) (oLoc d)) (f0 : Buf (Elt F) ((r1V).view.loc (thr d L))) (Gd : Buf (Elt F) (oLoc d))
    (gath dmaw : S128x128.Idx → Elt F .f32) (hg : gath = rowsVal fi fw k.val 1)
    (hd : dmaw = ReadAs.same.apply ((r1V).view.read (Elt F) ((r1V).view.writes (Elt F) f0 [⟨Rect.whole cc0_scratch3.ty.shape, gath⟩])))
    (hG : ∀ x, Gd ((oChunk L k 1).view.emb x) = rowsVal fi fw k.val 1 x) :
    (iprop(((oChunk L k 1).view.loc (thr d L) ↦[(oChunk L k 1).view.set]{fullShare}
          (oChunk L k 1).view.writes (Elt F) g0 [⟨Rect.whole S128x128, dmaw⟩])
        ∗ ((r1V).view.loc (thr d L) ↦[(r1V).view.set]{fullShare}
            (r1V).view.writes (Elt F) f0 [⟨Rect.whole cc0_scratch3.ty.shape, gath⟩])) : sProp 𝕄)
    ⊢ iprop((oLoc d ↦[chunkSet L k.val 1]{fullShare} Gd)
        ∗ ((r1V).view.loc (thr d L) ↦[(r1V).view.set]{fullShare} rowsVal fi fw k.val 1)) := by
  subst hd
  subst hg
  have e2 : ∀ i ∈ (r1V).view.set, (r1V).view.writes (Elt F) f0 [⟨Rect.whole cc0_scratch3.ty.shape, rowsVal fi fw k.val 1⟩] i
      = (rowsVal fi fw k.val 1 : Buf (Elt F) ((r1V).view.loc (thr d L))) i :=
    landed_congr (r1V).view f0 (rowsVal fi fw k.val 1) (rowsVal fi fw k.val 1) (fun x => rfl)
  have hr : ∀ x, (r1V).view.read (Elt F) ((r1V).view.writes (Elt F) f0 [⟨Rect.whole cc0_scratch3.ty.shape, rowsVal fi fw k.val 1⟩]) x
      = rowsVal fi fw k.val 1 x := fun x => by
    have := View.read_writes_cons_emb (r1V).view f0 (Rect.whole cc0_scratch3.ty.shape) (rowsVal fi fw k.val 1) [] x
    rwa [Rect.emb_whole_apply] at this
  have e1 : ∀ i ∈ (oChunk L k 1).view.set, (oChunk L k 1).view.writes (Elt F) g0 [⟨Rect.whole S128x128, ReadAs.same.apply ((r1V).view.read (Elt F)
            ((r1V).view.writes (Elt F) f0 [⟨Rect.whole cc0_scratch3.ty.shape, rowsVal fi fw k.val 1⟩]))⟩] i = Gd i :=
    landed_congr (oChunk L k 1).view g0 _ Gd (fun x => (hG x).trans (hr x).symm)
  refine BIClass.sep_mono ?_ ?_
  · rw [show chunkSet L k.val 1 = (oChunk L k 1).view.set from (oChunk_set L k 1).symm]; exact Entails.of_eq (pointsTo_congr e1)
  · exact Entails.of_eq (pointsTo_congr e2)

theorem deliver2 (d : Dev nD) (L : grid0.Coords) (k : Fin k0_t1_loop.trips)
    (fi : S25600.Idx → BitVec 32) (fw : S1000x128.Idx → Elt F .f32)
    (g0 : Buf (Elt F) (oLoc d)) (f0 : Buf (Elt F) ((r2V).view.loc (thr d L))) (Gd : Buf (Elt F) (oLoc d))
    (gath dmaw : S128x128.Idx → Elt F .f32) (hg : gath = rowsVal fi fw k.val 2)
    (hd : dmaw = ReadAs.same.apply ((r2V).view.read (Elt F) ((r2V).view.writes (Elt F) f0 [⟨Rect.whole cc0_scratch4.ty.shape, gath⟩])))
    (hG : ∀ x, Gd ((oChunk L k 2).view.emb x) = rowsVal fi fw k.val 2 x) :
    (iprop(((oChunk L k 2).view.loc (thr d L) ↦[(oChunk L k 2).view.set]{fullShare}
          (oChunk L k 2).view.writes (Elt F) g0 [⟨Rect.whole S128x128, dmaw⟩])
        ∗ ((r2V).view.loc (thr d L) ↦[(r2V).view.set]{fullShare}
            (r2V).view.writes (Elt F) f0 [⟨Rect.whole cc0_scratch4.ty.shape, gath⟩])) : sProp 𝕄)
    ⊢ iprop((oLoc d ↦[chunkSet L k.val 2]{fullShare} Gd)
        ∗ ((r2V).view.loc (thr d L) ↦[(r2V).view.set]{fullShare} rowsVal fi fw k.val 2)) := by
  subst hd
  subst hg
  have e2 : ∀ i ∈ (r2V).view.set, (r2V).view.writes (Elt F) f0 [⟨Rect.whole cc0_scratch4.ty.shape, rowsVal fi fw k.val 2⟩] i
      = (rowsVal fi fw k.val 2 : Buf (Elt F) ((r2V).view.loc (thr d L))) i :=
    landed_congr (r2V).view f0 (rowsVal fi fw k.val 2) (rowsVal fi fw k.val 2) (fun x => rfl)
  have hr : ∀ x, (r2V).view.read (Elt F) ((r2V).view.writes (Elt F) f0 [⟨Rect.whole cc0_scratch4.ty.shape, rowsVal fi fw k.val 2⟩]) x
      = rowsVal fi fw k.val 2 x := fun x => by
    have := View.read_writes_cons_emb (r2V).view f0 (Rect.whole cc0_scratch4.ty.shape) (rowsVal fi fw k.val 2) [] x
    rwa [Rect.emb_whole_apply] at this
  have e1 : ∀ i ∈ (oChunk L k 2).view.set, (oChunk L k 2).view.writes (Elt F) g0 [⟨Rect.whole S128x128, ReadAs.same.apply ((r2V).view.read (Elt F)
            ((r2V).view.writes (Elt F) f0 [⟨Rect.whole cc0_scratch4.ty.shape, rowsVal fi fw k.val 2⟩]))⟩] i = Gd i :=
    landed_congr (oChunk L k 2).view g0 _ Gd (fun x => (hG x).trans (hr x).symm)
  refine BIClass.sep_mono ?_ ?_
  · rw [show chunkSet L k.val 2 = (oChunk L k 2).view.set from (oChunk_set L k 2).symm]; exact Entails.of_eq (pointsTo_congr e1)
  · exact Entails.of_eq (pointsTo_congr e2)

theorem deliver3 (d : Dev nD) (L : grid0.Coords) (k : Fin k0_t1_loop.trips)
    (fi : S25600.Idx → BitVec 32) (fw : S1000x128.Idx → Elt F .f32)
    (g0 : Buf (Elt F) (oLoc d)) (f0 : Buf (Elt F) ((r3V).view.loc (thr d L))) (Gd : Buf (Elt F) (oLoc d))
    (gath dmaw : S128x128.Idx → Elt F .f32) (hg : gath = rowsVal fi fw k.val 3)
    (hd : dmaw = ReadAs.same.apply ((r3V).view.read (Elt F) ((r3V).view.writes (Elt F) f0 [⟨Rect.whole cc0_scratch5.ty.shape, gath⟩])))
    (hG : ∀ x, Gd ((oChunk L k 3).view.emb x) = rowsVal fi fw k.val 3 x) :
    (iprop(((oChunk L k 3).view.loc (thr d L) ↦[(oChunk L k 3).view.set]{fullShare}
          (oChunk L k 3).view.writes (Elt F) g0 [⟨Rect.whole S128x128, dmaw⟩])
        ∗ ((r3V).view.loc (thr d L) ↦[(r3V).view.set]{fullShare}
            (r3V).view.writes (Elt F) f0 [⟨Rect.whole cc0_scratch5.ty.shape, gath⟩])) : sProp 𝕄)
    ⊢ iprop((oLoc d ↦[chunkSet L k.val 3]{fullShare} Gd)
        ∗ ((r3V).view.loc (thr d L) ↦[(r3V).view.set]{fullShare} rowsVal fi fw k.val 3)) := by
  subst hd
  subst hg
  have e2 : ∀ i ∈ (r3V).view.set, (r3V).view.writes (Elt F) f0 [⟨Rect.whole cc0_scratch5.ty.shape, rowsVal fi fw k.val 3⟩] i
      = (rowsVal fi fw k.val 3 : Buf (Elt F) ((r3V).view.loc (thr d L))) i :=
    landed_congr (r3V).view f0 (rowsVal fi fw k.val 3) (rowsVal fi fw k.val 3) (fun x => rfl)
  have hr : ∀ x, (r3V).view.read (Elt F) ((r3V).view.writes (Elt F) f0 [⟨Rect.whole cc0_scratch5.ty.shape, rowsVal fi fw k.val 3⟩]) x
      = rowsVal fi fw k.val 3 x := fun x => by
    have := View.read_writes_cons_emb (r3V).view f0 (Rect.whole cc0_scratch5.ty.shape) (rowsVal fi fw k.val 3) [] x
    rwa [Rect.emb_whole_apply] at this
  have e1 : ∀ i ∈ (oChunk L k 3).view.set, (oChunk L k 3).view.writes (Elt F) g0 [⟨Rect.whole S128x128, ReadAs.same.apply ((r3V).view.read (Elt F)
            ((r3V).view.writes (Elt F) f0 [⟨Rect.whole cc0_scratch5.ty.shape, rowsVal fi fw k.val 3⟩]))⟩] i = Gd i :=
    landed_congr (oChunk L k 3).view g0 _ Gd (fun x => (hG x).trans (hr x).symm)
  refine BIClass.sep_mono ?_ ?_
  · rw [show chunkSet L k.val 3 = (oChunk L k 3).view.set from (oChunk_set L k 3).symm]; exact Entails.of_eq (pointsTo_congr e1)
  · exact Entails.of_eq (pointsTo_congr e2)

theorem deliver4 (d : Dev nD) (L : grid0.Coords) (k : Fin k0_t1_loop.trips)
    (fi : S25600.Idx → BitVec 32) (fw : S1000x128.Idx → Elt F .f32)
    (g0 : Buf (Elt F) (oLoc d)) (f0 : Buf (Elt F) ((r4V).view.loc (thr d L))) (Gd : Buf (Elt F) (oLoc d))
    (gath dmaw : S128x128.Idx → Elt F .f32) (hg : gath = rowsVal fi fw k.val 4)
    (hd : dmaw = ReadAs.same.apply ((r4V).view.read (Elt F) ((r4V).view.writes (Elt F) f0 [⟨Rect.whole cc0_scratch6.ty.shape, gath⟩])))
    (hG : ∀ x, Gd ((oChunk L k 4).view.emb x) = rowsVal fi fw k.val 4 x) :
    (iprop(((oChunk L k 4).view.loc (thr d L) ↦[(oChunk L k 4).view.set]{fullShare}
          (oChunk L k 4).view.writes (Elt F) g0 [⟨Rect.whole S128x128, dmaw⟩])
        ∗ ((r4V).view.loc (thr d L) ↦[(r4V).view.set]{fullShare}
            (r4V).view.writes (Elt F) f0 [⟨Rect.whole cc0_scratch6.ty.shape, gath⟩])) : sProp 𝕄)
    ⊢ iprop((oLoc d ↦[chunkSet L k.val 4]{fullShare} Gd)
        ∗ ((r4V).view.loc (thr d L) ↦[(r4V).view.set]{fullShare} rowsVal fi fw k.val 4)) := by
  subst hd
  subst hg
  have e2 : ∀ i ∈ (r4V).view.set, (r4V).view.writes (Elt F) f0 [⟨Rect.whole cc0_scratch6.ty.shape, rowsVal fi fw k.val 4⟩] i
      = (rowsVal fi fw k.val 4 : Buf (Elt F) ((r4V).view.loc (thr d L))) i :=
    landed_congr (r4V).view f0 (rowsVal fi fw k.val 4) (rowsVal fi fw k.val 4) (fun x => rfl)
  have hr : ∀ x, (r4V).view.read (Elt F) ((r4V).view.writes (Elt F) f0 [⟨Rect.whole cc0_scratch6.ty.shape, rowsVal fi fw k.val 4⟩]) x
      = rowsVal fi fw k.val 4 x := fun x => by
    have := View.read_writes_cons_emb (r4V).view f0 (Rect.whole cc0_scratch6.ty.shape) (rowsVal fi fw k.val 4) [] x
    rwa [Rect.emb_whole_apply] at this
  have e1 : ∀ i ∈ (oChunk L k 4).view.set, (oChunk L k 4).view.writes (Elt F) g0 [⟨Rect.whole S128x128, ReadAs.same.apply ((r4V).view.read (Elt F)
            ((r4V).view.writes (Elt F) f0 [⟨Rect.whole cc0_scratch6.ty.shape, rowsVal fi fw k.val 4⟩]))⟩] i = Gd i :=
    landed_congr (oChunk L k 4).view g0 _ Gd (fun x => (hG x).trans (hr x).symm)
  refine BIClass.sep_mono ?_ ?_
  · rw [show chunkSet L k.val 4 = (oChunk L k 4).view.set from (oChunk_set L k 4).symm]; exact Entails.of_eq (pointsTo_congr e1)
  · exact Entails.of_eq (pointsTo_congr e2)

end Cert.Proof.KB

end
-- ==== Proof.KB.Cells.lean ====
/-
  The subcore barrier's cells and what crosses them. Before the barrier each subcore has filled its own rows of
  its SparseCore's shared table (rows 64 j to 64 j + 63, the last subcore 960 to 999); at the barrier subcore n
  hands every subcore i a read share of those rows, so that after it every subcore holds a read share of the
  whole shared table, at the table's contents. Also: what the one call hands each subcore and takes back.
-/
import proofs.«204301_g9028021256511_cont_9to1_m_920_22_alg».proof.Proof.KB.Values

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

variable (m : (ℓ : Loc nD τ sig) → Buf (Elt F) ℓ) (ρ : Dev nD → PrngReg)

/-! ## The buffers' contents as the kernel finds them -/

/-- The table. -/
abbrev Wd (d : Dev nD) : S1000x128.Idx → Elt F .f32 := m (wLoc d)
/-- The shared table's contents once filled: the table's. -/
abbrev Wsh (d : Dev nD) (c : Fin τ.nSC) : Buf (Elt F) (shLoc d c) := Wd m d

/-- The rows of the shared table subcore `n` fills. -/
def rowS (i : S1000x128.Idx) : ℕ := (i 0).val
theorem rowS_lt (i : S1000x128.Idx) : rowS i < 1000 := (i 0).isLt
def shSet (n : ℕ) : Finset S1000x128.Idx := Finset.univ.filter fun i => rowS i / 64 = n
theorem mem_shSet {n : ℕ} {i : S1000x128.Idx} : i ∈ shSet n ↔ rowS i / 64 = n := by
  unfold shSet; exact Finset.mem_filter.trans (and_iff_right (Finset.mem_univ _))

theorem shSets_disjoint : ∀ a ∈ (Finset.univ : Finset (Fin 16)), ∀ b ∈ (Finset.univ : Finset (Fin 16)), a ≠ b → Disjoint (shSet a.val) (shSet b.val) := by
  intro a _ b _ hab
  refine Finset.disjoint_left.mpr fun i ha hb => hab (Fin.ext ?_)
  rw [mem_shSet] at ha hb
  omega
theorem shSets_cover : (Finset.univ : Finset (Fin 16)).biUnion (fun n => shSet n.val) = Finset.univ := by
  ext i
  simp only [Finset.mem_biUnion, Finset.mem_univ, true_and, iff_true]
  have := rowS_lt i
  exact ⟨⟨rowS i / 64, by omega⟩, mem_shSet.mpr rfl⟩

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What subcore `n`'s arrival hands the subcore whose cell it signals: a read share of the rows `n` filled. -/
def bPay (g : GSem nD τ sig) (n : ℕ) : sProp 𝕄 :=
  match g with
  | ((d, .scVector c j), _) => shLoc d c ↦[shSet n]{Transfers.shareTokN fullShare j.val} Wsh m d c
  | _ => iprop(emp)

def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: one unit on every subcore's cell of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A subcore's barrier kit: every cell's invariant of its SparseCore and that each has reached round 0, its duty
    token in every cell's round 0, its own position, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KB

end
-- ==== Proof.KB.Sets.lean ====
/-
  A subcore's 25,600 output rows as forty rounds of five chunks of 128 rows, and the value each chunk receives:
  row (the subcore's base + 640 k + 128 s + r) of the output is the table's row named by index word
  (640 k + 128 s + r) of the subcore's own 25,600 words, which is word (base + 640 k + 128 s + r) of the flat indices.
-/
import proofs.«204301_g9028021256511_cont_9to1_m_920_22_alg».proof.Proof.KB.Cells

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

/-- The rows of subcore `L`: 25,600 consecutive ones. -/
def tileNo (L : grid0.Coords) : ℕ := 2 * (L 1).val + (L 0).val
def tileSet (L : grid0.Coords) : Finset S819200x128.Idx := Finset.univ.filter fun i => rowN i / 25600 = tileNo L
theorem mem_tileSet {L : grid0.Coords} {i : S819200x128.Idx} : i ∈ tileSet L ↔ rowN i / 25600 = tileNo L := by
  unfold tileSet; exact Finset.mem_filter.trans (and_iff_right (Finset.mem_univ _))

theorem L0_lt (L : grid0.Coords) : (L 0).val < 2 := (L 0).isLt
theorem L1_lt (L : grid0.Coords) : (L 1).val < 16 := (L 1).isLt

theorem chunks_disj (L : grid0.Coords) (k : ℕ) :
    ∀ s ∈ Finset.range 5, ∀ s' ∈ Finset.range 5, s ≠ s' → Disjoint (chunkSet L k s) (chunkSet L k s') := by
  intro s _ s' _ hss
  refine Finset.disjoint_left.mpr fun i h1 h2 => hss ?_
  rw [mem_chunkSet] at h1 h2
  unfold chunkNo at h1 h2
  omega

theorem rows_disj (L : grid0.Coords) :
    ∀ k ∈ Finset.range 40, ∀ k' ∈ Finset.range 40, k ≠ k' →
      Disjoint ((Finset.range 5).biUnion fun s => chunkSet L k s) ((Finset.range 5).biUnion fun s => chunkSet L k' s) := by
  intro k _ k' _ hkk
  refine Finset.disjoint_left.mpr fun i h1 h2 => hkk ?_
  obtain ⟨s, hs, h1⟩ := Finset.mem_biUnion.mp h1
  obtain ⟨s', hs', h2⟩ := Finset.mem_biUnion.mp h2
  rw [mem_chunkSet] at h1 h2
  rw [Finset.mem_range] at hs hs'
  unfold chunkNo at h1 h2
  omega

theorem tile_chunks (L : grid0.Coords) :
    tileSet L = (Finset.range 40).biUnion fun k => (Finset.range 5).biUnion fun s => chunkSet L k s := by
  ext i
  simp only [Finset.mem_biUnion, Finset.mem_range, mem_chunkSet, mem_tileSet]
  unfold chunkNo tileNo
  have h0 := L0_lt L
  have h1 := L1_lt L
  have hr := rowN_lt i
  constructor
  · intro h
    exact ⟨(rowN i % 25600) / 640, by omega, (rowN i % 640) / 128, by omega, by omega⟩
  · rintro ⟨k, hk, s, hs, h⟩
    omega

theorem tile_split (d : Dev nD) (L : grid0.Coords) (q : PosShare TreeShare) (f : Buf (Elt F) (oLoc d)) :
    (oLoc d ↦[tileSet L]{q} f : sProp 𝕄)
      = bigSep (Finset.range 40) fun k => bigSep (Finset.range 5) fun s => oLoc d ↦[chunkSet L k s]{q} f := by
  rw [tile_chunks]
  refine (pointsTo_biUnion (ℓ := oLoc d) (q := q) (f := f) (Finset.range 40) (fun k => (Finset.range 5).biUnion fun s => chunkSet L k s) (rows_disj L)).trans ?_
  refine bigSep_congr fun k _ => ?_
  exact pointsTo_biUnion (ℓ := oLoc d) (q := q) (f := f) (Finset.range 5) (fun s => chunkSet L k s) (chunks_disj L k)

/-- The subcore's own index words, as the program slices them out of the flat indices. -/
abbrev xRect (L : grid0.Coords) : Rect S819200 := Rect.unit (s := S819200) (k0_off2 L) S25600.size (k0_off2_inb L)
abbrev xSlice (L : grid0.Coords) : Memref sig .scVector .hbm S25600 .i32 := (xfV).slice (xRect L) (fun _ => rfl)
/-- What the index scratch holds after its fetch. -/
def fiT (X : S819200.Idx → BitVec 32) (L : grid0.Coords) : S25600.Idx → BitVec 32 := fun n => X ((xRect L).emb n)

/-- An output entry of chunk `(k, s)` is what the chunk's indexed copy brought. -/
theorem hG_closed (X : S819200.Idx → BitVec 32) (Wt : S1000x128.Idx → Elt F .f32) (L : grid0.Coords)
    (k : Fin k0_t1_loop.trips) (s : Fin 5) (x : S128x128.Idx) :
    Gflat X Wt ((oChunk L k s).view.emb x) = rowsVal (fiT X L) Wt k.val s.val x := by
  unfold Gflat rowsVal fiT
  have hk : k.val < 40 := trips_eq ▸ k.isLt
  have hs := s.isLt
  have hx0 : (x 0).val < 128 := (x 0).isLt
  have h0 := L0_lt L
  have h1 := L1_lt L
  have e1 : (ix1 (((oChunk L k s).view.emb x) 0) : S819200.Idx) = (xRect L).emb (idxAt k.val s.val (x 0).val) := by
    funext a
    obtain rfl : a = 0 := Subsingleton.elim _ _
    refine Fin.ext ?_
    show (k0_off9 L k (BitVec.ofNat 32 (128 * s.val))) 0 + 1 * (x 0).val = (k0_off2 L) 0 + 1 * ((640 * k.val + 128 * s.val + (x 0).val) % 25600)
    rw [k0_off9_eq, k0_off2_eq]
    show 51200 * (L 1).val + 25600 * (L 0).val + 640 * k.val + 128 * s.val + 1 * (x 0).val = 51200 * (L 1).val + 25600 * (L 0).val + 1 * ((640 * k.val + 128 * s.val + (x 0).val) % 25600)
    omega
  have e2 : ((oChunk L k s).view.emb x) 1 = x 1 := by
    refine Fin.ext ?_
    show (k0_off9 L k (BitVec.ofNat 32 (128 * s.val))) 1 + 1 * (x 1).val = (x 1).val
    rw [k0_off9_eq]
    show 0 + 1 * (x 1).val = (x 1).val
    omega
  rw [e1, e2]

end Cert.Proof.KB

end
-- ==== Proof.KB.Inv.lean ====
/-
  The invariant of a subcore's loop. Before trip n: the index scratch and the shared table's read shares
  as found; each slot free (first trip) or its previous write-back in flight; the chunks of the rounds before the
  previous one already at the expected output, those from round n on untouched.
-/
import proofs.«204301_g9028021256511_cont_9to1_m_920_22_alg».proof.Proof.KB.Deliver
import proofs.«204301_g9028021256511_cont_9to1_m_920_22_alg».proof.Proof.KB.Sets

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

/-- The five chunks of round `k`, all at `f`. -/
def rowAll (d : Dev nD) (L : grid0.Coords) (f : Buf (Elt F) (oLoc d)) (k : ℕ) : sProp 𝕄 :=
  bigSep (Finset.range 5) fun s => oLoc d ↦[chunkSet L k s]{fullShare} f

theorem rowAll_eq (d : Dev nD) (L : grid0.Coords) (f : Buf (Elt F) (oLoc d)) (k : ℕ) :
    rowAll d L f k = iprop((oLoc d ↦[chunkSet L k 0]{fullShare} f) ∗ (oLoc d ↦[chunkSet L k 1]{fullShare} f)
      ∗ (oLoc d ↦[chunkSet L k 2]{fullShare} f) ∗ (oLoc d ↦[chunkSet L k 3]{fullShare} f) ∗ (oLoc d ↦[chunkSet L k 4]{fullShare} f)) := by
  unfold rowAll
  rw [show Finset.range 5 = {0, 1, 2, 3, 4} by decide, SparseCore.bigSep_insert' (by decide), SparseCore.bigSep_insert' (by decide),
    SparseCore.bigSep_insert' (by decide), SparseCore.bigSep_insert' (by decide), bigSep_singleton]

theorem pts_chunk (d : Dev nD) (L : grid0.Coords) (k : Fin k0_t1_loop.trips) (s : Fin 5) (f : Buf (Elt F) (oLoc d)) :
    ((oChunk L k s).view.loc (thr d L) ↦[(oChunk L k s).view.set]{fullShare} f : sProp 𝕄) = oLoc d ↦[chunkSet L k.val s.val]{fullShare} f := by
  rw [oChunk_set]

/-- Slot 0 before trip `n`. -/
def slot0 (d : Dev nD) (L : grid0.Coords) (fi : S25600.Idx → BitVec 32) (fw : S1000x128.Idx → Elt F .f32) (Gd : Buf (Elt F) (oLoc d)) (n : ℕ) : sProp 𝕄 :=
  if n = 0 then iprop((∃ f, (r0V).view.loc (thr d L) ↦{fullShare} f) ∗ semVal (thr d L, SemLoc.dma cc0_scratch12.sem) 0)
  else Transfers.Flight (countersEmb (U := UU)) (thr d L) (SemLoc.dma cc0_scratch12.sem) (default : HIx 1) 524288
          iprop((oLoc d ↦[chunkSet L (n - 1) 0]{fullShare} Gd) ∗ ((r0V).view.loc (thr d L) ↦[(r0V).view.set]{fullShare} rowsVal fi fw (n - 1) 0))

/-- Slot 1 before trip `n`. -/
def slot1 (d : Dev nD) (L : grid0.Coords) (fi : S25600.Idx → BitVec 32) (fw : S1000x128.Idx → Elt F .f32) (Gd : Buf (Elt F) (oLoc d)) (n : ℕ) : sProp 𝕄 :=
  if n = 0 then iprop((∃ f, (r1V).view.loc (thr d L) ↦{fullShare} f) ∗ semVal (thr d L, SemLoc.dma cc0_scratch13.sem) 0)
  else Transfers.Flight (countersEmb (U := UU)) (thr d L) (SemLoc.dma cc0_scratch13.sem) (default : HIx 1) 524288
          iprop((oLoc d ↦[chunkSet L (n - 1) 1]{fullShare} Gd) ∗ ((r1V).view.loc (thr d L) ↦[(r1V).view.set]{fullShare} rowsVal fi fw (n - 1) 1))

/-- Slot 2 before trip `n`. -/
def slot2 (d : Dev nD) (L : grid0.Coords) (fi : S25600.Idx → BitVec 32) (fw : S1000x128.Idx → Elt F .f32) (Gd : Buf (Elt F) (oLoc d)) (n : ℕ) : sProp 𝕄 :=
  if n = 0 then iprop((∃ f, (r2V).view.loc (thr d L) ↦{fullShare} f) ∗ semVal (thr d L, SemLoc.dma cc0_scratch14.sem) 0)
  else Transfers.Flight (countersEmb (U := UU)) (thr d L) (SemLoc.dma cc0_scratch14.sem) (default : HIx 1) 524288
          iprop((oLoc d ↦[chunkSet L (n - 1) 2]{fullShare} Gd) ∗ ((r2V).view.loc (thr d L) ↦[(r2V).view.set]{fullShare} rowsVal fi fw (n - 1) 2))

/-- Slot 3 before trip `n`. -/
def slot3 (d : Dev nD) (L : grid0.Coords) (fi : S25600.Idx → BitVec 32) (fw : S1000x128.Idx → Elt F .f32) (Gd : Buf (Elt F) (oLoc d)) (n : ℕ) : sProp 𝕄 :=
  if n = 0 then iprop((∃ f, (r3V).view.loc (thr d L) ↦{fullShare} f) ∗ semVal (thr d L, SemLoc.dma cc0_scratch15.sem) 0)
  else Transfers.Flight (countersEmb (U := UU)) (thr d L) (SemLoc.dma cc0_scratch15.sem) (default : HIx 1) 524288
          iprop((oLoc d ↦[chunkSet L (n - 1) 3]{fullShare} Gd) ∗ ((r3V).view.loc (thr d L) ↦[(r3V).view.set]{fullShare} rowsVal fi fw (n - 1) 3))

/-- Slot 4 before trip `n`. -/
def slot4 (d : Dev nD) (L : grid0.Coords) (fi : S25600.Idx → BitVec 32) (fw : S1000x128.Idx → Elt F .f32) (Gd : Buf (Elt F) (oLoc d)) (n : ℕ) : sProp 𝕄 :=
  if n = 0 then iprop((∃ f, (r4V).view.loc (thr d L) ↦{fullShare} f) ∗ semVal (thr d L, SemLoc.dma cc0_scratch16.sem) 0)
  else Transfers.Flight (countersEmb (U := UU)) (thr d L) (SemLoc.dma cc0_scratch16.sem) (default : HIx 1) 524288
          iprop((oLoc d ↦[chunkSet L (n - 1) 4]{fullShare} Gd) ∗ ((r4V).view.loc (thr d L) ↦[(r4V).view.set]{fullShare} rowsVal fi fw (n - 1) 4))

def inv (d : Dev nD) (L : grid0.Coords) (O : CellTallies nD τ sig (HIx 1)) (W : Waits sig (HIx 1)) (q : PosShare TreeShare)
    (fi : S25600.Idx → BitVec 32) (fw : S1000x128.Idx → Elt F .f32) (g0 Gd : Buf (Elt F) (oLoc d)) (n : ℕ) (_ : Unit) : sProp 𝕄 :=
  iprop(Transfers.MayWaits (thr d L) (none : HIx 1) O
    ∗ ((idxV).view.loc (thr d L) ↦{fullShare} fi)
    ∗ ((shV).view.loc (thr d L) ↦{Transfers.shareTok q 5 0} fw)
    ∗ ((shV).view.loc (thr d L) ↦{Transfers.shareTok q 5 1} fw)
    ∗ ((shV).view.loc (thr d L) ↦{Transfers.shareTok q 5 2} fw)
    ∗ ((shV).view.loc (thr d L) ↦{Transfers.shareTok q 5 3} fw)
    ∗ ((shV).view.loc (thr d L) ↦{Transfers.shareTok q 5 4} fw)
    ∗ semVal (thr d L, SemLoc.dma cc0_scratch7.sem) 0
    ∗ semVal (thr d L, SemLoc.dma cc0_scratch8.sem) 0
    ∗ semVal (thr d L, SemLoc.dma cc0_scratch9.sem) 0
    ∗ semVal (thr d L, SemLoc.dma cc0_scratch10.sem) 0
    ∗ semVal (thr d L, SemLoc.dma cc0_scratch11.sem) 0
    ∗ slot0 d L fi fw Gd n
    ∗ slot1 d L fi fw Gd n
    ∗ slot2 d L fi fw Gd n
    ∗ slot3 d L fi fw Gd n
    ∗ slot4 d L fi fw Gd n
    ∗ bigSep (Finset.range (n - 1)) (rowAll d L Gd)
    ∗ bigSep (Finset.Ico n 40) (rowAll d L g0)
    ∗ ∃ W', ⌜∀ p ∈ W', p ∈ W ∨ p.2 = none ∨ p.2 = some (0 : Fin 1)⌝ ∗ owes (thr d L) O W')

end Cert.Proof.KB

end
-- ==== Proof.KB.Pay.lean ====
/-
  What the one call hands each subcore and takes back: a read share of the table and of the flat indices, its
  own 25,600 output rows (back at the expected output), and its own rows of the shared table (back as a read share
  of the whole shared table and the unshared remainder of its own rows, both at the table's contents).
-/
import proofs.«204301_g9028021256511_cont_9to1_m_920_22_alg».proof.Proof.KB.Inv

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

variable (m : (ℓ : Loc nD τ sig) → Buf (Elt F) ℓ) (X : Dev nD → S819200.Idx → BitVec 32)

/-- The expected flat output. -/
abbrev Gd (d : Dev nD) : Buf (Elt F) (oLoc d) := Gflat (X d) (Wd m d)

/-- Which of the thirty-two read shares subcore `L` holds. -/
def tokNo (L : grid0.Coords) : ℕ := (L 1).val + 16 * (L 0).val

/-- What the call hands subcore `L` besides its rows of the shared table, the output rows at `f`. -/
def mainPay (d : Dev nD) (L : grid0.Coords) (f : Buf (Elt F) (oLoc d)) : sProp 𝕄 :=
  iprop((wLoc d ↦{Transfers.shareTokN fullShare (tokNo L)} m (wLoc d))
    ∗ (xfLoc d ↦{Transfers.shareTokN fullShare (tokNo L)} X d)
    ∗ (oLoc d ↦[tileSet L]{fullShare} f))

def goPay (d : Dev nD) (L : grid0.Coords) : sProp 𝕄 :=
  iprop(mainPay m X d L (m (oLoc d)) ∗ ∃ f, shLoc d (cV L) ↦[shSet (L 1).val]{fullShare} f)

def tdPay (d : Dev nD) (L : grid0.Coords) : sProp 𝕄 :=
  iprop(mainPay m X d L (Gd m X d)
    ∗ (shLoc d (cV L) ↦{Transfers.shareTokN fullShare (L 1).val} Wsh m d (cV L))
    ∗ (shLoc d (cV L) ↦[shSet (L 1).val]{Transfers.shareDrop fullShare 16} Wsh m d (cV L)))

instance mainPay_storable (d : Dev nD) (L : grid0.Coords) (f : Buf (Elt F) (oLoc d)) : BI.Storable (upEmb : UEmb _ 𝕄) (mainPay m X d L f) := by
  unfold mainPay; infer_instance
instance goPay_storable (d : Dev nD) (L : grid0.Coords) : BI.Storable (upEmb : UEmb _ 𝕄) (goPay m X d L) := by
  unfold goPay; infer_instance
instance tdPay_storable (d : Dev nD) (L : grid0.Coords) : BI.Storable (upEmb : UEmb _ 𝕄) (tdPay m X d L) := by
  unfold tdPay; infer_instance

end Cert.Proof.KB

end
-- ==== Proof.KB.TileLemmas.lean ====
/-
  Lemmas for one subcore's task: the subcore's rows of the shared table as the program slices them, what its two
  fetches land, what the barrier brings, and the subcore's own scratch buffers and semaphores listed one by one.
-/
import proofs.«204301_g9028021256511_cont_9to1_m_920_22_alg».proof.Proof.KB.Pay

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

variable (m : (ℓ : Loc nD τ sig) → Buf (Elt F) ℓ) (X : Dev nD → S819200.Idx → BitVec 32)

theorem cond1_iff : ∀ L : grid0.Coords, k0_cond1 L = 1#1 ↔ (L 1).val < 15 := by decide +kernel
theorem cond2_iff : ∀ L : grid0.Coords,
    Scalar.cmpi .ne (Scalar.extui (Scalar.cmpi .eq (BitVec.ofNat 32 (L 1).val) 15#32)) 0#32 = 1#1 ↔ (L 1).val = 15 := by decide +kernel

section Tile

variable (d : Dev nD) (L : grid0.Coords)

/-- The subcore's own rows of the shared table and of the table, as the program slices them. -/
abbrev shRectLo (h : k0_cond1 L = 1#1) : Rect S1000x128 := Rect.unit (s := S1000x128) (k0_off1 L) S64x128.size (k0_off1_inb L h)
abbrev shRectHi : Rect S1000x128 := Rect.unit (s := S1000x128) ![960, 0] S40x128.size inb_S1000x128_S40x128_960_0
abbrev shSliceLo (h : k0_cond1 L = 1#1) : Memref sig .scVector .shared S64x128 .f32 := (shV).slice (shRectLo L h) (fun _ => rfl)
abbrev shSliceHi : Memref sig .scVector .shared S40x128 .f32 := (shV).slice shRectHi (fun _ => rfl)
abbrev wSliceLo (h : k0_cond1 L = 1#1) : Memref sig .scVector .hbm S64x128 .f32 := (wV).slice (shRectLo L h) (fun _ => rfl)
abbrev wSliceHi : Memref sig .scVector .hbm S40x128 .f32 := (wV).slice shRectHi (fun _ => rfl)

omit [FloatOps F] in
theorem shSliceLo_set (h : k0_cond1 L = 1#1) : (shSliceLo L h).view.set = shSet (L 1).val := by
  show ((View.whole (cc0_scratch1 : Ref sig .scVector)).slice (shRectLo L h)).set = _
  rw [View.set_slice_whole]
  ext i
  rw [Rect.mem_set_unit, k0_off1_eq, mem_shSet]
  have hj := (cond1_iff L).mp h
  have hr := rowS_lt i
  constructor
  · intro hh
    have h0 : 64 * (L 1).val ≤ rowS i ∧ rowS i < 64 * (L 1).val + 64 := hh (0 : Fin 2)
    omega
  · intro hh a
    match a with
    | ⟨0, _⟩ =>
      show 64 * (L 1).val ≤ rowS i ∧ rowS i < 64 * (L 1).val + 64
      omega
    | ⟨1, _⟩ =>
      have h1 : (i 1).val < 128 := (i 1).isLt
      show (0 : ℕ) ≤ (i 1).val ∧ (i 1).val < 0 + 128
      omega

omit [FloatOps F] in
theorem shSliceHi_set (hj : (L 1).val = 15) : (shSliceHi).view.set = shSet (L 1).val := by
  show ((View.whole (cc0_scratch1 : Ref sig .scVector)).slice shRectHi).set = _
  rw [View.set_slice_whole]
  ext i
  rw [Rect.mem_set_unit, mem_shSet, hj]
  have hr := rowS_lt i
  constructor
  · intro hh
    have h0 : 960 ≤ rowS i ∧ rowS i < 960 + 40 := hh (0 : Fin 2)
    omega
  · intro hh a
    match a with
    | ⟨0, _⟩ =>
      show 960 ≤ rowS i ∧ rowS i < 960 + 40
      omega
    | ⟨1, _⟩ =>
      have h1 : (i 1).val < 128 := (i 1).isLt
      show (0 : ℕ) ≤ (i 1).val ∧ (i 1).val < 0 + 128
      omega

/-- The rows a subcore filled hold the table's contents there. -/
theorem sh_landed_lo (h : k0_cond1 L = 1#1) (fsh : Buf (Elt F) (shLoc d (cV L))) :
    ((shSliceLo L h).view.loc (thr d L) ↦[(shSliceLo L h).view.set]{fullShare}
        (shSliceLo L h).view.writes (Elt F) fsh [⟨Rect.whole S64x128, ReadAs.same.apply ((wSliceLo L h).view.read (Elt F) (m (wLoc d)))⟩] : sProp 𝕄)
      = shLoc d (cV L) ↦[shSet (L 1).val]{fullShare} Wsh m d (cV L) := by
  rw [pointsTo_congr (landed_congr (shSliceLo L h).view fsh _ (Wsh m d (cV L)) (fun x => rfl)), shSliceLo_set]
  rfl

theorem sh_landed_hi (hj : (L 1).val = 15) (fsh : Buf (Elt F) (shLoc d (cV L))) :
    ((shSliceHi).view.loc (thr d L) ↦[(shSliceHi).view.set]{fullShare}
        (shSliceHi).view.writes (Elt F) fsh [⟨Rect.whole S40x128, ReadAs.same.apply ((wSliceHi).view.read (Elt F) (m (wLoc d)))⟩] : sProp 𝕄)
      = shLoc d (cV L) ↦[shSet (L 1).val]{fullShare} Wsh m d (cV L) := by
  rw [pointsTo_congr (landed_congr (shSliceHi).view fsh _ (Wsh m d (cV L)) (fun x => rfl)), shSliceHi_set L hj]
  rfl

/-- The index scratch after its fetch holds the subcore's own index words. -/
theorem idx_landed (fi0 : Buf (Elt F) ((idxV).view.loc (thr d L))) :
    ((idxV).view.loc (thr d L) ↦[(idxV).view.set]{fullShare}
        (idxV).view.writes (Elt F) fi0 [⟨Rect.whole cc0_scratch0.ty.shape, ReadAs.same.apply ((xSlice L).view.read (Elt F) (X d))⟩] : sProp 𝕄)
      = (idxV).view.loc (thr d L) ↦{fullShare} (fiT (X d) L : Buf (Elt F) ((idxV).view.loc (thr d L))) := by
  rw [pointsTo_congr (landed_congr (idxV).view fi0 _ (fiT (X d) L) (fun x => rfl))]
  simp only [Memref.view_whole, View.set_whole]

/-- Every index word the loop's copies read names a table row. -/
theorem hin_of (hX : ∀ n, (X d n).toNat < 1000) :
    ∀ (r : Rect S25600) (h : ∀ a, r.stride a = 1) x, ((((idxV).slice r h).view.read (Elt F) (fiT (X d) L)) x).toNat < 1000 :=
  fun r _ x => hX ((xRect L).emb (r.emb x))

/-- After the barrier: a read share of every subcore's rows is a read share of the whole shared table. -/
theorem pays_elim : (bigSep ((bRd (F := F) m).duties (bcell d (cV L) (jV L)) 0 \ ∅) fun n => (bRd (F := F) m).payload (bcell d (cV L) (jV L)) 0 n)
    ⊢ ((shV).view.loc (thr d L) ↦{Transfers.shareTokN fullShare (L 1).val} Wsh m d (cV L) : sProp 𝕄) := by
  rw [Finset.sdiff_empty, bRd_duties₀, SparseCore.bigSep_image_of_injOn (fun a _ b _ e => Fin.val_injective e)]
  show (bigSep (Finset.univ : Finset (Fin 16)) fun n => shLoc d (cV L) ↦[shSet n.val]{Transfers.shareTokN fullShare (L 1).val} Wsh m d (cV L)) ⊢ _
  rw [← pointsTo_biUnion (ℓ := shLoc d (cV L)) (q := Transfers.shareTokN fullShare (L 1).val) (f := Wsh m d (cV L)) Finset.univ (fun n : Fin 16 => shSet n.val) shSets_disjoint, shSets_cover]
  exact BI.Entails.refl _

theorem toks5_eq (q : PosShare TreeShare) (fw : Buf (Elt F) ((shV).view.loc (thr d L))) :
    (bigSep Finset.univ fun i : Fin 5 => ((shV).view.loc (thr d L) ↦{Transfers.shareTok q 5 i} fw : sProp 𝕄))
      = iprop(((shV).view.loc (thr d L) ↦{Transfers.shareTok q 5 0} fw) ∗ ((shV).view.loc (thr d L) ↦{Transfers.shareTok q 5 1} fw)
          ∗ ((shV).view.loc (thr d L) ↦{Transfers.shareTok q 5 2} fw) ∗ ((shV).view.loc (thr d L) ↦{Transfers.shareTok q 5 3} fw)
          ∗ ((shV).view.loc (thr d L) ↦{Transfers.shareTok q 5 4} fw)) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem rowAll_eq' (f : Buf (Elt F) (oLoc d)) (k : ℕ) :
    (bigSep (Finset.range 5) fun s => (oLoc d ↦[chunkSet L k s]{fullShare} f : sProp 𝕄))
      = iprop((oLoc d ↦[chunkSet L k 0]{fullShare} f) ∗ (oLoc d ↦[chunkSet L k 1]{fullShare} f)
      ∗ (oLoc d ↦[chunkSet L k 2]{fullShare} f) ∗ (oLoc d ↦[chunkSet L k 3]{fullShare} f) ∗ (oLoc d ↦[chunkSet L k 4]{fullShare} f)) :=
  rowAll_eq d L f k

/-- The invariant after the last trip: every slot's write-back of round 39 in flight, rounds 0 to 38 done. -/
theorem inv_end (O : CellTallies nD τ sig (HIx 1)) (W : Waits sig (HIx 1)) (q : PosShare TreeShare)
    (fi : S25600.Idx → BitVec 32) (fw : S1000x128.Idx → Elt F .f32) (g0 Gd' : Buf (Elt F) (oLoc d)) (acc : Unit) :
    inv d L O W q fi fw g0 Gd' k0_t1_loop.trips acc
      = iprop(Transfers.MayWaits (thr d L) (none : HIx 1) O
    ∗ ((idxV).view.loc (thr d L) ↦{fullShare} fi)
    ∗ ((shV).view.loc (thr d L) ↦{Transfers.shareTok q 5 0} fw)
    ∗ ((shV).view.loc (thr d L) ↦{Transfers.shareTok q 5 1} fw)
    ∗ ((shV).view.loc (thr d L) ↦{Transfers.shareTok q 5 2} fw)
    ∗ ((shV).view.loc (thr d L) ↦{Transfers.shareTok q 5 3} fw)
    ∗ ((shV).view.loc (thr d L) ↦{Transfers.shareTok q 5 4} fw)
    ∗ semVal (thr d L, SemLoc.dma cc0_scratch7.sem) 0
    ∗ semVal (thr d L, SemLoc.dma cc0_scratch8.sem) 0
    ∗ semVal (thr d L, SemLoc.dma cc0_scratch9.sem) 0
    ∗ semVal (thr d L, SemLoc.dma cc0_scratch10.sem) 0
    ∗ semVal (thr d L, SemLoc.dma cc0_scratch11.sem) 0
    ∗ Transfers.Flight (countersEmb (U := UU)) (thr d L) (SemLoc.dma cc0_scratch12.sem) (default : HIx 1) 524288
          iprop((oLoc d ↦[chunkSet L 39 0]{fullShare} Gd') ∗ ((r0V).view.loc (thr d L) ↦[(r0V).view.set]{fullShare} rowsVal fi fw 39 0))
    ∗ Transfers.Flight (countersEmb (U := UU)) (thr d L) (SemLoc.dma cc0_scratch13.sem) (default : HIx 1) 524288
          iprop((oLoc d ↦[chunkSet L 39 1]{fullShare} Gd') ∗ ((r1V).view.loc (thr d L) ↦[(r1V).view.set]{fullShare} rowsVal fi fw 39 1))
    ∗ Transfers.Flight (countersEmb (U := UU)) (thr d L) (SemLoc.dma cc0_scratch14.sem) (default : HIx 1) 524288
          iprop((oLoc d ↦[chunkSet L 39 2]{fullShare} Gd') ∗ ((r2V).view.loc (thr d L) ↦[(r2V).view.set]{fullShare} rowsVal fi fw 39 2))
    ∗ Transfers.Flight (countersEmb (U := UU)) (thr d L) (SemLoc.dma cc0_scratch15.sem) (default : HIx 1) 524288
          iprop((oLoc d ↦[chunkSet L 39 3]{fullShare} Gd') ∗ ((r3V).view.loc (thr d L) ↦[(r3V).view.set]{fullShare} rowsVal fi fw 39 3))
    ∗ Transfers.Flight (countersEmb (U := UU)) (thr d L) (SemLoc.dma cc0_scratch16.sem) (default : HIx 1) 524288
          iprop((oLoc d ↦[chunkSet L 39 4]{fullShare} Gd') ∗ ((r4V).view.loc (thr d L) ↦[(r4V).view.set]{fullShare} rowsVal fi fw 39 4))
    ∗ bigSep (Finset.range 39) (fun k => bigSep (Finset.range 5) fun s => oLoc d ↦[chunkSet L k s]{fullShare} Gd')
    ∗ bigSep (Finset.Ico 40 40) (rowAll d L g0)
    ∗ ∃ W', ⌜∀ p ∈ W', p ∈ W ∨ p.2 = none ∨ p.2 = some (0 : Fin 1)⌝ ∗ owes (thr d L) O W') := by
  rw [trips_eq]
  unfold inv
  simp only [slot0, slot1, slot2, slot3, slot4, show (40 : ℕ) ≠ 0 by decide, if_false, show (40 : ℕ) - 1 = 39 from rfl]
  rfl

theorem waits_ok {W W3 : Waits sig (HIx 1)} {a b c d' e : SemLoc sig}
    (h : ∀ p ∈ W3, p ∈ insert (SemLoc.reg sc_bar0, some (0 : Fin 1)) W ∨ p.2 = none) : True := trivial

omit [FloatOps F] in
theorem ownSems0_V :
    (ownSems0 (thr d L) : sProp 𝕄)
      = iprop(semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ semVal (thr d L, SemLoc.dma cc0_scratch16.sem) 0
          ∗ semVal (thr d L, SemLoc.dma cc0_scoped0.sem) 0
          ∗ semVal (thr d L, SemLoc.dma cc0_scoped1.sem) 0
          ∗ semVal (thr d L, SemLoc.dma cc0_scoped2.sem) 0
          ∗ bigSep ((((((((((((((ownCells (thr d L)).erase (thr d L, SemLoc.dma cc0_scratch7.sem)).erase (thr d L, SemLoc.dma cc0_scratch8.sem)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scratch15.sem)).erase (thr d L, SemLoc.dma cc0_scratch16.sem)).erase (thr d L, SemLoc.dma cc0_scoped0.sem)).erase (thr d L, SemLoc.dma cc0_scoped1.sem)).erase (thr d L, SemLoc.dma cc0_scoped2.sem)) fun g => semVal g 0) := by
  unfold SparseCore.Cfg.ownSems0
  rw [SparseCore.bigSep_erase' ((mem_ownCells (g := (thr d L, SemLoc.dma cc0_scratch7.sem))).mpr ⟨rfl, by show (SemLoc.dma cc0_scratch7.sem : SemLoc sig).isScoped .scVector = true; decide⟩),
    SparseCore.bigSep_erase' (Finset.mem_erase.mpr ⟨fun e => absurd (Prod.mk.inj e).2 (by decide), (mem_ownCells (g := (thr d L, SemLoc.dma cc0_scratch8.sem))).mpr ⟨rfl, by show (SemLoc.dma cc0_scratch8.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (thr d L, SemLoc.dma cc0_scratch9.sem))).mpr ⟨rfl, by show (SemLoc.dma cc0_scratch9.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch10.sem))).mpr ⟨rfl, by show (SemLoc.dma cc0_scratch10.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch11.sem))).mpr ⟨rfl, by show (SemLoc.dma cc0_scratch11.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch12.sem))).mpr ⟨rfl, by show (SemLoc.dma cc0_scratch12.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch13.sem))).mpr ⟨rfl, by show (SemLoc.dma cc0_scratch13.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch14.sem))).mpr ⟨rfl, by show (SemLoc.dma cc0_scratch14.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch15.sem))).mpr ⟨rfl, by show (SemLoc.dma cc0_scratch15.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch16.sem))).mpr ⟨rfl, by show (SemLoc.dma cc0_scratch16.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scoped0.sem))).mpr ⟨rfl, by show (SemLoc.dma cc0_scoped0.sem : SemLoc sig).isScoped .scVector = true; decide⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scoped1.sem))).mpr ⟨rfl, by show (SemLoc.dma cc0_scoped1.sem : SemLoc sig).isScoped .scVector = true; decide⟩⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scoped2.sem))).mpr ⟨rfl, by show (SemLoc.dma cc0_scoped2.sem : SemLoc sig).isScoped .scVector = true; decide⟩⟩⟩⟩⟩⟩⟩⟩⟩⟩⟩⟩⟩)]

omit [FloatOps F] in
theorem ownBufs_V :
    (ownBufs (thr d L) : sProp 𝕄)
      = iprop((∃ f, (thr d L).loc cc0_scratch0 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ bigSep (((((((ownRefs (τ := τ) (.scVector (cV L) (jV L))).erase ((Proc.scVector (cV L) (jV L)).devRef cc0_scratch0)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  rw [SparseCore.bigSep_erase' (SparseCore.Cfg.mem_ownRefs_of_owner (p := (Proc.scVector (cV L) (jV L))) (b := (Proc.scVector (cV L) (jV L)).devRef cc0_scratch0) rfl),
    SparseCore.bigSep_erase' (Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch0 by decide), SparseCore.Cfg.mem_ownRefs_of_owner (p := (Proc.scVector (cV L) (jV L))) (b := (Proc.scVector (cV L) (jV L)).devRef cc0_scratch6) rfl⟩⟩⟩⟩⟩)]

end Tile

end Cert.Proof.KB

end
-- ==== Proof.KB.Trip.lean ====
/-
  One trip of a subcore's loop. Five slots; in each, the wait for the slot's write-back of the previous trip (none
  at the first trip), the indexed copy of the chunk's 128 table rows into the slot's row scratch, its wait, and the
  write-back of the row scratch to the chunk's output rows, left in flight for the next trip.
-/
import proofs.«204301_g9028021256511_cont_9to1_m_920_22_alg».proof.Proof.KB.Deliver

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

theorem cond3_iff : ∀ k : Fin k0_t1_loop.trips, k0_cond3 k = 1#1 ↔ 0 < k.val := by decide +kernel
theorem cond4_iff : ∀ k : Fin k0_t1_loop.trips, k0_cond4 k = 1#1 ↔ 0 < k.val := by decide +kernel
theorem cond5_iff : ∀ k : Fin k0_t1_loop.trips, k0_cond5 k = 1#1 ↔ 0 < k.val := by decide +kernel
theorem cond6_iff : ∀ k : Fin k0_t1_loop.trips, k0_cond6 k = 1#1 ↔ 0 < k.val := by decide +kernel
theorem cond7_iff : ∀ k : Fin k0_t1_loop.trips, k0_cond7 k = 1#1 ↔ 0 < k.val := by decide +kernel

theorem ins_ok {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

set_option maxHeartbeats 8000000 in
theorem trip_first (d : Dev nD) (L : grid0.Coords) (k : Fin k0_t1_loop.trips) (hk : k.val = 0)
    (O : CellTallies nD τ sig (HIx 1)) (W : Waits sig (HIx 1)) (q : PosShare TreeShare)
    (fi : Buf (Elt F) ((idxV).view.loc (thr d L))) (fw : Buf (Elt F) ((shV).view.loc (thr d L)))
    (hin : ∀ (r : Rect S25600) (h : ∀ a, r.stride a = 1) x, ((((idxV).slice r h).view.read (Elt F) fi) x).toNat < 1000)
    (f0 f1 f2 f3 f4 : Buf (Elt F) ((r0V).view.loc (thr d L)))
    (g0 Gd : Buf (Elt F) (oLoc d))
    (hG : ∀ (s : Fin 5) x, Gd ((oChunk L k s).view.emb x) = rowsVal fi fw k.val s.val x) (v2 : BitVec 32) :
    (iprop(Transfers.MayWaits (thr d L) (none : HIx 1) O
        ∗ ((idxV).view.loc (thr d L) ↦{fullShare} fi)
        ∗ ((shV).view.loc (thr d L) ↦{Transfers.shareTok q 5 0} fw)
        ∗ ((shV).view.loc (thr d L) ↦{Transfers.shareTok q 5 1} fw)
        ∗ ((shV).view.loc (thr d L) ↦{Transfers.shareTok q 5 2} fw)
        ∗ ((shV).view.loc (thr d L) ↦{Transfers.shareTok q 5 3} fw)
        ∗ ((shV).view.loc (thr d L) ↦{Transfers.shareTok q 5 4} fw)
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ ((r0V).view.loc (thr d L) ↦{fullShare} f0) ∗ semVal (thr d L, SemLoc.dma cc0_scratch12.sem) 0
        ∗ ((r1V).view.loc (thr d L) ↦{fullShare} f1) ∗ semVal (thr d L, SemLoc.dma cc0_scratch13.sem) 0
        ∗ ((r2V).view.loc (thr d L) ↦{fullShare} f2) ∗ semVal (thr d L, SemLoc.dma cc0_scratch14.sem) 0
        ∗ ((r3V).view.loc (thr d L) ↦{fullShare} f3) ∗ semVal (thr d L, SemLoc.dma cc0_scratch15.sem) 0
        ∗ ((r4V).view.loc (thr d L) ↦{fullShare} f4) ∗ semVal (thr d L, SemLoc.dma cc0_scratch16.sem) 0
        ∗ ((oChunk L k 0).view.loc (thr d L) ↦[(oChunk L k 0).view.set]{fullShare} g0)
        ∗ ((oChunk L k 1).view.loc (thr d L) ↦[(oChunk L k 1).view.set]{fullShare} g0)
        ∗ ((oChunk L k 2).view.loc (thr d L) ↦[(oChunk L k 2).view.set]{fullShare} g0)
        ∗ ((oChunk L k 3).view.loc (thr d L) ↦[(oChunk L k 3).view.set]{fullShare} g0)
        ∗ ((oChunk L k 4).view.loc (thr d L) ↦[(oChunk L k 4).view.set]{fullShare} g0)
        ∗ owes (thr d L) O W) : sProp 𝕄)
      ⊢ wp frame (wpE (defs₀ (F := F)) 𝒱₀ (thr d L) none) Set.univ
          (k0_t1_body L xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2 v2 k ())
          (fun _ => iprop(((idxV).view.loc (thr d L) ↦{fullShare} fi)
        ∗ ((shV).view.loc (thr d L) ↦{Transfers.shareTok q 5 0} fw)
        ∗ ((shV).view.loc (thr d L) ↦{Transfers.shareTok q 5 1} fw)
        ∗ ((shV).view.loc (thr d L) ↦{Transfers.shareTok q 5 2} fw)
        ∗ ((shV).view.loc (thr d L) ↦{Transfers.shareTok q 5 3} fw)
        ∗ ((shV).view.loc (thr d L) ↦{Transfers.shareTok q 5 4} fw)
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ Transfers.Flight (countersEmb (U := UU)) (thr d L) (SemLoc.dma cc0_scratch12.sem) (default : HIx 1) 524288
          iprop((oLoc d ↦[chunkSet L k.val 0]{fullShare} Gd) ∗ ((r0V).view.loc (thr d L) ↦[(r0V).view.set]{fullShare} rowsVal fi fw k.val 0))
        ∗ Transfers.Flight (countersEmb (U := UU)) (thr d L) (SemLoc.dma cc0_scratch13.sem) (default : HIx 1) 524288
          iprop((oLoc d ↦[chunkSet L k.val 1]{fullShare} Gd) ∗ ((r1V).view.loc (thr d L) ↦[(r1V).view.set]{fullShare} rowsVal fi fw k.val 1))
        ∗ Transfers.Flight (countersEmb (U := UU)) (thr d L) (SemLoc.dma cc0_scratch14.sem) (default : HIx 1) 524288
          iprop((oLoc d ↦[chunkSet L k.val 2]{fullShare} Gd) ∗ ((r2V).view.loc (thr d L) ↦[(r2V).view.set]{fullShare} rowsVal fi fw k.val 2))
        ∗ Transfers.Flight (countersEmb (U := UU)) (thr d L) (SemLoc.dma cc0_scratch15.sem) (default : HIx 1) 524288
          iprop((oLoc d ↦[chunkSet L k.val 3]{fullShare} Gd) ∗ ((r3V).view.loc (thr d L) ↦[(r3V).view.set]{fullShare} rowsVal fi fw k.val 3))
        ∗ Transfers.Flight (countersEmb (U := UU)) (thr d L) (SemLoc.dma cc0_scratch16.sem) (default : HIx 1) 524288
          iprop((oLoc d ↦[chunkSet L k.val 4]{fullShare} Gd) ∗ ((r4V).view.loc (thr d L) ↦[(r4V).view.set]{fullShare} rowsVal fi fw k.val 4))
        ∗ ∃ W', ⌜∀ p ∈ W', p ∈ W ∨ p.2 = none⌝ ∗ owes (thr d L) O W')) := by
  have k0_h3 : ¬ k0_cond3 k = 1#1 := fun h => absurd ((cond3_iff k).mp h) (by omega)
  have k0_h4 : ¬ k0_cond4 k = 1#1 := fun h => absurd ((cond4_iff k).mp h) (by omega)
  have k0_h5 : ¬ k0_cond5 k = 1#1 := fun h => absurd ((cond5_iff k).mp h) (by omega)
  have k0_h6 : ¬ k0_cond6 k = 1#1 := fun h => absurd ((cond6_iff k).mp h) (by omega)
  have k0_h7 : ¬ k0_cond7 k = 1#1 := fun h => absurd ((cond7_iff k).mp h) (by omega)
  iintro ⟨#Hmw, Hi, Hw0, Hw1, Hw2, Hw3, Hw4, Hg0, Hg1, Hg2, Hg3, Hg4, Hr0, Hs0, Hr1, Hs1, Hr2, Hs2, Hr3, Hs3, Hr4, Hs4, Ho0, Ho1, Ho2, Ho3, Ho4, HO⟩
  unfold k0_t1_body
  sl_exec
  sl_step
  ihave Hs0' := (Transfers.Flight_mono countersEmb (thr d L) (deliver0 d L k fi fw g0 f0 Gd (trip_first.sl.gather0 d L k fi fw hin) (trip_first.sl.dma0 d L k fi fw hin f0) (gather_closed k 0 fi fw _ _) rfl (hG 0))) $$ Hs0
  ihave Hs1' := (Transfers.Flight_mono countersEmb (thr d L) (deliver1 d L k fi fw g0 f1 Gd (trip_first.sl.gather1 d L k fi fw hin) (trip_first.sl.dma0_1 d L k fi fw hin f1) (gather_closed k 1 fi fw _ _) rfl (hG 1))) $$ Hs1
  ihave Hs2' := (Transfers.Flight_mono countersEmb (thr d L) (deliver2 d L k fi fw g0 f2 Gd (trip_first.sl.gather2 d L k fi fw hin) (trip_first.sl.dma0_2 d L k fi fw hin f2) (gather_closed k 2 fi fw _ _) rfl (hG 2))) $$ Hs2
  ihave Hs3' := (Transfers.Flight_mono countersEmb (thr d L) (deliver3 d L k fi fw g0 f3 Gd (trip_first.sl.gather3 d L k fi fw hin) (trip_first.sl.dma0_3 d L k fi fw hin f3) (gather_closed k 3 fi fw _ _) rfl (hG 3))) $$ Hs3
  ihave Hs4' := (Transfers.Flight_mono countersEmb (thr d L) (deliver4 d L k fi fw g0 f4 Gd (trip_first.sl.gather4 d L k fi fw hin) (trip_first.sl.dma0_4 d L k fi fw hin f4) (gather_closed k 4 fi fw _ _) rfl (hG 4))) $$ Hs4
  isplitl [Hi]; · iexact Hi
  isplitl [Hw0]; · iexact Hw0
  isplitl [Hw1]; · iexact Hw1
  isplitl [Hw2]; · iexact Hw2
  isplitl [Hw3]; · iexact Hw3
  isplitl [Hw4]; · iexact Hw4
  isplitl [Hg0]; · iexact Hg0
  isplitl [Hg1]; · iexact Hg1
  isplitl [Hg2]; · iexact Hg2
  isplitl [Hg3]; · iexact Hg3
  isplitl [Hg4]; · iexact Hg4
  isplitl [Hs0']; · iexact Hs0'
  isplitl [Hs1']; · iexact Hs1'
  isplitl [Hs2']; · iexact Hs2'
  isplitl [Hs3']; · iexact Hs3'
  isplitl [Hs4']; · iexact Hs4'
  iexists _; isplitr
  swap; · iexact HO
  ipureintro
  repeat (refine ins_ok ?_)
  exact fun p hp => .inl hp

set_option maxHeartbeats 8000000 in
theorem trip_next (d : Dev nD) (L : grid0.Coords) (k : Fin k0_t1_loop.trips) (hk : 0 < k.val) (kp : ℕ)
    (O : CellTallies nD τ sig (HIx 1)) (W : Waits sig (HIx 1)) (q : PosShare TreeShare)
    (fi : Buf (Elt F) ((idxV).view.loc (thr d L))) (fw : Buf (Elt F) ((shV).view.loc (thr d L)))
    (hin : ∀ (r : Rect S25600) (h : ∀ a, r.stride a = 1) x, ((((idxV).slice r h).view.read (Elt F) fi) x).toNat < 1000)
    (g0 Gd : Buf (Elt F) (oLoc d))
    (hG : ∀ (s : Fin 5) x, Gd ((oChunk L k s).view.emb x) = rowsVal fi fw k.val s.val x) (v2 : BitVec 32) :
    (iprop(Transfers.MayWaits (thr d L) (none : HIx 1) O
        ∗ ((idxV).view.loc (thr d L) ↦{fullShare} fi)
        ∗ ((shV).view.loc (thr d L) ↦{Transfers.shareTok q 5 0} fw)
        ∗ ((shV).view.loc (thr d L) ↦{Transfers.shareTok q 5 1} fw)
        ∗ ((shV).view.loc (thr d L) ↦{Transfers.shareTok q 5 2} fw)
        ∗ ((shV).view.loc (thr d L) ↦{Transfers.shareTok q 5 3} fw)
        ∗ ((shV).view.loc (thr d L) ↦{Transfers.shareTok q 5 4} fw)
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ Transfers.Flight (countersEmb (U := UU)) (thr d L) (SemLoc.dma cc0_scratch12.sem) (default : HIx 1) 524288
          iprop((oLoc d ↦[chunkSet L kp 0]{fullShare} Gd) ∗ ((r0V).view.loc (thr d L) ↦[(r0V).view.set]{fullShare} rowsVal fi fw kp 0))
        ∗ Transfers.Flight (countersEmb (U := UU)) (thr d L) (SemLoc.dma cc0_scratch13.sem) (default : HIx 1) 524288
          iprop((oLoc d ↦[chunkSet L kp 1]{fullShare} Gd) ∗ ((r1V).view.loc (thr d L) ↦[(r1V).view.set]{fullShare} rowsVal fi fw kp 1))
        ∗ Transfers.Flight (countersEmb (U := UU)) (thr d L) (SemLoc.dma cc0_scratch14.sem) (default : HIx 1) 524288
          iprop((oLoc d ↦[chunkSet L kp 2]{fullShare} Gd) ∗ ((r2V).view.loc (thr d L) ↦[(r2V).view.set]{fullShare} rowsVal fi fw kp 2))
        ∗ Transfers.Flight (countersEmb (U := UU)) (thr d L) (SemLoc.dma cc0_scratch15.sem) (default : HIx 1) 524288
          iprop((oLoc d ↦[chunkSet L kp 3]{fullShare} Gd) ∗ ((r3V).view.loc (thr d L) ↦[(r3V).view.set]{fullShare} rowsVal fi fw kp 3))
        ∗ Transfers.Flight (countersEmb (U := UU)) (thr d L) (SemLoc.dma cc0_scratch16.sem) (default : HIx 1) 524288
          iprop((oLoc d ↦[chunkSet L kp 4]{fullShare} Gd) ∗ ((r4V).view.loc (thr d L) ↦[(r4V).view.set]{fullShare} rowsVal fi fw kp 4))
        ∗ ((oChunk L k 0).view.loc (thr d L) ↦[(oChunk L k 0).view.set]{fullShare} g0)
        ∗ ((oChunk L k 1).view.loc (thr d L) ↦[(oChunk L k 1).view.set]{fullShare} g0)
        ∗ ((oChunk L k 2).view.loc (thr d L) ↦[(oChunk L k 2).view.set]{fullShare} g0)
        ∗ ((oChunk L k 3).view.loc (thr d L) ↦[(oChunk L k 3).view.set]{fullShare} g0)
        ∗ ((oChunk L k 4).view.loc (thr d L) ↦[(oChunk L k 4).view.set]{fullShare} g0)
        ∗ owes (thr d L) O W) : sProp 𝕄)
      ⊢ wp frame (wpE (defs₀ (F := F)) 𝒱₀ (thr d L) none) Set.univ
          (k0_t1_body L xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2 v2 k ())
          (fun _ => iprop(((idxV).view.loc (thr d L) ↦{fullShare} fi)
        ∗ ((shV).view.loc (thr d L) ↦{Transfers.shareTok q 5 0} fw)
        ∗ ((shV).view.loc (thr d L) ↦{Transfers.shareTok q 5 1} fw)
        ∗ ((shV).view.loc (thr d L) ↦{Transfers.shareTok q 5 2} fw)
        ∗ ((shV).view.loc (thr d L) ↦{Transfers.shareTok q 5 3} fw)
        ∗ ((shV).view.loc (thr d L) ↦{Transfers.shareTok q 5 4} fw)
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ Transfers.Flight (countersEmb (U := UU)) (thr d L) (SemLoc.dma cc0_scratch12.sem) (default : HIx 1) 524288
          iprop((oLoc d ↦[chunkSet L k.val 0]{fullShare} Gd) ∗ ((r0V).view.loc (thr d L) ↦[(r0V).view.set]{fullShare} rowsVal fi fw k.val 0))
        ∗ Transfers.Flight (countersEmb (U := UU)) (thr d L) (SemLoc.dma cc0_scratch13.sem) (default : HIx 1) 524288
          iprop((oLoc d ↦[chunkSet L k.val 1]{fullShare} Gd) ∗ ((r1V).view.loc (thr d L) ↦[(r1V).view.set]{fullShare} rowsVal fi fw k.val 1))
        ∗ Transfers.Flight (countersEmb (U := UU)) (thr d L) (SemLoc.dma cc0_scratch14.sem) (default : HIx 1) 524288
          iprop((oLoc d ↦[chunkSet L k.val 2]{fullShare} Gd) ∗ ((r2V).view.loc (thr d L) ↦[(r2V).view.set]{fullShare} rowsVal fi fw k.val 2))
        ∗ Transfers.Flight (countersEmb (U := UU)) (thr d L) (SemLoc.dma cc0_scratch15.sem) (default : HIx 1) 524288
          iprop((oLoc d ↦[chunkSet L k.val 3]{fullShare} Gd) ∗ ((r3V).view.loc (thr d L) ↦[(r3V).view.set]{fullShare} rowsVal fi fw k.val 3))
        ∗ Transfers.Flight (countersEmb (U := UU)) (thr d L) (SemLoc.dma cc0_scratch16.sem) (default : HIx 1) 524288
          iprop((oLoc d ↦[chunkSet L k.val 4]{fullShare} Gd) ∗ ((r4V).view.loc (thr d L) ↦[(r4V).view.set]{fullShare} rowsVal fi fw k.val 4))
        ∗ (oLoc d ↦[chunkSet L kp 0]{fullShare} Gd)
        ∗ (oLoc d ↦[chunkSet L kp 1]{fullShare} Gd)
        ∗ (oLoc d ↦[chunkSet L kp 2]{fullShare} Gd)
        ∗ (oLoc d ↦[chunkSet L kp 3]{fullShare} Gd)
        ∗ (oLoc d ↦[chunkSet L kp 4]{fullShare} Gd)
        ∗ ∃ W', ⌜∀ p ∈ W', p ∈ W ∨ p.2 = none⌝ ∗ owes (thr d L) O W')) := by
  have k0_h3 : k0_cond3 k = 1#1 := (cond3_iff k).mpr hk
  have k0_h4 : k0_cond4 k = 1#1 := (cond4_iff k).mpr hk
  have k0_h5 : k0_cond5 k = 1#1 := (cond5_iff k).mpr hk
  have k0_h6 : k0_cond6 k = 1#1 := (cond6_iff k).mpr hk
  have k0_h7 : k0_cond7 k = 1#1 := (cond7_iff k).mpr hk
  iintro ⟨#Hmw, Hi, Hw0, Hw1, Hw2, Hw3, Hw4, Hg0, Hg1, Hg2, Hg3, Hg4, Hs0, Hs1, Hs2, Hs3, Hs4, Ho0, Ho1, Ho2, Ho3, Ho4, HO⟩
  unfold k0_t1_body
  sl_exec
  sl_step
  ihave Hs0' := (Transfers.Flight_mono countersEmb (thr d L) (deliver0 d L k fi fw g0 (rowsVal fi fw kp 0) Gd (trip_next.sl.gather0 d L k fi fw hin) (trip_next.sl.dma0 d L k kp fi fw hin) (gather_closed k 0 fi fw _ _) rfl (hG 0))) $$ Hs0
  ihave Hs1' := (Transfers.Flight_mono countersEmb (thr d L) (deliver1 d L k fi fw g0 (rowsVal fi fw kp 1) Gd (trip_next.sl.gather1 d L k fi fw hin) (trip_next.sl.dma0_1 d L k kp fi fw hin) (gather_closed k 1 fi fw _ _) rfl (hG 1))) $$ Hs1
  ihave Hs2' := (Transfers.Flight_mono countersEmb (thr d L) (deliver2 d L k fi fw g0 (rowsVal fi fw kp 2) Gd (trip_next.sl.gather2 d L k fi fw hin) (trip_next.sl.dma0_2 d L k kp fi fw hin) (gather_closed k 2 fi fw _ _) rfl (hG 2))) $$ Hs2
  ihave Hs3' := (Transfers.Flight_mono countersEmb (thr d L) (deliver3 d L k fi fw g0 (rowsVal fi fw kp 3) Gd (trip_next.sl.gather3 d L k fi fw hin) (trip_next.sl.dma0_3 d L k kp fi fw hin) (gather_closed k 3 fi fw _ _) rfl (hG 3))) $$ Hs3
  ihave Hs4' := (Transfers.Flight_mono countersEmb (thr d L) (deliver4 d L k fi fw g0 (rowsVal fi fw kp 4) Gd (trip_next.sl.gather4 d L k fi fw hin) (trip_next.sl.dma0_4 d L k kp fi fw hin) (gather_closed k 4 fi fw _ _) rfl (hG 4))) $$ Hs4
  isplitl [Hi]; · iexact Hi
  isplitl [Hw0]; · iexact Hw0
  isplitl [Hw1]; · iexact Hw1
  isplitl [Hw2]; · iexact Hw2
  isplitl [Hw3]; · iexact Hw3
  isplitl [Hw4]; · iexact Hw4
  isplitl [Hg0]; · iexact Hg0
  isplitl [Hg1]; · iexact Hg1
  isplitl [Hg2]; · iexact Hg2
  isplitl [Hg3]; · iexact Hg3
  isplitl [Hg4]; · iexact Hg4
  isplitl [Hs0']; · iexact Hs0'
  isplitl [Hs1']; · iexact Hs1'
  isplitl [Hs2']; · iexact Hs2'
  isplitl [Hs3']; · iexact Hs3'
  isplitl [Hs4']; · iexact Hs4'
  isplitl [Hs0_dst]; · iexact Hs0_dst
  isplitl [Hs1_dst]; · iexact Hs1_dst
  isplitl [Hs2_dst]; · iexact Hs2_dst
  isplitl [Hs3_dst]; · iexact Hs3_dst
  isplitl [Hs4_dst]; · iexact Hs4_dst
  iexists _; isplitr
  swap; · iexact HO
  ipureintro
  repeat (refine ins_ok ?_)
  exact fun p hp => .inl hp

end Cert.Proof.KB

end
-- ==== Proof.KB.Loop.lean ====
/-
  A subcore's whole loop by its invariant. Before trip n: the index scratch and the shared table's read shares
  as found; each slot free (first trip) or its previous write-back in flight; the chunks of the rounds before the
  previous one already at the expected output, those from round n on untouched.
-/
import proofs.«204301_g9028021256511_cont_9to1_m_920_22_alg».proof.Proof.KB.Trip
import proofs.«204301_g9028021256511_cont_9to1_m_920_22_alg».proof.Proof.KB.Inv

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

set_option maxHeartbeats 4000000 in
/-- One trip carries the invariant from `k` to `k + 1`. -/
theorem inv_step (d : Dev nD) (L : grid0.Coords) (O : CellTallies nD τ sig (HIx 1)) (W : Waits sig (HIx 1)) (q : PosShare TreeShare)
    (fi : S25600.Idx → BitVec 32) (fw : S1000x128.Idx → Elt F .f32)
    (hin : ∀ (r : Rect S25600) (h : ∀ a, r.stride a = 1) x, ((((idxV).slice r h).view.read (Elt F) fi) x).toNat < 1000)
    (g0 Gd : Buf (Elt F) (oLoc d))
    (hG : ∀ (k : Fin k0_t1_loop.trips) (s : Fin 5) x, Gd ((oChunk L k s).view.emb x) = rowsVal fi fw k.val s.val x) (v2 : BitVec 32)
    (k : Fin k0_t1_loop.trips) (acc : Unit) :
    inv d L O W q fi fw g0 Gd k.val acc
      ⊢ wp frame (wpE (defs₀ (F := F)) 𝒱₀ (thr d L) none) Set.univ
          (k0_t1_body L xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2 v2 k acc)
          (inv d L O W q fi fw g0 Gd (k.val + 1)) := by
  have hk40 : k.val < 40 := trips_eq ▸ k.isLt
  have hIco : Finset.Ico k.val 40 = insert k.val (Finset.Ico (k.val + 1) 40) := by
    ext x; simp only [Finset.mem_Ico, Finset.mem_insert]; omega
  unfold inv
  rw [hIco, SparseCore.bigSep_insert' (by simp), rowAll_eq d L g0 k.val]
  by_cases hk : k.val = 0
  · -- the first trip: the slots are free
    simp only [slot0, slot1, slot2, slot3, slot4, hk, if_pos, Nat.zero_add, Nat.one_ne_zero, if_false, Nat.sub_self, Nat.zero_sub, Finset.range_zero, bigSep_empty]
    iintro ⟨#Hmw, Hi, Hw0, Hw1, Hw2, Hw3, Hw4, Hg0, Hg1, Hg2, Hg3, Hg4, ⟨⟨%f0, Hr0⟩, Hs0⟩, ⟨⟨%f1, Hr1⟩, Hs1⟩, ⟨⟨%f2, Hr2⟩, Hs2⟩, ⟨⟨%f3, Hr3⟩, Hs3⟩, ⟨⟨%f4, Hr4⟩, Hs4⟩, -, ⟨⟨Ho0, Ho1, Ho2, Ho3, Ho4⟩, Htodo⟩, %W', %hW', HO⟩
    iapply (wp_wand_r frame _ Set.univ)
    isplitl [Hi Hw0 Hw1 Hw2 Hw3 Hw4 Hg0 Hg1 Hg2 Hg3 Hg4 Hr0 Hs0 Hr1 Hs1 Hr2 Hs2 Hr3 Hs3 Hr4 Hs4 Ho0 Ho1 Ho2 Ho3 Ho4 HO]
    · iapply (trip_first d L k hk O W' q fi fw hin f0 f1 f2 f3 f4 g0 Gd (hG k) v2)
      isplitr; · iexact Hmw
      isplitl [Hi]; · iexact Hi
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hr0]; · iexact Hr0
      isplitl [Hs0]; · iexact Hs0
      isplitl [Hr1]; · iexact Hr1
      isplitl [Hs1]; · iexact Hs1
      isplitl [Hr2]; · iexact Hr2
      isplitl [Hs2]; · iexact Hs2
      isplitl [Hr3]; · iexact Hr3
      isplitl [Hs3]; · iexact Hs3
      isplitl [Hr4]; · iexact Hr4
      isplitl [Hs4]; · iexact Hs4
      isplitl [Ho0]; · rw [pts_chunk d L k 0, hk]; iexact Ho0
      isplitl [Ho1]; · rw [pts_chunk d L k 1, hk]; iexact Ho1
      isplitl [Ho2]; · rw [pts_chunk d L k 2, hk]; iexact Ho2
      isplitl [Ho3]; · rw [pts_chunk d L k 3, hk]; iexact Ho3
      isplitl [Ho4]; · rw [pts_chunk d L k 4, hk]; iexact Ho4
      iexact HO
    · iintro %_ ⟨Hi, Hw0, Hw1, Hw2, Hw3, Hw4, Hg0, Hg1, Hg2, Hg3, Hg4, Hs0, Hs1, Hs2, Hs3, Hs4, %W'', %hW'', HO⟩
      isplitr; · iexact Hmw
      isplitl [Hi]; · iexact Hi
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hs0]; · rw [hk]; iexact Hs0
      isplitl [Hs1]; · rw [hk]; iexact Hs1
      isplitl [Hs2]; · rw [hk]; iexact Hs2
      isplitl [Hs3]; · rw [hk]; iexact Hs3
      isplitl [Hs4]; · rw [hk]; iexact Hs4
      isplitr; · iempintro
      isplitl [Htodo]; · iexact Htodo
      iexists W''; isplitr
      · ipureintro; exact fun p hp => (hW'' p hp).elim (fun h => hW' p h) (fun h => .inr (.inl h))
      · iexact HO
  · -- a later trip: the slots' previous write-backs are in flight
    have hk' : 0 < k.val := Nat.pos_of_ne_zero hk
    simp only [slot0, slot1, slot2, slot3, slot4, hk, if_false, Nat.add_sub_cancel, Nat.succ_ne_zero, Nat.add_one_ne_zero]
    iintro ⟨#Hmw, Hi, Hw0, Hw1, Hw2, Hw3, Hw4, Hg0, Hg1, Hg2, Hg3, Hg4, Hs0, Hs1, Hs2, Hs3, Hs4, Hdone, ⟨⟨Ho0, Ho1, Ho2, Ho3, Ho4⟩, Htodo⟩, %W', %hW', HO⟩
    iapply (wp_wand_r frame _ Set.univ)
    isplitl [Hi Hw0 Hw1 Hw2 Hw3 Hw4 Hg0 Hg1 Hg2 Hg3 Hg4 Hs0 Hs1 Hs2 Hs3 Hs4 Ho0 Ho1 Ho2 Ho3 Ho4 HO]
    · iapply (trip_next d L k hk' (k.val - 1) O W' q fi fw hin g0 Gd (hG k) v2)
      isplitr; · iexact Hmw
      isplitl [Hi]; · iexact Hi
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      isplitl [Ho0]; · rw [pts_chunk d L k 0]; iexact Ho0
      isplitl [Ho1]; · rw [pts_chunk d L k 1]; iexact Ho1
      isplitl [Ho2]; · rw [pts_chunk d L k 2]; iexact Ho2
      isplitl [Ho3]; · rw [pts_chunk d L k 3]; iexact Ho3
      isplitl [Ho4]; · rw [pts_chunk d L k 4]; iexact Ho4
      iexact HO
    · iintro %_ ⟨Hi, Hw0, Hw1, Hw2, Hw3, Hw4, Hg0, Hg1, Hg2, Hg3, Hg4, Hs0, Hs1, Hs2, Hs3, Hs4, Hd0, Hd1, Hd2, Hd3, Hd4, %W'', %hW'', HO⟩
      isplitr; · iexact Hmw
      isplitl [Hi]; · iexact Hi
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      isplitl [Hdone Hd0 Hd1 Hd2 Hd3 Hd4]
      · rw [show k.val = (k.val - 1) + 1 from (Nat.sub_add_cancel hk').symm, Finset.range_add_one, SparseCore.bigSep_insert' Finset.notMem_range_self,
          rowAll_eq d L Gd (k.val - 1), Nat.add_sub_cancel]
        isplitl [Hd0 Hd1 Hd2 Hd3 Hd4]
        · isplitl [Hd0]; · iexact Hd0
          isplitl [Hd1]; · iexact Hd1
          isplitl [Hd2]; · iexact Hd2
          isplitl [Hd3]; · iexact Hd3
          iexact Hd4
        · iexact Hdone
      isplitl [Htodo]; · iexact Htodo
      iexists W''; isplitr
      · ipureintro; exact fun p hp => (hW'' p hp).elim (fun h => hW' p h) (fun h => .inr (.inl h))
      · iexact HO

end Cert.Proof.KB

end
-- ==== Proof.KB.Tile.lean ====
/-
  One subcore's task, whole: its rows of the table into the shared table, its index words into the index scratch,
  the barrier, the forty rounds, the last five waits.
-/
import proofs.«204301_g9028021256511_cont_9to1_m_920_22_alg».proof.Proof.KB.TileLemmas
import proofs.«204301_g9028021256511_cont_9to1_m_920_22_alg».proof.Proof.KB.Loop

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

variable (m : (ℓ : Loc nD τ sig) → Buf (Elt F) ℓ) (X : Dev nD → S819200.Idx → BitVec 32)

section Tile

variable (d : Dev nD) (L : grid0.Coords)

theorem pts_w (q : PosShare TreeShare) :
    ((wV).view.loc (thr d L) ↦{q} m (wLoc d) : sProp 𝕄) = wLoc d ↦{q} m (wLoc d) := by
  first | rfl | simp only [Memref.view_whole, View.set_whole]
theorem pts_x (q : PosShare TreeShare) :
    ((xfV).view.loc (thr d L) ↦{q} (X d : Buf (Elt F) (xfLoc d)) : sProp 𝕄) = xfLoc d ↦{q} X d := by
  first | rfl | simp only [Memref.view_whole, View.set_whole]
theorem pts_sh_lo (h : k0_cond1 L = 1#1) (f : Buf (Elt F) (shLoc d (cV L))) :
    ((shSliceLo L h).view.loc (thr d L) ↦[(shSliceLo L h).view.set]{fullShare} f : sProp 𝕄) = shLoc d (cV L) ↦[shSet (L 1).val]{fullShare} f := by
  rw [shSliceLo_set]; rfl
theorem pts_sh_hi (hj : (L 1).val = 15) (f : Buf (Elt F) (shLoc d (cV L))) :
    ((shSliceHi).view.loc (thr d L) ↦[(shSliceHi).view.set]{fullShare} f : sProp 𝕄) = shLoc d (cV L) ↦[shSet (L 1).val]{fullShare} f := by
  rw [shSliceHi_set L hj]; rfl
theorem pts_r0_set (f : Buf (Elt F) ((r0V).view.loc (thr d L))) :
    ((r0V).view.loc (thr d L) ↦[(r0V).view.set]{fullShare} f : sProp 𝕄) = (thr d L).loc cc0_scratch2 ↦{fullShare} f := by
  simp only [Memref.view_whole, View.set_whole]
theorem pts_r1_set (f : Buf (Elt F) ((r1V).view.loc (thr d L))) :
    ((r1V).view.loc (thr d L) ↦[(r1V).view.set]{fullShare} f : sProp 𝕄) = (thr d L).loc cc0_scratch3 ↦{fullShare} f := by
  simp only [Memref.view_whole, View.set_whole]
theorem pts_r2_set (f : Buf (Elt F) ((r2V).view.loc (thr d L))) :
    ((r2V).view.loc (thr d L) ↦[(r2V).view.set]{fullShare} f : sProp 𝕄) = (thr d L).loc cc0_scratch4 ↦{fullShare} f := by
  simp only [Memref.view_whole, View.set_whole]
theorem pts_r3_set (f : Buf (Elt F) ((r3V).view.loc (thr d L))) :
    ((r3V).view.loc (thr d L) ↦[(r3V).view.set]{fullShare} f : sProp 𝕄) = (thr d L).loc cc0_scratch5 ↦{fullShare} f := by
  simp only [Memref.view_whole, View.set_whole]
theorem pts_r4_set (f : Buf (Elt F) ((r4V).view.loc (thr d L))) :
    ((r4V).view.loc (thr d L) ↦[(r4V).view.set]{fullShare} f : sProp 𝕄) = (thr d L).loc cc0_scratch6 ↦{fullShare} f := by
  simp only [Memref.view_whole, View.set_whole]

/-- The rows a subcore filled hold the table's contents there, whatever the engine's payload is called. -/
theorem sh_landed_lo' (h : k0_cond1 L = 1#1) (fsh : Buf (Elt F) (shLoc d (cV L))) (pay : S64x128.Idx → Elt F .f32)
    (hp : ∀ x, Wsh m d (cV L) ((shSliceLo L h).view.emb x) = pay x) :
    ((shSliceLo L h).view.loc (thr d L) ↦[(shSliceLo L h).view.set]{fullShare}
        (shSliceLo L h).view.writes (Elt F) fsh [⟨Rect.whole S64x128, pay⟩] : sProp 𝕄)
      = shLoc d (cV L) ↦[shSet (L 1).val]{fullShare} Wsh m d (cV L) := by
  rw [pointsTo_congr (landed_congr (shSliceLo L h).view fsh pay (Wsh m d (cV L)) hp), shSliceLo_set]
  rfl
theorem sh_landed_hi' (hj : (L 1).val = 15) (fsh : Buf (Elt F) (shLoc d (cV L))) (pay : S40x128.Idx → Elt F .f32)
    (hp : ∀ x, Wsh m d (cV L) ((shSliceHi).view.emb x) = pay x) :
    ((shSliceHi).view.loc (thr d L) ↦[(shSliceHi).view.set]{fullShare}
        (shSliceHi).view.writes (Elt F) fsh [⟨Rect.whole S40x128, pay⟩] : sProp 𝕄)
      = shLoc d (cV L) ↦[shSet (L 1).val]{fullShare} Wsh m d (cV L) := by
  rw [pointsTo_congr (landed_congr (shSliceHi).view fsh pay (Wsh m d (cV L)) hp), shSliceHi_set L hj]
  rfl
theorem idx_landed' (fi0 : Buf (Elt F) ((idxV).view.loc (thr d L))) (pay : S25600.Idx → BitVec 32)
    (hp : ∀ x, fiT (X d) L x = pay x) :
    ((idxV).view.loc (thr d L) ↦{fullShare} View.write (Elt F) (idxV).view fi0 pay Finset.univ : sProp 𝕄)
      = (idxV).view.loc (thr d L) ↦{fullShare} (fiT (X d) L : Buf (Elt F) ((idxV).view.loc (thr d L))) := by
  have e : View.write (Elt F) (idxV).view fi0 pay Finset.univ = (fiT (X d) L : Buf (Elt F) ((idxV).view.loc (thr d L))) :=
    (View.write_whole_univ _ _ _).trans (funext fun x => (hp x).symm)
  rw [e]

/-- Rounds 0 to 38 and the five chunks of round 39 are the subcore's rows. -/
theorem done_join (f : Buf (Elt F) (oLoc d)) :
    iprop((bigSep (Finset.range 39) fun k => bigSep (Finset.range 5) fun s => (oLoc d ↦[chunkSet L k s]{fullShare} f : sProp 𝕄))
        ∗ (oLoc d ↦[chunkSet L 39 0]{fullShare} f) ∗ (oLoc d ↦[chunkSet L 39 1]{fullShare} f) ∗ (oLoc d ↦[chunkSet L 39 2]{fullShare} f)
        ∗ (oLoc d ↦[chunkSet L 39 3]{fullShare} f) ∗ (oLoc d ↦[chunkSet L 39 4]{fullShare} f))
      ⊢ (oLoc d ↦[tileSet L]{fullShare} f : sProp 𝕄) := by
  have e40 : (bigSep (Finset.range 40) fun k => bigSep (Finset.range 5) fun s => (oLoc d ↦[chunkSet L k s]{fullShare} f : sProp 𝕄))
      = iprop((bigSep (Finset.range 5) fun s => (oLoc d ↦[chunkSet L 39 s]{fullShare} f : sProp 𝕄))
          ∗ bigSep (Finset.range 39) fun k => bigSep (Finset.range 5) fun s => (oLoc d ↦[chunkSet L k s]{fullShare} f : sProp 𝕄)) := by
    rw [show Finset.range 40 = insert 39 (Finset.range 39) from Finset.range_add_one (n := 39)]
    exact SparseCore.bigSep_insert' Finset.notMem_range_self
  rw [tile_split (F := F) d L fullShare f, e40, rowAll_eq' d L f 39]
  iintro ⟨Hd, H0, H1, H2, H3, H4⟩
  isplitl [H0 H1 H2 H3 H4]
  · isplitl [H0]; · iexact H0
    isplitl [H1]; · iexact H1
    isplitl [H2]; · iexact H2
    isplitl [H3]; · iexact H3
    iexact H4
  · iexact Hd

theorem toks5_eq_sh (q : PosShare TreeShare) :
    (bigSep Finset.univ fun i : Fin 5 => (shLoc d (cV L) ↦{Transfers.shareTok q 5 i} Wsh m d (cV L) : sProp 𝕄))
      = iprop(((shV).view.loc (thr d L) ↦{Transfers.shareTok q 5 0} Wsh m d (cV L)) ∗ ((shV).view.loc (thr d L) ↦{Transfers.shareTok q 5 1} Wsh m d (cV L))
          ∗ ((shV).view.loc (thr d L) ↦{Transfers.shareTok q 5 2} Wsh m d (cV L)) ∗ ((shV).view.loc (thr d L) ↦{Transfers.shareTok q 5 3} Wsh m d (cV L))
          ∗ ((shV).view.loc (thr d L) ↦{Transfers.shareTok q 5 4} Wsh m d (cV L))) :=
  toks5_eq (F := F) d L q (Wsh m d (cV L))

set_option maxRecDepth 16384 in
set_option maxHeartbeats 16000000 in
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (hX : ∀ n, (X d n).toNat < 1000) :
    iprop(levAts (K (F := F)).L (K (F := F)).lev ∗ bkit m d (cV L) (jV L)
        ∗ goPay m X d L
        ∗ scopedBufs (thr d L) ∗ scopedSems0 (thr d L) ∗ owes (thr d L) (O + oxV d (cV L)) W)
      ⊢ wp frame (wpE (defs₀ (F := F)) 𝒱₀ (thr d L) none) Set.univ
          (cc0__embed_lookup L xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2)
          fun _ => iprop(tdPay m X d L
            ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0__embed_lookup_eq_skeleton]; unfold cc0__embed_lookup_skel
  rw [(K (F := F)).scopedBufs_V hF d (cV L) (jV L), SparseCore.Cfg.scopedSems0_V (Val := Elt F) d (cV L) (jV L), ownSems0_V, ownBufs_V]
  unfold bkit goPay mainPay
  iintro ⟨#Hlv, ⟨⟨%κ, #Hinv⟩, Htoks, #Hrch, Hat, Hcred⟩, ⟨⟨Hw, Hx, Ho⟩, %fsh, Hsh⟩, ⟨⟨%fi0, Hi⟩, ⟨%f0, Hr0⟩, ⟨%f1, Hr1⟩, ⟨%f2, Hr2⟩, ⟨%f3, Hr3⟩, ⟨%f4, Hr4⟩, Hbufs⟩, ⟨Hg0, Hg1, Hg2, Hg3, Hg4, Hs0, Hs1, Hs2, Hs3, Hs4, Hc0, Hc1, Hc2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  ihave Hw' := (Entails.of_eq (pts_w (F := F) m d L _).symm) $$ Hw
  ihave Hx' := (Entails.of_eq (pts_x (F := F) X d L _).symm) $$ Hx
  ihave Hi' := (Entails.of_eq (show ((thr d L).loc cc0_scratch0 ↦{fullShare} fi0 : sProp 𝕄) = ((idxV).view.loc (thr d L) ↦{fullShare} fi0) from rfl)) $$ Hi
  ihave Hr0' := (Entails.of_eq (show ((thr d L).loc cc0_scratch2 ↦{fullShare} f0 : sProp 𝕄) = ((r0V).view.loc (thr d L) ↦{fullShare} f0) from rfl)) $$ Hr0
  ihave Hr1' := (Entails.of_eq (show ((thr d L).loc cc0_scratch3 ↦{fullShare} f1 : sProp 𝕄) = ((r1V).view.loc (thr d L) ↦{fullShare} f1) from rfl)) $$ Hr1
  ihave Hr2' := (Entails.of_eq (show ((thr d L).loc cc0_scratch4 ↦{fullShare} f2 : sProp 𝕄) = ((r2V).view.loc (thr d L) ↦{fullShare} f2) from rfl)) $$ Hr2
  ihave Hr3' := (Entails.of_eq (show ((thr d L).loc cc0_scratch5 ↦{fullShare} f3 : sProp 𝕄) = ((r3V).view.loc (thr d L) ↦{fullShare} f3) from rfl)) $$ Hr3
  ihave Hr4' := (Entails.of_eq (show ((thr d L).loc cc0_scratch6 ↦{fullShare} f4 : sProp 𝕄) = ((r4V).view.loc (thr d L) ↦{fullShare} f4) from rfl)) $$ Hr4
  by_cases hj : (L 1).val < 15
  · have k0_h1 : k0_cond1 L = 1#1 := (cond1_iff L).mpr hj
    have k0_h2 : ¬ Scalar.cmpi .ne (Scalar.extui (Scalar.cmpi .eq (BitVec.ofNat 32 (L 1).val) 15#32)) 0#32 = 1#1 :=
      fun h => absurd ((cond2_iff L).mp h) (by omega)
    ihave Hsh' := (Entails.of_eq (pts_sh_lo (F := F) d L k0_h1 fsh).symm) $$ Hsh
    sl_exec
    ihave Hsh2 := (Entails.of_eq (sh_landed_lo' (F := F) m d L k0_h1 fsh (tile_body.sl.dma0 m d L k0_h1) (fun x => rfl))) $$ Hsh'
    ihave Hi2 := (Entails.of_eq (idx_landed' (F := F) X d L fi0 (tile_body.sl.dma0_1 X d L) (fun x => rfl))) $$ Hi'
    -- the barrier: a read share of the rows to every subcore, a read share of every subcore's rows back
    ihave Hsplit := (Transfers.pointsTo_toks_split fullShare 16) $$ Hsh2
    icases Hsplit with ⟨Hshrest, Hshtoks⟩
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hshtoks Hcred Hat]
    · isplitr; · iexact Hinv
      isplitl [HO]; · iexact HO
      isplitl [Htoks Hshtoks]
      · rw [bigSep_sep', bigSep_sep']
        isplitl [Htoks]; · iexact Htoks
        isplitl [Hshtoks]; · iexact Hshtoks
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hall := (pays_elim m d L) $$ Hgot
    ihave Htk := (Transfers.pointsTo_toks_split (Transfers.shareTokN fullShare (L 1).val) 5) $$ Hall
    icases Htk with ⟨Hw5rest, Htk5⟩
    ihave Htk5' := (Entails.of_eq (toks5_eq (F := F) d L _ _)) $$ Htk5
    icases Htk5' with ⟨Hw0, Hw1, Hw2, Hw3, Hw4⟩
    -- the output rows, chunk by chunk
    ihave Hoc := (Entails.of_eq (tile_split (F := F) d L fullShare (m (oLoc d)))) $$ Ho
    sl_for (inv d L O W (Transfers.shareTokN fullShare (L 1).val) (fiT (X d) L) (Wsh m d (cV L)) (m (oLoc d)) (Gd m X d)) $$ [Hmw2 Hi2 Hw0 Hw1 Hw2 Hw3 Hw4 Hg0 Hg1 Hg2 Hg3 Hg4 Hr0' Hs0 Hr1' Hs1 Hr2' Hs2 Hr3' Hs3 Hr4' Hs4 Hoc HO]
    case region =>
      intro k acc
      exact inv_step d L O W _ (fiT (X d) L) (Wsh m d (cV L)) (hin_of (F := F) X d L hX) (m (oLoc d)) (Gd m X d)
        (fun k s x => hG_closed (X d) (Wd m d) L k s x) _ k acc
    · unfold inv
      simp only [slot0, slot1, slot2, slot3, slot4, if_pos, Nat.zero_sub, Finset.range_zero, bigSep_empty]
      isplitl [Hmw2]; · iexact Hmw2
      isplitl [Hi2]; · iexact Hi2
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hr0' Hs0]
      · isplitl [Hr0']; · iexists _; iexact Hr0'
        iexact Hs0
      isplitl [Hr1' Hs1]
      · isplitl [Hr1']; · iexists _; iexact Hr1'
        iexact Hs1
      isplitl [Hr2' Hs2]
      · isplitl [Hr2']; · iexists _; iexact Hr2'
        iexact Hs2
      isplitl [Hr3' Hs3]
      · isplitl [Hr3']; · iexists _; iexact Hr3'
        iexact Hs3
      isplitl [Hr4' Hs4]
      · isplitl [Hr4']; · iexists _; iexact Hr4'
        iexact Hs4
      isplitr; · iempintro
      isplitl [Hoc]; · rw [← Finset.range_eq_Ico]; iexact Hoc
      iexists _; isplitr
      swap; · iexact HO
      ipureintro
      intro p hp
      simp only [Finset.mem_insert] at hp
      rcases hp with rfl | rfl | rfl | hp
      · exact .inr (.inr rfl)
      · exact .inr (.inl rfl)
      · exact .inr (.inl rfl)
      · exact .inl hp
    iintro %_ HI
    ihave HI' := (Entails.of_eq (inv_end (F := F) d L O _ _ _ _ _ _ _)) $$ HI
    icases HI' with ⟨-, Hi2, Hw0, Hw1, Hw2, Hw3, Hw4, Hg0, Hg1, Hg2, Hg3, Hg4, Hs0, Hs1, Hs2, Hs3, Hs4, Hdone, -, %W3, %hW3, HO⟩
    -- the last round's five write-backs
    sl_exec
    sl_step
    -- everything back
    isplitl [Hw' Hx' Hdone Hs0_dst Hs1_dst Hs2_dst Hs3_dst Hs4_dst Hw0 Hw1 Hw2 Hw3 Hw4 Hw5rest Hshrest]
    · unfold tdPay mainPay
      isplitl [Hw' Hx' Hdone Hs0_dst Hs1_dst Hs2_dst Hs3_dst Hs4_dst]
      · isplitl [Hw']; · iexact Hw'
        isplitl [Hx']; · iexact Hx'
        iapply (done_join (F := F) d L (Gd m X d))
        isplitl [Hdone]; · iexact Hdone
        isplitl [Hs0_dst]; · iexact Hs0_dst
        isplitl [Hs1_dst]; · iexact Hs1_dst
        isplitl [Hs2_dst]; · iexact Hs2_dst
        isplitl [Hs3_dst]; · iexact Hs3_dst
        iexact Hs4_dst
      isplitl [Hw0 Hw1 Hw2 Hw3 Hw4 Hw5rest]
      · iapply (Transfers.pointsTo_toks_join (Transfers.shareTokN fullShare (L 1).val) 5)
        isplitl [Hw5rest]; · iexact Hw5rest
        rw [toks5_eq_sh (F := F) m d L _]
        isplitl [Hw0]; · iexact Hw0
        isplitl [Hw1]; · iexact Hw1
        isplitl [Hw2]; · iexact Hw2
        isplitl [Hw3]; · iexact Hw3
        iexact Hw4
      · iexact Hshrest
    isplitl [Hi2 Hs0_src Hs1_src Hs2_src Hs3_src Hs4_src Hbufs]
    · isplitl [Hi2]; · iexists _; iexact Hi2
      isplitl [Hs0_src]; · iexists _; iapply (Entails.of_eq (pts_r0_set (F := F) d L _)); iexact Hs0_src
      isplitl [Hs1_src]; · iexists _; iapply (Entails.of_eq (pts_r1_set (F := F) d L _)); iexact Hs1_src
      isplitl [Hs2_src]; · iexists _; iapply (Entails.of_eq (pts_r2_set (F := F) d L _)); iexact Hs2_src
      isplitl [Hs3_src]; · iexists _; iapply (Entails.of_eq (pts_r3_set (F := F) d L _)); iexact Hs3_src
      isplitl [Hs4_src]; · iexists _; iapply (Entails.of_eq (pts_r4_set (F := F) d L _)); iexact Hs4_src
      iexact Hbufs
    isplitl [Hg0 Hg1 Hg2 Hg3 Hg4 Hs0 Hs1 Hs2 Hs3 Hs4 Hc0 Hc1 Hc2 Hsems]
    · isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      isplitl [Hc0]; · iexact Hc0
      isplitl [Hc1]; · iexact Hc1
      isplitl [Hc2]; · iexact Hc2
      iexact Hsems
    iexists _; isplitr
    swap; · iexact HO
    ipureintro
    intro p hp
    simp only [Finset.mem_insert] at hp
    rcases hp with rfl | rfl | rfl | rfl | rfl | hp
    iterate 5 exact .inr (.inl rfl)
    exact hW3 p hp

  · have hj15 : (L 1).val = 15 := by have := L1_lt L; omega
    have k0_h1 : ¬ k0_cond1 L = 1#1 := fun h => hj ((cond1_iff L).mp h)
    have k0_h2 : Scalar.cmpi .ne (Scalar.extui (Scalar.cmpi .eq (BitVec.ofNat 32 (L 1).val) 15#32)) 0#32 = 1#1 := (cond2_iff L).mpr hj15
    ihave Hsh' := (Entails.of_eq (pts_sh_hi (F := F) d L hj15 fsh).symm) $$ Hsh
    sl_exec
    ihave Hsh2 := (Entails.of_eq (sh_landed_hi' (F := F) m d L hj15 fsh (tile_body.sl.dma0_2 m d) (fun x => rfl))) $$ Hsh'
    ihave Hi2 := (Entails.of_eq (idx_landed' (F := F) X d L fi0 (tile_body.sl.dma0_3 X d L) (fun x => rfl))) $$ Hi'
    -- the barrier: a read share of the rows to every subcore, a read share of every subcore's rows back
    ihave Hsplit := (Transfers.pointsTo_toks_split fullShare 16) $$ Hsh2
    icases Hsplit with ⟨Hshrest, Hshtoks⟩
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hshtoks Hcred Hat]
    · isplitr; · iexact Hinv
      isplitl [HO]; · iexact HO
      isplitl [Htoks Hshtoks]
      · rw [bigSep_sep', bigSep_sep']
        isplitl [Htoks]; · iexact Htoks
        isplitl [Hshtoks]; · iexact Hshtoks
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hall := (pays_elim m d L) $$ Hgot
    ihave Htk := (Transfers.pointsTo_toks_split (Transfers.shareTokN fullShare (L 1).val) 5) $$ Hall
    icases Htk with ⟨Hw5rest, Htk5⟩
    ihave Htk5' := (Entails.of_eq (toks5_eq (F := F) d L _ _)) $$ Htk5
    icases Htk5' with ⟨Hw0, Hw1, Hw2, Hw3, Hw4⟩
    -- the output rows, chunk by chunk
    ihave Hoc := (Entails.of_eq (tile_split (F := F) d L fullShare (m (oLoc d)))) $$ Ho
    sl_for (inv d L O W (Transfers.shareTokN fullShare (L 1).val) (fiT (X d) L) (Wsh m d (cV L)) (m (oLoc d)) (Gd m X d)) $$ [Hmw2 Hi2 Hw0 Hw1 Hw2 Hw3 Hw4 Hg0 Hg1 Hg2 Hg3 Hg4 Hr0' Hs0 Hr1' Hs1 Hr2' Hs2 Hr3' Hs3 Hr4' Hs4 Hoc HO]
    case region =>
      intro k acc
      exact inv_step d L O W _ (fiT (X d) L) (Wsh m d (cV L)) (hin_of (F := F) X d L hX) (m (oLoc d)) (Gd m X d)
        (fun k s x => hG_closed (X d) (Wd m d) L k s x) _ k acc
    · unfold inv
      simp only [slot0, slot1, slot2, slot3, slot4, if_pos, Nat.zero_sub, Finset.range_zero, bigSep_empty]
      isplitl [Hmw2]; · iexact Hmw2
      isplitl [Hi2]; · iexact Hi2
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hr0' Hs0]
      · isplitl [Hr0']; · iexists _; iexact Hr0'
        iexact Hs0
      isplitl [Hr1' Hs1]
      · isplitl [Hr1']; · iexists _; iexact Hr1'
        iexact Hs1
      isplitl [Hr2' Hs2]
      · isplitl [Hr2']; · iexists _; iexact Hr2'
        iexact Hs2
      isplitl [Hr3' Hs3]
      · isplitl [Hr3']; · iexists _; iexact Hr3'
        iexact Hs3
      isplitl [Hr4' Hs4]
      · isplitl [Hr4']; · iexists _; iexact Hr4'
        iexact Hs4
      isplitr; · iempintro
      isplitl [Hoc]; · rw [← Finset.range_eq_Ico]; iexact Hoc
      iexists _; isplitr
      swap; · iexact HO
      ipureintro
      intro p hp
      simp only [Finset.mem_insert] at hp
      rcases hp with rfl | rfl | rfl | hp
      · exact .inr (.inr rfl)
      · exact .inr (.inl rfl)
      · exact .inr (.inl rfl)
      · exact .inl hp
    iintro %_ HI
    ihave HI' := (Entails.of_eq (inv_end (F := F) d L O _ _ _ _ _ _ _)) $$ HI
    icases HI' with ⟨-, Hi2, Hw0, Hw1, Hw2, Hw3, Hw4, Hg0, Hg1, Hg2, Hg3, Hg4, Hs0, Hs1, Hs2, Hs3, Hs4, Hdone, -, %W3, %hW3, HO⟩
    -- the last round's five write-backs
    sl_exec
    sl_step
    -- everything back
    isplitl [Hw' Hx' Hdone Hs0_dst Hs1_dst Hs2_dst Hs3_dst Hs4_dst Hw0 Hw1 Hw2 Hw3 Hw4 Hw5rest Hshrest]
    · unfold tdPay mainPay
      isplitl [Hw' Hx' Hdone Hs0_dst Hs1_dst Hs2_dst Hs3_dst Hs4_dst]
      · isplitl [Hw']; · iexact Hw'
        isplitl [Hx']; · iexact Hx'
        iapply (done_join (F := F) d L (Gd m X d))
        isplitl [Hdone]; · iexact Hdone
        isplitl [Hs0_dst]; · iexact Hs0_dst
        isplitl [Hs1_dst]; · iexact Hs1_dst
        isplitl [Hs2_dst]; · iexact Hs2_dst
        isplitl [Hs3_dst]; · iexact Hs3_dst
        iexact Hs4_dst
      isplitl [Hw0 Hw1 Hw2 Hw3 Hw4 Hw5rest]
      · iapply (Transfers.pointsTo_toks_join (Transfers.shareTokN fullShare (L 1).val) 5)
        isplitl [Hw5rest]; · iexact Hw5rest
        rw [toks5_eq_sh (F := F) m d L _]
        isplitl [Hw0]; · iexact Hw0
        isplitl [Hw1]; · iexact Hw1
        isplitl [Hw2]; · iexact Hw2
        isplitl [Hw3]; · iexact Hw3
        iexact Hw4
      · iexact Hshrest
    isplitl [Hi2 Hs0_src Hs1_src Hs2_src Hs3_src Hs4_src Hbufs]
    · isplitl [Hi2]; · iexists _; iexact Hi2
      isplitl [Hs0_src]; · iexists _; iapply (Entails.of_eq (pts_r0_set (F := F) d L _)); iexact Hs0_src
      isplitl [Hs1_src]; · iexists _; iapply (Entails.of_eq (pts_r1_set (F := F) d L _)); iexact Hs1_src
      isplitl [Hs2_src]; · iexists _; iapply (Entails.of_eq (pts_r2_set (F := F) d L _)); iexact Hs2_src
      isplitl [Hs3_src]; · iexists _; iapply (Entails.of_eq (pts_r3_set (F := F) d L _)); iexact Hs3_src
      isplitl [Hs4_src]; · iexists _; iapply (Entails.of_eq (pts_r4_set (F := F) d L _)); iexact Hs4_src
      iexact Hbufs
    isplitl [Hg0 Hg1 Hg2 Hg3 Hg4 Hs0 Hs1 Hs2 Hs3 Hs4 Hc0 Hc1 Hc2 Hsems]
    · isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      isplitl [Hc0]; · iexact Hc0
      isplitl [Hc1]; · iexact Hc1
      isplitl [Hc2]; · iexact Hc2
      iexact Hsems
    iexists _; isplitr
    swap; · iexact HO
    ipureintro
    intro p hp
    simp only [Finset.mem_insert] at hp
    rcases hp with rfl | rfl | rfl | rfl | rfl | hp
    iterate 5 exact .inr (.inl rfl)
    exact hW3 p hp

end Tile

end Cert.Proof.KB

end
-- ==== Proof.KB.Launch.lean ====
/-
  The launch. The one call hands each SparseCore, for each of its sixteen subcores, a read share of the table and
  of the flat indices and the subcore's 25,600 output rows; the SparseCore's shared table goes to its subcores row
  block by row block and comes back whole. Around the call the TensorCore flattens the indices before and reshapes
  the flat output after. The run ends with the arguments as found and the result the expected output, reshaped.
-/
import proofs.«204301_g9028021256511_cont_9to1_m_920_22_alg».proof.Proof.KB.Tile

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

open Idealize.ShloMosaic.StableHlo (held held_split held_sdiff_result wp_hlo_within)

variable (m : (ℓ : Loc nD τ sig) → Buf (Elt F) ℓ) (ρ : Dev nD → PrngReg) (X : Dev nD → S819200.Idx → BitVec 32)

/-- The subcore of core number `c`, task `i`, as grid coordinates. -/
def Lof (c : Fin ((K (F := F)).nCore 0)) (i : Fin ((K (F := F)).nSub 0)) : grid0.Coords := coordsV ⟨c.val, c.isLt⟩ ⟨i.val, i.isLt⟩

/-! ## What the handshakes carry -/

def P : (K (F := F)).Pay (nD := nD) (Val := Elt F) (Name := ℕ) (U := UU) where
  st := fun q d c => match q with
    | 0 => bigSep Finset.univ fun i : Fin ((K (F := F)).nSub 0) => mainPay m X d (Lof c i) (m (oLoc d))
  dn := fun q d c => match q with
    | 0 => bigSep Finset.univ fun i : Fin ((K (F := F)).nSub 0) => mainPay m X d (Lof c i) (Gd m X d)
  go := fun q d c i => match q with
    | 0 => goPay m X d (Lof c i)
  td := fun q d c i => match q with
    | 0 => tdPay m X d (Lof c i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m X).IsStorable where
  st q d c := match q with
    | 0 => (inferInstance : BI.Storable (upEmb : UEmb _ 𝕄) (bigSep Finset.univ fun i : Fin ((K (F := F)).nSub 0) => mainPay m X d (Lof c i) (m (oLoc d))))
  dn q d c := match q with
    | 0 => (inferInstance : BI.Storable (upEmb : UEmb _ 𝕄) (bigSep Finset.univ fun i : Fin ((K (F := F)).nSub 0) => mainPay m X d (Lof c i) (Gd m X d)))
  go q d c i := match q with
    | 0 => (inferInstance : BI.Storable (upEmb : UEmb _ 𝕄) (goPay m X d (Lof c i)))
  td q d c i := match q with
    | 0 => (inferInstance : BI.Storable (upEmb : UEmb _ 𝕄) (tdPay m X d (Lof c i)))

/-! ## The obligation -/

theorem defs₀_vector (c : Fin τ.nSC) (s : Fin τ.nSub) :
    defs₀ (F := F) (.scVector c s) 0 ()
      = SparseCore.onTile hcore0 hsub0 (fun c s => cc0__embed_lookup (coordsV c s)
          xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2) ⟨⟩ c s := rfl

set_option maxRecDepth 16384 in
theorem tileObl (hF : (K (F := F)).Facts) (hX : ∀ d n, (X d n).toNat < 1000) : (K (F := F)).TileObl (D (F := F)) 𝒱 (P m X) v₀ 0 := by
  intro d c i O W hO hOlev _
  have hci : ((K (F := F)).core 0 c).val < grid0.bound 0 ∧ ((K (F := F)).sub 0 i).val < grid0.bound 1 := ⟨c.isLt, i.isLt⟩
  rw [show (P m X).ox 0 (V d ((K (F := F)).core 0 c) ((K (F := F)).sub 0 i)) = oxV d ((K (F := F)).core 0 c) from rfl,
    show (P m X).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m X d (coordsV ⟨_, hci.1⟩ ⟨_, hci.2⟩) hF O W hO hOlev (hX d)

/-! ## The shared table split among the subcores and rejoined -/

omit [FloatOps F] in
theorem shPts_rows (d : Dev nD) (c : Fin τ.nSC) (q : PosShare TreeShare) (f : Buf (Elt F) (shLoc d c)) :
    (shLoc d c ↦{q} f : sProp 𝕄) = bigSep Finset.univ fun i : Fin 16 => shLoc d c ↦[shSet i.val]{q} f := by
  rw [← pointsTo_biUnion (ℓ := shLoc d c) (q := q) (f := f) Finset.univ (fun n : Fin 16 => shSet n.val) shSets_disjoint, shSets_cover]; try rfl

omit [FloatOps F] in
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit (P m X) 0 := by
  intro d c
  show iprop((bigSep Finset.univ fun i : Fin ((K (F := F)).nSub 0) => mainPay m X d (Lof c i) (m (oLoc d))) ∗ ownBufs (S d (coreOf c))) ⊢ |={Set.univ}=> iprop(
      (bigSep Finset.univ fun i : Fin ((K (F := F)).nSub 0) =>
        iprop(mainPay m X d (Lof c i) (m (oLoc d)) ∗ ∃ f, shLoc d (coreOf c) ↦[shSet (Fin.cast nSub_zero i).val]{fullShare} f))
      ∗ ((bigSep Finset.univ fun i : Fin ((K (F := F)).nSub 0) =>
            iprop(mainPay m X d (Lof c i) (Gd m X d)
              ∗ (shLoc d (coreOf c) ↦{Transfers.shareTok fullShare 16 (Fin.cast nSub_zero i)} Wsh m d (coreOf c))
              ∗ (shLoc d (coreOf c) ↦[shSet (Fin.cast nSub_zero i).val]{Transfers.shareDrop fullShare 16} Wsh m d (coreOf c))))
          -∗ iprop((bigSep Finset.univ fun i : Fin ((K (F := F)).nSub 0) => mainPay m X d (Lof c i) (Gd m X d)) ∗ ownBufs (S d (coreOf c)))))
  rw [bigSep_sep', bigSep_sep', bigSep_sep', ownBufs_S,
    bigSep_tasks (F := F) (fun i => iprop(∃ f, shLoc d (coreOf c) ↦[shSet i.val]{fullShare} f)),
    bigSep_tasks (F := F) (fun i => (shLoc d (coreOf c) ↦{Transfers.shareTok fullShare 16 i} Wsh m d (coreOf c) : sProp 𝕄)),
    bigSep_tasks (F := F) (fun i => (shLoc d (coreOf c) ↦[shSet i.val]{Transfers.shareDrop fullShare 16} Wsh m d (coreOf c) : sProp 𝕄))]
  iintro ⟨Hmain, ⟨%fsh, Hsh⟩, Hrest⟩; imodintro
  isplitl [Hmain Hsh]
  · isplitl [Hmain]; · iexact Hmain
    ihave Hsh' := ((Entails.of_eq (shPts_rows (F := F) d (coreOf c) fullShare fsh)).trans (SparseCore.ent (bigSep_mono (Φ := fun i : Fin 16 => (shLoc d (coreOf c) ↦[shSet i.val]{fullShare} fsh : sProp 𝕄))
      (Ψ := fun i : Fin 16 => iprop(∃ f, shLoc d (coreOf c) ↦[shSet i.val]{fullShare} f))
      fun i _ => BI.BIClass.exists_intro (Φ := fun f => (shLoc d (coreOf c) ↦[shSet i.val]{fullShare} f : sProp 𝕄)) fsh))) $$ Hsh
    iexact Hsh'
  iintro ⟨Hmain, Htoks, Hdrops⟩
  isplitl [Hmain]; · iexact Hmain
  isplitl [Htoks Hdrops]
  · iexists (Wsh m d (coreOf c))
    iapply (Transfers.pointsTo_toks_join fullShare 16)
    isplitl [Hdrops]
    · rw [shPts_rows (F := F) d (coreOf c) (Transfers.shareDrop fullShare 16) (Wsh m d (coreOf c))]; iexact Hdrops
    · iexact Htoks
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

theorem creds_b : ((P (F := F) m X).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m X).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m X).oxFrom 0 (V d c i) = oxV d c := fun i => by
    rw [show (0 : ℕ) = (0 : Fin 1).val from rfl, (P m X).oxFrom_step, (P m X).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m X).x q (SparseCore.T d)) = iprop(emp) :=
  bigSep_univ_of_subsingleton (0 : Fin 1)
theorem Px_S (d : Dev nD) (c : Fin τ.nSC) : (bigSep Finset.univ fun q : Fin 1 => (P (F := F) m X).x q (S d c)) = iprop(emp) :=
  bigSep_univ_of_subsingleton (0 : Fin 1)
theorem Px_V (d : Dev nD) (c : Fin τ.nSC) (i : Fin τ.nSub) :
    (bigSep Finset.univ fun q : Fin 1 => (P (F := F) m X).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m X).x q thr : sProp 𝕄) := by
  rw [SparseCore.Cfg.bigSep_threads (fun thr : Thread nD τ => bigSep Finset.univ fun q : Fin 1 => (P m X).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m X).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m X).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m X) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m X)
  isplitr
  · isplitl; · iexists κ; iexact Hinv'
    iexact Hr'
  isplitl [Hat']; · iexact Hat'
  isplitl [Htok']; · iexact Htok'
  iexact Hcred'

/-! ## The arrays dealt to the thirty-two subcores and gathered back -/

omit [FloatOps F] in
theorem range32 (Φ : ℕ → sProp 𝕄) :
    bigSep (Finset.range 32) Φ = bigSep Finset.univ fun c : Fin 2 => bigSep Finset.univ fun i : Fin 16 => Φ (i.val + 16 * c.val) := by
  have h : Finset.range 32 = (Finset.univ : Finset (Fin 2 × Fin 16)).image (fun p => p.2.val + 16 * p.1.val) := by
    ext x
    simp only [Finset.mem_range, Finset.mem_image, Finset.mem_univ, true_and]
    constructor
    · intro hx; exact ⟨(⟨x / 16, by omega⟩, ⟨x % 16, by omega⟩), by simp only; omega⟩
    · rintro ⟨⟨c, i⟩, rfl⟩; have := c.isLt; have := i.isLt; simp only; omega
  rw [h, SparseCore.bigSep_image_of_injOn (by
    rintro ⟨c, i⟩ - ⟨c', i'⟩ - e
    have e' : i.val + 16 * c.val = i'.val + 16 * c'.val := e
    have := c.isLt; have := i.isLt; have := c'.isLt; have := i'.isLt
    refine Prod.ext (Fin.ext ?_) (Fin.ext ?_)
    · show c.val = c'.val; omega
    · show i.val = i'.val; omega), bigSep_univ_prod]

theorem tiles_disjoint : ∀ p ∈ (Finset.univ : Finset (Fin 2 × Fin 16)), ∀ p' ∈ (Finset.univ : Finset (Fin 2 × Fin 16)), p ≠ p' →
    Disjoint (tileSet (coordsV p.1 p.2)) (tileSet (coordsV p'.1 p'.2)) := by
  rintro ⟨c, i⟩ - ⟨c', i'⟩ - hne
  refine Finset.disjoint_left.mpr fun x h1 h2 => hne ?_
  rw [mem_tileSet] at h1 h2
  have e1 : tileNo (coordsV c i) = 2 * i.val + c.val := rfl
  have e2 : tileNo (coordsV c' i') = 2 * i'.val + c'.val := rfl
  have := c.isLt; have := c'.isLt
  rw [e1] at h1; rw [e2] at h2
  refine Prod.ext (Fin.ext ?_) (Fin.ext ?_)
  · show c.val = c'.val; omega
  · show i.val = i'.val; omega

theorem tiles_cover : (Finset.univ : Finset (Fin 2 × Fin 16)).biUnion (fun p => tileSet (coordsV p.1 p.2)) = Finset.univ := by
  ext x
  simp only [Finset.mem_biUnion, Finset.mem_univ, true_and, iff_true]
  have hr := rowN_lt x
  refine ⟨(⟨(rowN x / 25600) % 2, by omega⟩, ⟨(rowN x / 25600) / 2, by omega⟩), mem_tileSet.mpr ?_⟩
  show rowN x / 25600 = 2 * ((rowN x / 25600) / 2) + (rowN x / 25600) % 2
  omega

theorem oPts_tiles (d : Dev nD) (q : PosShare TreeShare) (f : Buf (Elt F) (oLoc d)) :
    (oLoc d ↦{q} f : sProp 𝕄) = bigSep Finset.univ fun c : Fin 2 => bigSep Finset.univ fun i : Fin 16 => oLoc d ↦[tileSet (coordsV c i)]{q} f := by
  rw [← bigSep_univ_prod (fun p : Fin 2 × Fin 16 => (oLoc d ↦[tileSet (coordsV p.1 p.2)]{q} f : sProp 𝕄)),
    ← pointsTo_biUnion (ℓ := oLoc d) (q := q) (f := f) Finset.univ (fun p : Fin 2 × Fin 16 => tileSet (coordsV p.1 p.2)) tiles_disjoint, tiles_cover]

/-- The three arrays the call reads and writes, whole, are what the thirty-two subcores hold and two unshared remainders. -/
theorem main_split (d : Dev nD) (f : Buf (Elt F) (oLoc d)) :
    iprop((wLoc d ↦{fullShare} m (wLoc d)) ∗ (xfLoc d ↦{fullShare} X d) ∗ (oLoc d ↦{fullShare} f))
      ⊣⊢ (iprop((wLoc d ↦{Transfers.shareDrop fullShare 32} m (wLoc d)) ∗ (xfLoc d ↦{Transfers.shareDrop fullShare 32} X d)
          ∗ bigSep Finset.univ fun c : Fin 2 => bigSep Finset.univ fun i : Fin 16 => mainPay m X d (coordsV c i) f) : sProp 𝕄) := by
  have hw := Transfers.pointsTo_toks_range (ℓ := wLoc d) (S := Finset.univ) (f := m (wLoc d)) (Val := Elt F) (Ix := HIx 1) (Name := ℕ) (U := UU) (Lvl := ℕ) fullShare 32
  have hx := Transfers.pointsTo_toks_range (ℓ := xfLoc d) (S := Finset.univ) (f := (X d : Buf (Elt F) (xfLoc d))) (Val := Elt F) (Ix := HIx 1) (Name := ℕ) (U := UU) (Lvl := ℕ) fullShare 32
  rw [range32] at hw hx
  have hm : (bigSep Finset.univ fun c : Fin 2 => bigSep Finset.univ fun i : Fin 16 => mainPay m X d (coordsV c i) f)
      = iprop((bigSep Finset.univ fun c : Fin 2 => bigSep Finset.univ fun i : Fin 16 => (wLoc d ↦{Transfers.shareTokN fullShare (i.val + 16 * c.val)} m (wLoc d) : sProp 𝕄))
        ∗ (bigSep Finset.univ fun c : Fin 2 => bigSep Finset.univ fun i : Fin 16 => (xfLoc d ↦{Transfers.shareTokN fullShare (i.val + 16 * c.val)} X d : sProp 𝕄))
        ∗ (bigSep Finset.univ fun c : Fin 2 => bigSep Finset.univ fun i : Fin 16 => (oLoc d ↦[tileSet (coordsV c i)]{fullShare} f : sProp 𝕄))) := by
    unfold mainPay
    rw [← bigSep_sep', ← bigSep_sep']
    refine bigSep_congr fun c _ => ?_
    rw [← bigSep_sep', ← bigSep_sep']
    rfl
  rw [hm, ← oPts_tiles]
  constructor
  · iintro ⟨Hw, Hx, Ho⟩
    ihave Hw' := hw.1 $$ Hw
    ihave Hx' := hx.1 $$ Hx
    icases Hw' with ⟨Hwr, Hwt⟩
    icases Hx' with ⟨Hxr, Hxt⟩
    isplitl [Hwr]; · iexact Hwr
    isplitl [Hxr]; · iexact Hxr
    isplitl [Hwt]; · iexact Hwt
    isplitl [Hxt]; · iexact Hxt
    iexact Ho
  · iintro ⟨Hwr, Hxr, Hwt, Hxt, Ho⟩
    isplitl [Hwr Hwt]
    · iapply hw.2; isplitl [Hwr]; · iexact Hwr
      iexact Hwt
    isplitl [Hxr Hxt]
    · iapply hx.2; isplitl [Hxr]; · iexact Hxr
      iexact Hxt
    iexact Ho

theorem st0_eq (d : Dev nD) : (bigSep Finset.univ fun c : Fin ((K (F := F)).nCore 0) => (P m X).st 0 d c)
    = bigSep Finset.univ fun c : Fin 2 => bigSep Finset.univ fun i : Fin 16 => mainPay m X d (coordsV c i) (m (oLoc d)) := rfl
theorem dn0_eq (d : Dev nD) : (bigSep Finset.univ fun c : Fin ((K (F := F)).nCore 0) => (P m X).dn 0 d c)
    = bigSep Finset.univ fun c : Fin 2 => bigSep Finset.univ fun i : Fin 16 => mainPay m X d (coordsV c i) (Gd m X d) := rfl

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev a0Loc (d : Dev nD) : Loc nD τ sig := (SparseCore.T d).loc main_arg0
abbrev v2Loc (d : Dev nD) : Loc nD τ sig := (SparseCore.T d).loc main_v2

/-- The flattening before the call and the reshape after it, as host operations. -/
abbrev opFlat : HloOp τ sig (Elt F) := StableHlo.reshape main_arg0 main_v0 rfl Facts₀.shapeCasts_S4096x200_S819200
abbrev opOut : HloOp τ sig (Elt F) := StableHlo.reshape main_v1 main_v2 rfl Facts₀.shapeCasts_S819200x128_S4096x200x128

abbrev S5 : Finset (DevRef τ sig) := {a0', a1', v0', v1', v2'}

def V0 (d : Dev nD) : Valuation τ sig (Elt F) := fun b => m (d, b)
/-- The flat indices the kernel reads. -/
def Xf (d : Dev nD) : S819200.Idx → BitVec 32 := (opFlat (F := F)).result (V0 m d) v0'
/-- The buffers after the call: the flat output at the expected output. -/
def V1 (d : Dev nD) : Valuation τ sig (Elt F) := Function.update ((opFlat (F := F)).result (V0 m d)) v1' (Gd m (Xf m) d)
/-- The result. -/
def Res (d : Dev nD) : S4096x200x128.Idx → Elt F .f32 := (opOut (F := F)).result (V1 m d) v2'

omit [FloatOps F] in
theorem held_S5 (d : Dev nD) (W : Valuation τ sig (Elt F)) :
    (held (T d) S5 W : sProp 𝕄) = iprop((a0Loc d ↦{fullShare} W a0') ∗ (wLoc d ↦{fullShare} W a1') ∗ (xfLoc d ↦{fullShare} W v0')
      ∗ (oLoc d ↦{fullShare} W v1') ∗ (v2Loc d ↦{fullShare} W v2')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (wLoc d ↦{fullShare} W main_arg1) ∗ (xfLoc d ↦{fullShare} W main_v0)
      ∗ (oLoc d ↦{fullShare} W main_v1) ∗ (v2Loc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S5 (V0 m d) := by
  rw [unscopedBufs_eq, held_S5]; rfl

theorem hFlat : (opFlat (F := F)).bufs ⊆ S5 := show ({a0', v0'} : Finset (DevRef τ sig)) ⊆ S5 by decide
theorem hOut : (opOut (F := F)).bufs ⊆ S5 := show ({v1', v2'} : Finset (DevRef τ sig)) ⊆ S5 by decide

theorem flat_a0 (d : Dev nD) : (opFlat (F := F)).result (V0 m d) a0' = m (a0Loc d) :=
  (opFlat (F := F)).result_of_not_mem (V0 m d) (b := a0') (show a0' ∉ ({v0'} : Finset (DevRef τ sig)) by decide)
theorem flat_a1 (d : Dev nD) : (opFlat (F := F)).result (V0 m d) a1' = m (wLoc d) :=
  (opFlat (F := F)).result_of_not_mem (V0 m d) (b := a1') (show a1' ∉ ({v0'} : Finset (DevRef τ sig)) by decide)
theorem flat_v1 (d : Dev nD) : (opFlat (F := F)).result (V0 m d) v1' = m (oLoc d) :=
  (opFlat (F := F)).result_of_not_mem (V0 m d) (b := v1') (show v1' ∉ ({v0'} : Finset (DevRef τ sig)) by decide)
theorem flat_v2 (d : Dev nD) : (opFlat (F := F)).result (V0 m d) v2' = m (v2Loc d) :=
  (opFlat (F := F)).result_of_not_mem (V0 m d) (b := v2') (show v2' ∉ ({v0'} : Finset (DevRef τ sig)) by decide)

theorem V1_a0 (d : Dev nD) : V1 m d a0' = m (a0Loc d) := (Function.update_of_ne (show a0' ≠ v1' by decide) _ _).trans (flat_a0 m d)
theorem V1_a1 (d : Dev nD) : V1 m d a1' = m (wLoc d) := (Function.update_of_ne (show a1' ≠ v1' by decide) _ _).trans (flat_a1 m d)
theorem V1_v0 (d : Dev nD) : V1 m d v0' = Xf m d := Function.update_of_ne (show v0' ≠ v1' by decide) _ _
theorem V1_v1 (d : Dev nD) : V1 m d v1' = Gd m (Xf m) d := Function.update_self _ _ _
theorem V1_v2 (d : Dev nD) : V1 m d v2' = m (v2Loc d) := (Function.update_of_ne (show v2' ≠ v1' by decide) _ _).trans (flat_v2 m d)

theorem out_a0 (d : Dev nD) : (opOut (F := F)).result (V1 m d) a0' = m (a0Loc d) :=
  ((opOut (F := F)).result_of_not_mem (V1 m d) (b := a0') (show a0' ∉ ({v2'} : Finset (DevRef τ sig)) by decide)).trans (V1_a0 m d)
theorem out_a1 (d : Dev nD) : (opOut (F := F)).result (V1 m d) a1' = m (wLoc d) :=
  ((opOut (F := F)).result_of_not_mem (V1 m d) (b := a1') (show a1' ∉ ({v2'} : Finset (DevRef τ sig)) by decide)).trans (V1_a1 m d)

/-- What @main leaves the claim: the two arguments as found, the result at `Res`. -/
abbrev FIN (d : Dev nD) : sProp 𝕄 :=
  iprop((a0Loc d ↦{fullShare} m (a0Loc d)) ∗ (wLoc d ↦{fullShare} m (wLoc d)) ∗ (v2Loc d ↦{fullShare} Res m d))

set_option maxHeartbeats 4000000 in
theorem hmain (κ : GSem nD τ sig → ℕ) (d : Dev nD) :
    iprop((K (F := F)).ctx EH (P m (Xf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flattening of the indices
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  rw [wp_ret]; imodintro
  ihave Hh := (Entails.of_eq (held_S5 (F := F) d _)) $$ Hheld
  rw [flat_a0, flat_a1, flat_v1, flat_v2]
  icases Hh with ⟨Ha0, Ha1, Hv0, Hv1, Hv2⟩
  -- the call
  ihave Hsp := (main_split m (Xf m) d (m (oLoc d))).1 $$ [Ha1 Hv0 Hv1]
  · isplitl [Ha1]; · iexact Ha1
    isplitl [Hv0]; · iexact Hv0
    iexact Hv1
  icases Hsp with ⟨Hwr, Hxr, Hpay⟩
  iapply ((K (F := F)).wp_run (D (F := F)) 𝒱 (EH := EH) (P := P m (Xf m)) κ d 0) $$ [Hst Hpay Hwr Hxr Ha0 Hv2 Hb]
  isplitr; · iexact Hctx
  isplitl [Hst]; · iexact Hst
  isplitl [Hpay]
  · rw [st0_eq]; iexact Hpay
  iintro ⟨Hst, Hdn⟩
  ihave Hdn' := (Entails.of_eq (dn0_eq m (Xf m) d)) $$ Hdn
  ihave Hjn := (main_split m (Xf m) d (Gd m (Xf m) d)).2 $$ [Hwr Hxr Hdn']
  · isplitl [Hwr]; · iexact Hwr
    isplitl [Hxr]; · iexact Hxr
    iexact Hdn'
  icases Hjn with ⟨Ha1, Hv0, Hv1⟩
  -- the reshape of the flat output
  iapply (wp_hlo_within 𝒱 (SparseCore.T d) none Set.univ (op := opOut) (S := S5) hOut (V := V1 m d)) $$ [Hb Ha0 Ha1 Hv0 Hv1 Hv2]
  · isplitl [Hb]; · iexact Hb
    rw [held_S5, V1_a0, V1_a1, V1_v0, V1_v1, V1_v2]
    isplitl [Ha0]; · iexact Ha0
    isplitl [Ha1]; · iexact Ha1
    isplitl [Hv0]; · iexact Hv0
    isplitl [Hv1]; · iexact Hv1
    iexact Hv2
  iintro ⟨Hb, Hheld⟩
  ihave Hh := (Entails.of_eq (held_S5 (F := F) d _)) $$ Hheld
  rw [out_a0, out_a1]
  icases Hh with ⟨Ha0, Ha1, -, -, Hv2⟩
  rw [wp_ret]; imodintro; imodintro
  isplitl [Hst]; · iexact Hst
  isplitl [Ha0]; · iexact Ha0
  isplitl [Ha1]; · iexact Ha1
  iexact Hv2

def fq (d : Dev nD) (s' : Phys nD τ sig (Elt F)) : Prop :=
  s'.mem.mem (a0Loc d) = m (a0Loc d) ∧ s'.mem.mem (wLoc d) = m (wLoc d) ∧ s'.mem.mem (v2Loc d) = Res m d

theorem hfin (d : Dev nD) (s' : Phys nD τ sig (Elt F)) : iprop(FIN m d ∗ SI s') ⊢ (⌜fq m d s'⌝ : sProp 𝕄) := by
  iintro ⟨⟨Ha0, Ha1, Hv2⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Ha1]
  · isplitl [HSI] <;> iassumption
  icases H with ⟨%h2, HSI, -⟩
  ihave H := (SI_pointsTo_agree (st := s') (ℓ := v2Loc d) (I := Finset.univ) (q := fullShare) (f := Res m d)) $$ [HSI Hv2]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (v2Loc c) = Res m c ∧ r.2.mem (a0Loc c) = m (a0Loc c) ∧ r.2.mem (wLoc c) = m (wLoc c)

theorem run_main [∀ e, Nonempty (Elt F e)] (hX : ∀ d n, (Xf m d n).toNat < 1000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (Xf m)) facts v₀
    (fun q hq => match q with | 0 => nomatch hq)
    (fun q _ => match q with | 0 => tileObl m (Xf m) facts hX)
    (fun q _ => match q with | 0 => vecSplit m (Xf m))
    m ρ main (fun _ => iprop(emp)) (FIN m) (u₀ (F := F)) (hu₀ m (Xf m)) (hmain m ρ) (fq m) (hfin m) (QC m)
    (fun _ h c => ⟨(h c).2.2, (h c).1, (h c).2.1⟩)

end Cert.Proof.KB

end
-- ==== Proof.KB.Result.lean ====
/-
  The result, entry by entry. The flat indices are the indices read row-major; the result is the flat output
  read row-major; so entry (b, t, q) of the result is the table's entry (x[b, t], q).
-/
import proofs.«204301_g9028021256511_cont_9to1_m_920_22_alg».proof.Proof.KB.Launch

import Idealize.ShloMosaic.Lib.Pipeline.Value

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.Kernel.main_v0_scv : Memref Cert.Kernel.sig Kind.scVector Space.hbm Cert.Kernel.S819200 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S819200x128 EltTy.f32)
local notation "idxV" => (Memref.whole Cert.Kernel.cc0_scratch0 : Memref Cert.Kernel.sig Kind.scVector Space.vmem Cert.Kernel.S25600 EltTy.i32)
local notation "shV" => (Memref.whole Cert.Kernel.cc0_scratch1 : Memref Cert.Kernel.sig Kind.scVector Space.shared Cert.Kernel.S1000x128 EltTy.f32)
local notation "r0V" => (Memref.whole Cert.Kernel.cc0_scratch2 : Memref Cert.Kernel.sig Kind.scVector Space.vmem Cert.Kernel.S128x128 EltTy.f32)
local notation "r1V" => (Memref.whole Cert.Kernel.cc0_scratch3 : Memref Cert.Kernel.sig Kind.scVector Space.vmem Cert.Kernel.S128x128 EltTy.f32)
local notation "r2V" => (Memref.whole Cert.Kernel.cc0_scratch4 : Memref Cert.Kernel.sig Kind.scVector Space.vmem Cert.Kernel.S128x128 EltTy.f32)
local notation "r3V" => (Memref.whole Cert.Kernel.cc0_scratch5 : Memref Cert.Kernel.sig Kind.scVector Space.vmem Cert.Kernel.S128x128 EltTy.f32)
local notation "r4V" => (Memref.whole Cert.Kernel.cc0_scratch6 : Memref Cert.Kernel.sig Kind.scVector Space.vmem Cert.Kernel.S128x128 EltTy.f32)

variable (m : (ℓ : Loc nD τ sig) → Buf (Elt F) ℓ)

theorem Xf_eq (d : Dev nD) :
    Xf m d = fun i => shapeCast S819200 (m (a0Loc d) : S4096x200.Idx → BitVec 32) Facts₀.shapeCasts_S4096x200_S819200 i := by
  unfold Xf
  exact StableHlo.reshape_result main_arg0 main_v0 rfl Facts₀.shapeCasts_S4096x200_S819200 _ _ (V0 m d)

/-- Every flat index word is one of the index words. -/
theorem Xf_lt (d : Dev nD) (h : ∀ i : S4096x200.Idx, ((m (a0Loc d) : S4096x200.Idx → BitVec 32) i).toNat < 1000) :
    ∀ n, (Xf m d n).toNat < 1000 := by
  intro n
  rw [Xf_eq]
  exact h _

theorem Xf_apply (d : Dev nD) (b : Fin 4096) (t : Fin 200) (hn : 200 * b.val + t.val < 819200) :
    Xf m d (ix1 ⟨200 * b.val + t.val, hn⟩) = (m (a0Loc d) : S4096x200.Idx → BitVec 32) (ix2 b t) := by
  rw [Xf_eq]
  refine shapeCast_apply _ _ _ (ix2 b t) ?_
  rw [Shape.rowMajor_val_two, Shape.rowMajor_val_one]
  show b.val * 200 + t.val = 200 * b.val + t.val
  omega

theorem Res_eq (d : Dev nD) :
    Res m d = fun i => shapeCast S4096x200x128 (Gd m (Xf m) d : S819200x128.Idx → Elt F .f32) Facts₀.shapeCasts_S819200x128_S4096x200x128 i := by
  unfold Res
  rw [StableHlo.reshape_result main_v1 main_v2 rfl Facts₀.shapeCasts_S819200x128_S4096x200x128 _ _ (V1 m d), V1_v1]
  rfl

/-- Entry (b, t, q) of the result: the table's entry (x[b, t], q). -/
theorem Res_apply (d : Dev nD) (b : Fin 4096) (t : Fin 200) (q : Fin 128) :
    Res m d (ix3 b t q) = (m (wLoc d) : S1000x128.Idx → Elt F .f32) (ix2 (rowOf ((m (a0Loc d) : S4096x200.Idx → BitVec 32) (ix2 b t))) q) := by
  have hn : 200 * b.val + t.val < 819200 := by have := b.isLt; have := t.isLt; omega
  rw [Res_eq]
  refine (shapeCast_apply (Gd m (Xf m) d : S819200x128.Idx → Elt F .f32) Facts₀.shapeCasts_S819200x128_S4096x200x128 (ix3 b t q)
    (ix2 ⟨200 * b.val + t.val, hn⟩ q) ?_).trans ?_
  · show (S819200x128.rowMajor (ix2 ⟨200 * b.val + t.val, hn⟩ q)).val = (S4096x200x128.rowMajor (ix3 b t q)).val
    rw [Shape.rowMajor_val_two, Shape.rowMajor_val_three]
    show (200 * b.val + t.val) * 128 + q.val = (b.val * 200 + t.val) * 128 + q.val
    omega
  · show Wd m d (ix2 (rowOf (Xf m d (ix1 ⟨200 * b.val + t.val, hn⟩))) q) = _
    rw [Xf_apply m d b t hn]

end Cert.Proof.KB

end
-- ==== Proof.KI.Setup.lean ====
/-
  The embedding lookup on the SparseCores: what the launch theorem is applied to. Thirty-two vector subcores
  (two SparseCores of sixteen) each own 25,600 consecutive rows of the output; the sixteen of one SparseCore
  first fill that SparseCore's shared copy of the table, sixty-four rows each (the last forty), and meet at the
  subcore barrier; afterwards every subcore reads the whole shared table. This module fixes the program's
  configuration, the ghost state (the launch handshakes, the barrier cells, the transfers' counters), the
  buffers' names and the subcores' threads.
-/
import proofs.«204301_g9028021256511_cont_9to1_m_920_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204301_g9028021256511_cont_9to1_m_920_22_alg».proof.Proof.Gen.KernelIdeal
import proofs.«204301_g9028021256511_cont_9to1_m_920_22_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

abbrev EH : Emb UH (MT nD τ sig (HIx 1) (Elt F) ℕ UU ℕ) := embL
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (MT nD τ sig (HIx 1) (Elt F) ℕ UU ℕ)).LandsIn (upEmb : UEmb _ (MT nD τ sig (HIx 1) (Elt F) ℕ UU ℕ)) := by
  unfold EB; infer_instance

/-! ## Threads and locations -/

theorem nSub_eq : τ.nSub = 16 := rfl
theorem nSC_eq : τ.nSC = 2 := rfl
theorem bound_zero : grid0.bound 0 = 2 := rfl
theorem bound_one : grid0.bound 1 = 16 := rfl

abbrev cV (L : grid0.Coords) : Fin τ.nSC := (L 0).castLE hcore0
abbrev jV (L : grid0.Coords) : Fin τ.nSub := (L 1).castLE hsub0

/-- The flattened indices, the table, the flat output, as locations of device `d`. -/
abbrev xfLoc (d : Dev nD) : Loc nD τ sig := (SparseCore.T d).loc main_v0
abbrev wLoc (d : Dev nD) : Loc nD τ sig := (SparseCore.T d).loc main_arg1
abbrev oLoc (d : Dev nD) : Loc nD τ sig := (SparseCore.T d).loc main_v1
/-- SparseCore `c`'s shared copy of the table. -/
abbrev shRef (c : Fin τ.nSC) : DevRef τ sig := ⟨.shared, ⟨0, by decide⟩, c⟩
abbrev shLoc (d : Dev nD) (c : Fin τ.nSC) : Loc nD τ sig := (d, shRef c)

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.KI.Values.lean ====
/-
  The values the subcores move, index by index. Row n of the flat output is row x[n] of the table: each chunk of
  128 output rows is one indexed copy out of the shared table followed by one plain copy, so an output entry
  (n, q) is the shared table's entry (x[n], q), and the shared table is the table.
-/
import proofs.«204301_g9028021256511_cont_9to1_m_920_22_alg».proof.Proof.KI.Setup
import Idealize.ShloMosaic.Lib.ValueIdx
import Idealize.ShloMosaic.Lib.Writes

noncomputable section

namespace Cert.Proof.KI

open Cert.KernelIdeal Cert.KernelIdeal.Gen
open Idealize.ShloMosaic Idealize.ShloMosaic.ValueIdx

variable {F : FTy → Type}

/-- A table row named by an index word: the word's value, held below the table's height. -/
def rowOf (w : BitVec 32) : Fin 1000 := ⟨min w.toNat 999, by omega⟩

theorem rowOf_val {w : BitVec 32} (h : w.toNat < 1000) : (rowOf w).val = w.toNat := by
  unfold rowOf; simp only; omega

/-- The flat output the kernel is to produce: row `n` is the table's row `x[n]`. -/
def Gflat (X : S819200.Idx → BitVec 32) (Wt : S1000x128.Idx → Elt F .f32) : S819200x128.Idx → Elt F .f32 :=
  fun i => Wt (ix2 (rowOf (X (ix1 (i 0)))) (i 1))

/-- Position `k` of a rank-one shape in row-major order is the index `k`. -/
theorem rowMajor_symm_one {n : Nat} (k : Fin ((⟨1, ![n]⟩ : Shape).numel)) (hk : k.val < n) :
    (⟨1, ![n]⟩ : Shape).rowMajor.symm k = ix1 ⟨k.val, hk⟩ := by
  funext a
  obtain rfl : a = 0 := Subsingleton.elim _ _
  refine Fin.ext ?_
  have h := Shape.rowMajor_val_one ((⟨1, ![n]⟩ : Shape).rowMajor.symm k)
  rw [Equiv.apply_symm_apply] at h
  exact h.symm

variable [FloatOps F]

local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)

/-- A write of a whole view, read back on the view's elements: the written values. -/
theorem landed_congr {sig : RefSig} {κ : Kind} {sp : Space} {s : Shape} {e : EltTy} {Val : EltTy → Type}
    (v : View sig κ sp s e) (f : v.ty.Contents Val) (w : s.Idx → Val e) (G : v.ty.Contents Val)
    (h : ∀ x, G (v.emb x) = _root_.cast (congrArg Val v.elt_eq.symm) (w x)) :
    ∀ i ∈ v.set, v.writes Val f [⟨Rect.whole s, w⟩] i = G i := by
  intro i hi
  obtain ⟨x, -, rfl⟩ := Finset.mem_map.mp hi
  rw [View.writes_singleton]
  have e' : (v.slice (Rect.whole s)).emb x = v.emb x := by
    show v.emb ((Rect.whole s).emb x) = v.emb x
    rw [Rect.emb_whole_apply]
  have hw := View.write_emb_of_mem (v := v.slice (Rect.whole s)) f w (Finset.mem_univ x)
  rw [e'] at hw
  exact hw.trans (h x).symm

/-- The 128 index words of a chunk, as the program slices them out of the index scratch. -/
abbrev idxRect (k : Fin k0_t1_loop.trips) (s : Fin 5) : Rect S25600 :=
  Rect.unit (s := S25600) (k0_off4 k (BitVec.ofNat 32 (128 * s.val))) S128.size (k0_off4_inb k s)
abbrev idxChunk (k : Fin k0_t1_loop.trips) (s : Fin 5) : Memref sig .scVector .vmem S128 .i32 := (idxV).slice (idxRect k s) (fun _ => rfl)
/-- The 128 output rows of a chunk, as the program slices them out of the flat output. -/
abbrev oRect (L : grid0.Coords) (k : Fin k0_t1_loop.trips) (s : Fin 5) : Rect S819200x128 :=
  Rect.unit (s := S819200x128) (k0_off9 L k (BitVec.ofNat 32 (128 * s.val))) S128x128.size (k0_off9_inb L k s)
abbrev oChunk (L : grid0.Coords) (k : Fin k0_t1_loop.trips) (s : Fin 5) : Memref sig .scVector .hbm S128x128 .f32 := (oV).slice (oRect L k s) (fun _ => rfl)
abbrev shWhole : Memref sig .scVector .shared S1000x128 .f32 :=
  (shV).slice (Rect.unit (s := S1000x128) ![0, 0] S1000x128.size inb_S1000x128_S1000x128_0_0) (fun _ => rfl)

/-- What one indexed copy brings: entry (r, q) is the shared table's entry (the chunk's r-th index word, q). -/
def idxAt (k s r : ℕ) : S25600.Idx := ix1 ⟨(640 * k + 128 * s + r) % 25600, Nat.mod_lt _ (by decide)⟩
def rowsVal (fi : S25600.Idx → BitVec 32) (fw : S1000x128.Idx → Elt F .f32) (k s : ℕ) :
    S128x128.Idx → Elt F .f32 :=
  fun x => fw (ix2 (rowOf (fi (idxAt k s (x 0).val))) (x 1))

theorem trips_eq : k0_t1_loop.trips = 40 := by decide

theorem idxRect_emb (k : Fin k0_t1_loop.trips) (s : Fin 5) (r : Fin 128) :
    (idxRect k s).emb (ix1 r) = idxAt k.val s.val r.val := by
  funext a
  obtain rfl : a = 0 := Subsingleton.elim _ _
  refine Fin.ext ?_
  show (k0_off4 k (BitVec.ofNat 32 (128 * s.val))) 0 + 1 * r.val = (640 * k.val + 128 * s.val + r.val) % 25600
  rw [k0_off4_eq]
  have hk : k.val < 40 := trips_eq ▸ k.isLt
  have hs := s.isLt
  have hr := r.isLt
  show 640 * k.val + 128 * s.val + 1 * r.val = _
  omega

theorem gather_closed (k : Fin k0_t1_loop.trips) (s : Fin 5) (fi : S25600.Idx → BitVec 32)
    (fw : S1000x128.Idx → Elt F .f32) (hn : S128.numel = S128x128.size (gathers_S1000x128_S128x128).axis')
    (hin : ∀ x, ((idxChunk k s).view.read (Elt F) fi x).toNat < S1000x128.size (gathers_S1000x128_S128x128).axis) :
    SparseCore.gatherPayload (F := F) gathers_S1000x128_S128x128 ((shWhole).view.read (Elt F) fw)
      (SparseCore.rows ((idxChunk k s).view.read (Elt F) fi) hn hin) = rowsVal fi fw k.val s.val := by
  funext x
  unfold SparseCore.gatherPayload rowsVal
  have e : idxAt k.val s.val (x 0).val = (idxRect k s).emb (ix1 (x 0)) := (idxRect_emb k s (x 0)).symm
  rw [e]
  show fw _ = fw _
  refine congrArg fw (funext fun a => Fin.ext ?_)
  match a with
  | ⟨0, _⟩ =>
    show 0 + 1 * (SparseCore.rows _ hn hin (x 0)).val = _
    unfold SparseCore.rows
    simp only [Nat.zero_add, Nat.one_mul]
    rw [rowMajor_symm_one _ (x 0).isLt]
    exact (rowOf_val (hin (ix1 (x 0)))).symm
  | ⟨1, _⟩ =>
    show 0 + 1 * (x 1).val = (x 1).val
    omega

/-! ## The output's rows, chunk by chunk -/

/-- Chunk `(k, s)` of subcore `L`: output rows `128 n` to `128 n + 127` for this `n`. -/
def chunkNo (L : grid0.Coords) (k s : ℕ) : ℕ := 400 * (L 1).val + 200 * (L 0).val + 5 * k + s
/-- An output index's row and column, as numbers. -/
def rowN (i : S819200x128.Idx) : ℕ := (i 0).val
def colN (i : S819200x128.Idx) : ℕ := (i 1).val
theorem rowN_lt (i : S819200x128.Idx) : rowN i < 819200 := (i 0).isLt
theorem colN_lt (i : S819200x128.Idx) : colN i < 128 := (i 1).isLt
def chunkSet (L : grid0.Coords) (k s : ℕ) : Finset S819200x128.Idx :=
  Finset.univ.filter fun i => rowN i / 128 = chunkNo L k s

theorem mem_chunkSet {L : grid0.Coords} {k s : ℕ} {i : S819200x128.Idx} :
    i ∈ chunkSet L k s ↔ rowN i / 128 = chunkNo L k s := by
  unfold chunkSet
  exact Finset.mem_filter.trans (and_iff_right (Finset.mem_univ _))

theorem oChunk_set (L : grid0.Coords) (k : Fin k0_t1_loop.trips) (s : Fin 5) :
    (oChunk L k s).view.set = chunkSet L k.val s.val := by
  show ((View.whole (main_v1_scv : Ref sig .scVector)).slice (oRect L k s)).set = _
  rw [View.set_slice_whole]
  ext i
  rw [Rect.mem_set_unit, k0_off9_eq, mem_chunkSet]
  unfold chunkNo
  have h1 : colN i < 128 := colN_lt i
  constructor
  · intro h
    have h0 : 51200 * (L 1).val + 25600 * (L 0).val + 640 * k.val + 128 * s.val ≤ rowN i
        ∧ rowN i < 51200 * (L 1).val + 25600 * (L 0).val + 640 * k.val + 128 * s.val + 128 := h (0 : Fin 2)
    omega
  · intro h a
    match a with
    | ⟨0, _⟩ =>
      show 51200 * (L 1).val + 25600 * (L 0).val + 640 * k.val + 128 * s.val ≤ rowN i
        ∧ rowN i < 51200 * (L 1).val + 25600 * (L 0).val + 640 * k.val + 128 * s.val + 128
      omega
    | ⟨1, _⟩ =>
      show (0 : ℕ) ≤ colN i ∧ colN i < 0 + 128
      omega

end Cert.Proof.KI

end
-- ==== Proof.KI.Deliver.lean ====
/-
  What a chunk's write-back delivers when it lands. The engine hands back the chunk's 128 output rows written with
  what the row scratch held, and the row scratch itself; the row scratch held what the indexed copy brought, the
  shared table's rows at the chunk's index words. So the chunk's rows are the expected output there.
-/
import proofs.«204301_g9028021256511_cont_9to1_m_920_22_alg».proof.Proof.KI.Values

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

abbrev thr (d : Dev nD) (L : grid0.Coords) : Thread nD τ := V d (cV L) (jV L)

theorem readAs_same {s : Shape} {e : EltTy} (w : s.Idx → Elt F e) : ReadAs.same.apply w = w := rfl

theorem deliver0 (d : Dev nD) (L : grid0.Coords) (k : Fin k0_t1_loop.trips)
    (fi : S25600.Idx → BitVec 32) (fw : S1000x128.Idx → Elt F .f32)
    (g0 : Buf (Elt F) (oLoc d)) (f0 : Buf (Elt F) ((r0V).view.loc (thr d L))) (Gd : Buf (Elt F) (oLoc d))
    (gath dmaw : S128x128.Idx → Elt F .f32) (hg : gath = rowsVal fi fw k.val 0)
    (hd : dmaw = ReadAs.same.apply ((r0V).view.read (Elt F) ((r0V).view.writes (Elt F) f0 [⟨Rect.whole cc0_scratch2.ty.shape, gath⟩])))
    (hG : ∀ x, Gd ((oChunk L k 0).view.emb x) = rowsVal fi fw k.val 0 x) :
    (iprop(((oChunk L k 0).view.loc (thr d L) ↦[(oChunk L k 0).view.set]{fullShare}
          (oChunk L k 0).view.writes (Elt F) g0 [⟨Rect.whole S128x128, dmaw⟩])
        ∗ ((r0V).view.loc (thr d L) ↦[(r0V).view.set]{fullShare}
            (r0V).view.writes (Elt F) f0 [⟨Rect.whole cc0_scratch2.ty.shape, gath⟩])) : sProp 𝕄)
    ⊢ iprop((oLoc d ↦[chunkSet L k.val 0]{fullShare} Gd)
        ∗ ((r0V).view.loc (thr d L) ↦[(r0V).view.set]{fullShare} rowsVal fi fw k.val 0)) := by
  subst hd
  subst hg
  have e2 : ∀ i ∈ (r0V).view.set, (r0V).view.writes (Elt F) f0 [⟨Rect.whole cc0_scratch2.ty.shape, rowsVal fi fw k.val 0⟩] i
      = (rowsVal fi fw k.val 0 : Buf (Elt F) ((r0V).view.loc (thr d L))) i :=
    landed_congr (r0V).view f0 (rowsVal fi fw k.val 0) (rowsVal fi fw k.val 0) (fun x => rfl)
  have hr : ∀ x, (r0V).view.read (Elt F) ((r0V).view.writes (Elt F) f0 [⟨Rect.whole cc0_scratch2.ty.shape, rowsVal fi fw k.val 0⟩]) x
      = rowsVal fi fw k.val 0 x := fun x => by
    have := View.read_writes_cons_emb (r0V).view f0 (Rect.whole cc0_scratch2.ty.shape) (rowsVal fi fw k.val 0) [] x
    rwa [Rect.emb_whole_apply] at this
  have e1 : ∀ i ∈ (oChunk L k 0).view.set, (oChunk L k 0).view.writes (Elt F) g0 [⟨Rect.whole S128x128, ReadAs.same.apply ((r0V).view.read (Elt F)
            ((r0V).view.writes (Elt F) f0 [⟨Rect.whole cc0_scratch2.ty.shape, rowsVal fi fw k.val 0⟩]))⟩] i = Gd i :=
    landed_congr (oChunk L k 0).view g0 _ Gd (fun x => (hG x).trans (hr x).symm)
  refine BIClass.sep_mono ?_ ?_
  · rw [show chunkSet L k.val 0 = (oChunk L k 0).view.set from (oChunk_set L k 0).symm]; exact Entails.of_eq (pointsTo_congr e1)
  · exact Entails.of_eq (pointsTo_congr e2)

theorem deliver1 (d : Dev nD) (L : grid0.Coords) (k : Fin k0_t1_loop.trips)
    (fi : S25600.Idx → BitVec 32) (fw : S1000x128.Idx → Elt F .f32)
    (g0 : Buf (Elt F) (oLoc d)) (f0 : Buf (Elt F) ((r1V).view.loc (thr d L))) (Gd : Buf (Elt F) (oLoc d))
    (gath dmaw : S128x128.Idx → Elt F .f32) (hg : gath = rowsVal fi fw k.val 1)
    (hd : dmaw = ReadAs.same.apply ((r1V).view.read (Elt F) ((r1V).view.writes (Elt F) f0 [⟨Rect.whole cc0_scratch3.ty.shape, gath⟩])))
    (hG : ∀ x, Gd ((oChunk L k 1).view.emb x) = rowsVal fi fw k.val 1 x) :
    (iprop(((oChunk L k 1).view.loc (thr d L) ↦[(oChunk L k 1).view.set]{fullShare}
          (oChunk L k 1).view.writes (Elt F) g0 [⟨Rect.whole S128x128, dmaw⟩])
        ∗ ((r1V).view.loc (thr d L) ↦[(r1V).view.set]{fullShare}
            (r1V).view.writes (Elt F) f0 [⟨Rect.whole cc0_scratch3.ty.shape, gath⟩])) : sProp 𝕄)
    ⊢ iprop((oLoc d ↦[chunkSet L k.val 1]{fullShare} Gd)
        ∗ ((r1V).view.loc (thr d L) ↦[(r1V).view.set]{fullShare} rowsVal fi fw k.val 1)) := by
  subst hd
  subst hg
  have e2 : ∀ i ∈ (r1V).view.set, (r1V).view.writes (Elt F) f0 [⟨Rect.whole cc0_scratch3.ty.shape, rowsVal fi fw k.val 1⟩] i
      = (rowsVal fi fw k.val 1 : Buf (Elt F) ((r1V).view.loc (thr d L))) i :=
    landed_congr (r1V).view f0 (rowsVal fi fw k.val 1) (rowsVal fi fw k.val 1) (fun x => rfl)
  have hr : ∀ x, (r1V).view.read (Elt F) ((r1V).view.writes (Elt F) f0 [⟨Rect.whole cc0_scratch3.ty.shape, rowsVal fi fw k.val 1⟩]) x
      = rowsVal fi fw k.val 1 x := fun x => by
    have := View.read_writes_cons_emb (r1V).view f0 (Rect.whole cc0_scratch3.ty.shape) (rowsVal fi fw k.val 1) [] x
    rwa [Rect.emb_whole_apply] at this
  have e1 : ∀ i ∈ (oChunk L k 1).view.set, (oChunk L k 1).view.writes (Elt F) g0 [⟨Rect.whole S128x128, ReadAs.same.apply ((r1V).view.read (Elt F)
            ((r1V).view.writes (Elt F) f0 [⟨Rect.whole cc0_scratch3.ty.shape, rowsVal fi fw k.val 1⟩]))⟩] i = Gd i :=
    landed_congr (oChunk L k 1).view g0 _ Gd (fun x => (hG x).trans (hr x).symm)
  refine BIClass.sep_mono ?_ ?_
  · rw [show chunkSet L k.val 1 = (oChunk L k 1).view.set from (oChunk_set L k 1).symm]; exact Entails.of_eq (pointsTo_congr e1)
  · exact Entails.of_eq (pointsTo_congr e2)

theorem deliver2 (d : Dev nD) (L : grid0.Coords) (k : Fin k0_t1_loop.trips)
    (fi : S25600.Idx → BitVec 32) (fw : S1000x128.Idx → Elt F .f32)
    (g0 : Buf (Elt F) (oLoc d)) (f0 : Buf (Elt F) ((r2V).view.loc (thr d L))) (Gd : Buf (Elt F) (oLoc d))
    (gath dmaw : S128x128.Idx → Elt F .f32) (hg : gath = rowsVal fi fw k.val 2)
    (hd : dmaw = ReadAs.same.apply ((r2V).view.read (Elt F) ((r2V).view.writes (Elt F) f0 [⟨Rect.whole cc0_scratch4.ty.shape, gath⟩])))
    (hG : ∀ x, Gd ((oChunk L k 2).view.emb x) = rowsVal fi fw k.val 2 x) :
    (iprop(((oChunk L k 2).view.loc (thr d L) ↦[(oChunk L k 2).view.set]{fullShare}
          (oChunk L k 2).view.writes (Elt F) g0 [⟨Rect.whole S128x128, dmaw⟩])
        ∗ ((r2V).view.loc (thr d L) ↦[(r2V).view.set]{fullShare}
            (r2V).view.writes (Elt F) f0 [⟨Rect.whole cc0_scratch4.ty.shape, gath⟩])) : sProp 𝕄)
    ⊢ iprop((oLoc d ↦[chunkSet L k.val 2]{fullShare} Gd)
        ∗ ((r2V).view.loc (thr d L) ↦[(r2V).view.set]{fullShare} rowsVal fi fw k.val 2)) := by
  subst hd
  subst hg
  have e2 : ∀ i ∈ (r2V).view.set, (r2V).view.writes (Elt F) f0 [⟨Rect.whole cc0_scratch4.ty.shape, rowsVal fi fw k.val 2⟩] i
      = (rowsVal fi fw k.val 2 : Buf (Elt F) ((r2V).view.loc (thr d L))) i :=
    landed_congr (r2V).view f0 (rowsVal fi fw k.val 2) (rowsVal fi fw k.val 2) (fun x => rfl)
  have hr : ∀ x, (r2V).view.read (Elt F) ((r2V).view.writes (Elt F) f0 [⟨Rect.whole cc0_scratch4.ty.shape, rowsVal fi fw k.val 2⟩]) x
      = rowsVal fi fw k.val 2 x := fun x => by
    have := View.read_writes_cons_emb (r2V).view f0 (Rect.whole cc0_scratch4.ty.shape) (rowsVal fi fw k.val 2) [] x
    rwa [Rect.emb_whole_apply] at this
  have e1 : ∀ i ∈ (oChunk L k 2).view.set, (oChunk L k 2).view.writes (Elt F) g0 [⟨Rect.whole S128x128, ReadAs.same.apply ((r2V).view.read (Elt F)
            ((r2V).view.writes (Elt F) f0 [⟨Rect.whole cc0_scratch4.ty.shape, rowsVal fi fw k.val 2⟩]))⟩] i = Gd i :=
    landed_congr (oChunk L k 2).view g0 _ Gd (fun x => (hG x).trans (hr x).symm)
  refine BIClass.sep_mono ?_ ?_
  · rw [show chunkSet L k.val 2 = (oChunk L k 2).view.set from (oChunk_set L k 2).symm]; exact Entails.of_eq (pointsTo_congr e1)
  · exact Entails.of_eq (pointsTo_congr e2)

theorem deliver3 (d : Dev nD) (L : grid0.Coords) (k : Fin k0_t1_loop.trips)
    (fi : S25600.Idx → BitVec 32) (fw : S1000x128.Idx → Elt F .f32)
    (g0 : Buf (Elt F) (oLoc d)) (f0 : Buf (Elt F) ((r3V).view.loc (thr d L))) (Gd : Buf (Elt F) (oLoc d))
    (gath dmaw : S128x128.Idx → Elt F .f32) (hg : gath = rowsVal fi fw k.val 3)
    (hd : dmaw = ReadAs.same.apply ((r3V).view.read (Elt F) ((r3V).view.writes (Elt F) f0 [⟨Rect.whole cc0_scratch5.ty.shape, gath⟩])))
    (hG : ∀ x, Gd ((oChunk L k 3).view.emb x) = rowsVal fi fw k.val 3 x) :
    (iprop(((oChunk L k 3).view.loc (thr d L) ↦[(oChunk L k 3).view.set]{fullShare}
          (oChunk L k 3).view.writes (Elt F) g0 [⟨Rect.whole S128x128, dmaw⟩])
        ∗ ((r3V).view.loc (thr d L) ↦[(r3V).view.set]{fullShare}
            (r3V).view.writes (Elt F) f0 [⟨Rect.whole cc0_scratch5.ty.shape, gath⟩])) : sProp 𝕄)
    ⊢ iprop((oLoc d ↦[chunkSet L k.val 3]{fullShare} Gd)
        ∗ ((r3V).view.loc (thr d L) ↦[(r3V).view.set]{fullShare} rowsVal fi fw k.val 3)) := by
  subst hd
  subst hg
  have e2 : ∀ i ∈ (r3V).view.set, (r3V).view.writes (Elt F) f0 [⟨Rect.whole cc0_scratch5.ty.shape, rowsVal fi fw k.val 3⟩] i
      = (rowsVal fi fw k.val 3 : Buf (Elt F) ((r3V).view.loc (thr d L))) i :=
    landed_congr (r3V).view f0 (rowsVal fi fw k.val 3) (rowsVal fi fw k.val 3) (fun x => rfl)
  have hr : ∀ x, (r3V).view.read (Elt F) ((r3V).view.writes (Elt F) f0 [⟨Rect.whole cc0_scratch5.ty.shape, rowsVal fi fw k.val 3⟩]) x
      = rowsVal fi fw k.val 3 x := fun x => by
    have := View.read_writes_cons_emb (r3V).view f0 (Rect.whole cc0_scratch5.ty.shape) (rowsVal fi fw k.val 3) [] x
    rwa [Rect.emb_whole_apply] at this
  have e1 : ∀ i ∈ (oChunk L k 3).view.set, (oChunk L k 3).view.writes (Elt F) g0 [⟨Rect.whole S128x128, ReadAs.same.apply ((r3V).view.read (Elt F)
            ((r3V).view.writes (Elt F) f0 [⟨Rect.whole cc0_scratch5.ty.shape, rowsVal fi fw k.val 3⟩]))⟩] i = Gd i :=
    landed_congr (oChunk L k 3).view g0 _ Gd (fun x => (hG x).trans (hr x).symm)
  refine BIClass.sep_mono ?_ ?_
  · rw [show chunkSet L k.val 3 = (oChunk L k 3).view.set from (oChunk_set L k 3).symm]; exact Entails.of_eq (pointsTo_congr e1)
  · exact Entails.of_eq (pointsTo_congr e2)

theorem deliver4 (d : Dev nD) (L : grid0.Coords) (k : Fin k0_t1_loop.trips)
    (fi : S25600.Idx → BitVec 32) (fw : S1000x128.Idx → Elt F .f32)
    (g0 : Buf (Elt F) (oLoc d)) (f0 : Buf (Elt F) ((r4V).view.loc (thr d L))) (Gd : Buf (Elt F) (oLoc d))
    (gath dmaw : S128x128.Idx → Elt F .f32) (hg : gath = rowsVal fi fw k.val 4)
    (hd : dmaw = ReadAs.same.apply ((r4V).view.read (Elt F) ((r4V).view.writes (Elt F) f0 [⟨Rect.whole cc0_scratch6.ty.shape, gath⟩])))
    (hG : ∀ x, Gd ((oChunk L k 4).view.emb x) = rowsVal fi fw k.val 4 x) :
    (iprop(((oChunk L k 4).view.loc (thr d L) ↦[(oChunk L k 4).view.set]{fullShare}
          (oChunk L k 4).view.writes (Elt F) g0 [⟨Rect.whole S128x128, dmaw⟩])
        ∗ ((r4V).view.loc (thr d L) ↦[(r4V).view.set]{fullShare}
            (r4V).view.writes (Elt F) f0 [⟨Rect.whole cc0_scratch6.ty.shape, gath⟩])) : sProp 𝕄)
    ⊢ iprop((oLoc d ↦[chunkSet L k.val 4]{fullShare} Gd)
        ∗ ((r4V).view.loc (thr d L) ↦[(r4V).view.set]{fullShare} rowsVal fi fw k.val 4)) := by
  subst hd
  subst hg
  have e2 : ∀ i ∈ (r4V).view.set, (r4V).view.writes (Elt F) f0 [⟨Rect.whole cc0_scratch6.ty.shape, rowsVal fi fw k.val 4⟩] i
      = (rowsVal fi fw k.val 4 : Buf (Elt F) ((r4V).view.loc (thr d L))) i :=
    landed_congr (r4V).view f0 (rowsVal fi fw k.val 4) (rowsVal fi fw k.val 4) (fun x => rfl)
  have hr : ∀ x, (r4V).view.read (Elt F) ((r4V).view.writes (Elt F) f0 [⟨Rect.whole cc0_scratch6.ty.shape, rowsVal fi fw k.val 4⟩]) x
      = rowsVal fi fw k.val 4 x := fun x => by
    have := View.read_writes_cons_emb (r4V).view f0 (Rect.whole cc0_scratch6.ty.shape) (rowsVal fi fw k.val 4) [] x
    rwa [Rect.emb_whole_apply] at this
  have e1 : ∀ i ∈ (oChunk L k 4).view.set, (oChunk L k 4).view.writes (Elt F) g0 [⟨Rect.whole S128x128, ReadAs.same.apply ((r4V).view.read (Elt F)
            ((r4V).view.writes (Elt F) f0 [⟨Rect.whole cc0_scratch6.ty.shape, rowsVal fi fw k.val 4⟩]))⟩] i = Gd i :=
    landed_congr (oChunk L k 4).view g0 _ Gd (fun x => (hG x).trans (hr x).symm)
  refine BIClass.sep_mono ?_ ?_
  · rw [show chunkSet L k.val 4 = (oChunk L k 4).view.set from (oChunk_set L k 4).symm]; exact Entails.of_eq (pointsTo_congr e1)
  · exact Entails.of_eq (pointsTo_congr e2)

end Cert.Proof.KI

end
-- ==== Proof.KI.Cells.lean ====
/-
  The subcore barrier's cells and what crosses them. Before the barrier each subcore has filled its own rows of
  its SparseCore's shared table (rows 64 j to 64 j + 63, the last subcore 960 to 999); at the barrier subcore n
  hands every subcore i a read share of those rows, so that after it every subcore holds a read share of the
  whole shared table, at the table's contents. Also: what the one call hands each subcore and takes back.
-/
import proofs.«204301_g9028021256511_cont_9to1_m_920_22_alg».proof.Proof.KI.Values

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

variable (m : (ℓ : Loc nD τ sig) → Buf (Elt F) ℓ) (ρ : Dev nD → PrngReg)

/-! ## The buffers' contents as the kernel finds them -/

/-- The table. -/
abbrev Wd (d : Dev nD) : S1000x128.Idx → Elt F .f32 := m (wLoc d)
/-- The shared table's contents once filled: the table's. -/
abbrev Wsh (d : Dev nD) (c : Fin τ.nSC) : Buf (Elt F) (shLoc d c) := Wd m d

/-- The rows of the shared table subcore `n` fills. -/
def rowS (i : S1000x128.Idx) : ℕ := (i 0).val
theorem rowS_lt (i : S1000x128.Idx) : rowS i < 1000 := (i 0).isLt
def shSet (n : ℕ) : Finset S1000x128.Idx := Finset.univ.filter fun i => rowS i / 64 = n
theorem mem_shSet {n : ℕ} {i : S1000x128.Idx} : i ∈ shSet n ↔ rowS i / 64 = n := by
  unfold shSet; exact Finset.mem_filter.trans (and_iff_right (Finset.mem_univ _))

theorem shSets_disjoint : ∀ a ∈ (Finset.univ : Finset (Fin 16)), ∀ b ∈ (Finset.univ : Finset (Fin 16)), a ≠ b → Disjoint (shSet a.val) (shSet b.val) := by
  intro a _ b _ hab
  refine Finset.disjoint_left.mpr fun i ha hb => hab (Fin.ext ?_)
  rw [mem_shSet] at ha hb
  omega
theorem shSets_cover : (Finset.univ : Finset (Fin 16)).biUnion (fun n => shSet n.val) = Finset.univ := by
  ext i
  simp only [Finset.mem_biUnion, Finset.mem_univ, true_and, iff_true]
  have := rowS_lt i
  exact ⟨⟨rowS i / 64, by omega⟩, mem_shSet.mpr rfl⟩

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What subcore `n`'s arrival hands the subcore whose cell it signals: a read share of the rows `n` filled. -/
def bPay (g : GSem nD τ sig) (n : ℕ) : sProp 𝕄 :=
  match g with
  | ((d, .scVector c j), _) => shLoc d c ↦[shSet n]{Transfers.shareTokN fullShare j.val} Wsh m d c
  | _ => iprop(emp)

def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: one unit on every subcore's cell of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A subcore's barrier kit: every cell's invariant of its SparseCore and that each has reached round 0, its duty
    token in every cell's round 0, its own position, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KI

end
-- ==== Proof.KI.Sets.lean ====
/-
  A subcore's 25,600 output rows as forty rounds of five chunks of 128 rows, and the value each chunk receives:
  row (the subcore's base + 640 k + 128 s + r) of the output is the table's row named by index word
  (640 k + 128 s + r) of the subcore's own 25,600 words, which is word (base + 640 k + 128 s + r) of the flat indices.
-/
import proofs.«204301_g9028021256511_cont_9to1_m_920_22_alg».proof.Proof.KI.Cells

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

/-- The rows of subcore `L`: 25,600 consecutive ones. -/
def tileNo (L : grid0.Coords) : ℕ := 2 * (L 1).val + (L 0).val
def tileSet (L : grid0.Coords) : Finset S819200x128.Idx := Finset.univ.filter fun i => rowN i / 25600 = tileNo L
theorem mem_tileSet {L : grid0.Coords} {i : S819200x128.Idx} : i ∈ tileSet L ↔ rowN i / 25600 = tileNo L := by
  unfold tileSet; exact Finset.mem_filter.trans (and_iff_right (Finset.mem_univ _))

theorem L0_lt (L : grid0.Coords) : (L 0).val < 2 := (L 0).isLt
theorem L1_lt (L : grid0.Coords) : (L 1).val < 16 := (L 1).isLt

theorem chunks_disj (L : grid0.Coords) (k : ℕ) :
    ∀ s ∈ Finset.range 5, ∀ s' ∈ Finset.range 5, s ≠ s' → Disjoint (chunkSet L k s) (chunkSet L k s') := by
  intro s _ s' _ hss
  refine Finset.disjoint_left.mpr fun i h1 h2 => hss ?_
  rw [mem_chunkSet] at h1 h2
  unfold chunkNo at h1 h2
  omega

theorem rows_disj (L : grid0.Coords) :
    ∀ k ∈ Finset.range 40, ∀ k' ∈ Finset.range 40, k ≠ k' →
      Disjoint ((Finset.range 5).biUnion fun s => chunkSet L k s) ((Finset.range 5).biUnion fun s => chunkSet L k' s) := by
  intro k _ k' _ hkk
  refine Finset.disjoint_left.mpr fun i h1 h2 => hkk ?_
  obtain ⟨s, hs, h1⟩ := Finset.mem_biUnion.mp h1
  obtain ⟨s', hs', h2⟩ := Finset.mem_biUnion.mp h2
  rw [mem_chunkSet] at h1 h2
  rw [Finset.mem_range] at hs hs'
  unfold chunkNo at h1 h2
  omega

theorem tile_chunks (L : grid0.Coords) :
    tileSet L = (Finset.range 40).biUnion fun k => (Finset.range 5).biUnion fun s => chunkSet L k s := by
  ext i
  simp only [Finset.mem_biUnion, Finset.mem_range, mem_chunkSet, mem_tileSet]
  unfold chunkNo tileNo
  have h0 := L0_lt L
  have h1 := L1_lt L
  have hr := rowN_lt i
  constructor
  · intro h
    exact ⟨(rowN i % 25600) / 640, by omega, (rowN i % 640) / 128, by omega, by omega⟩
  · rintro ⟨k, hk, s, hs, h⟩
    omega

theorem tile_split (d : Dev nD) (L : grid0.Coords) (q : PosShare TreeShare) (f : Buf (Elt F) (oLoc d)) :
    (oLoc d ↦[tileSet L]{q} f : sProp 𝕄)
      = bigSep (Finset.range 40) fun k => bigSep (Finset.range 5) fun s => oLoc d ↦[chunkSet L k s]{q} f := by
  rw [tile_chunks]
  refine (pointsTo_biUnion (ℓ := oLoc d) (q := q) (f := f) (Finset.range 40) (fun k => (Finset.range 5).biUnion fun s => chunkSet L k s) (rows_disj L)).trans ?_
  refine bigSep_congr fun k _ => ?_
  exact pointsTo_biUnion (ℓ := oLoc d) (q := q) (f := f) (Finset.range 5) (fun s => chunkSet L k s) (chunks_disj L k)

/-- The subcore's own index words, as the program slices them out of the flat indices. -/
abbrev xRect (L : grid0.Coords) : Rect S819200 := Rect.unit (s := S819200) (k0_off2 L) S25600.size (k0_off2_inb L)
abbrev xSlice (L : grid0.Coords) : Memref sig .scVector .hbm S25600 .i32 := (xfV).slice (xRect L) (fun _ => rfl)
/-- What the index scratch holds after its fetch. -/
def fiT (X : S819200.Idx → BitVec 32) (L : grid0.Coords) : S25600.Idx → BitVec 32 := fun n => X ((xRect L).emb n)

/-- An output entry of chunk `(k, s)` is what the chunk's indexed copy brought. -/
theorem hG_closed (X : S819200.Idx → BitVec 32) (Wt : S1000x128.Idx → Elt F .f32) (L : grid0.Coords)
    (k : Fin k0_t1_loop.trips) (s : Fin 5) (x : S128x128.Idx) :
    Gflat X Wt ((oChunk L k s).view.emb x) = rowsVal (fiT X L) Wt k.val s.val x := by
  unfold Gflat rowsVal fiT
  have hk : k.val < 40 := trips_eq ▸ k.isLt
  have hs := s.isLt
  have hx0 : (x 0).val < 128 := (x 0).isLt
  have h0 := L0_lt L
  have h1 := L1_lt L
  have e1 : (ix1 (((oChunk L k s).view.emb x) 0) : S819200.Idx) = (xRect L).emb (idxAt k.val s.val (x 0).val) := by
    funext a
    obtain rfl : a = 0 := Subsingleton.elim _ _
    refine Fin.ext ?_
    show (k0_off9 L k (BitVec.ofNat 32 (128 * s.val))) 0 + 1 * (x 0).val = (k0_off2 L) 0 + 1 * ((640 * k.val + 128 * s.val + (x 0).val) % 25600)
    rw [k0_off9_eq, k0_off2_eq]
    show 51200 * (L 1).val + 25600 * (L 0).val + 640 * k.val + 128 * s.val + 1 * (x 0).val = 51200 * (L 1).val + 25600 * (L 0).val + 1 * ((640 * k.val + 128 * s.val + (x 0).val) % 25600)
    omega
  have e2 : ((oChunk L k s).view.emb x) 1 = x 1 := by
    refine Fin.ext ?_
    show (k0_off9 L k (BitVec.ofNat 32 (128 * s.val))) 1 + 1 * (x 1).val = (x 1).val
    rw [k0_off9_eq]
    show 0 + 1 * (x 1).val = (x 1).val
    omega
  rw [e1, e2]

end Cert.Proof.KI

end
-- ==== Proof.KI.Inv.lean ====
/-
  The invariant of a subcore's loop. Before trip n: the index scratch and the shared table's read shares
  as found; each slot free (first trip) or its previous write-back in flight; the chunks of the rounds before the
  previous one already at the expected output, those from round n on untouched.
-/
import proofs.«204301_g9028021256511_cont_9to1_m_920_22_alg».proof.Proof.KI.Deliver
import proofs.«204301_g9028021256511_cont_9to1_m_920_22_alg».proof.Proof.KI.Sets

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

/-- The five chunks of round `k`, all at `f`. -/
def rowAll (d : Dev nD) (L : grid0.Coords) (f : Buf (Elt F) (oLoc d)) (k : ℕ) : sProp 𝕄 :=
  bigSep (Finset.range 5) fun s => oLoc d ↦[chunkSet L k s]{fullShare} f

theorem rowAll_eq (d : Dev nD) (L : grid0.Coords) (f : Buf (Elt F) (oLoc d)) (k : ℕ) :
    rowAll d L f k = iprop((oLoc d ↦[chunkSet L k 0]{fullShare} f) ∗ (oLoc d ↦[chunkSet L k 1]{fullShare} f)
      ∗ (oLoc d ↦[chunkSet L k 2]{fullShare} f) ∗ (oLoc d ↦[chunkSet L k 3]{fullShare} f) ∗ (oLoc d ↦[chunkSet L k 4]{fullShare} f)) := by
  unfold rowAll
  rw [show Finset.range 5 = {0, 1, 2, 3, 4} by decide, SparseCore.bigSep_insert' (by decide), SparseCore.bigSep_insert' (by decide),
    SparseCore.bigSep_insert' (by decide), SparseCore.bigSep_insert' (by decide), bigSep_singleton]

theorem pts_chunk (d : Dev nD) (L : grid0.Coords) (k : Fin k0_t1_loop.trips) (s : Fin 5) (f : Buf (Elt F) (oLoc d)) :
    ((oChunk L k s).view.loc (thr d L) ↦[(oChunk L k s).view.set]{fullShare} f : sProp 𝕄) = oLoc d ↦[chunkSet L k.val s.val]{fullShare} f := by
  rw [oChunk_set]

/-- Slot 0 before trip `n`. -/
def slot0 (d : Dev nD) (L : grid0.Coords) (fi : S25600.Idx → BitVec 32) (fw : S1000x128.Idx → Elt F .f32) (Gd : Buf (Elt F) (oLoc d)) (n : ℕ) : sProp 𝕄 :=
  if n = 0 then iprop((∃ f, (r0V).view.loc (thr d L) ↦{fullShare} f) ∗ semVal (thr d L, SemLoc.dma cc0_scratch12.sem) 0)
  else Transfers.Flight (countersEmb (U := UU)) (thr d L) (SemLoc.dma cc0_scratch12.sem) (default : HIx 1) 524288
          iprop((oLoc d ↦[chunkSet L (n - 1) 0]{fullShare} Gd) ∗ ((r0V).view.loc (thr d L) ↦[(r0V).view.set]{fullShare} rowsVal fi fw (n - 1) 0))

/-- Slot 1 before trip `n`. -/
def slot1 (d : Dev nD) (L : grid0.Coords) (fi : S25600.Idx → BitVec 32) (fw : S1000x128.Idx → Elt F .f32) (Gd : Buf (Elt F) (oLoc d)) (n : ℕ) : sProp 𝕄 :=
  if n = 0 then iprop((∃ f, (r1V).view.loc (thr d L) ↦{fullShare} f) ∗ semVal (thr d L, SemLoc.dma cc0_scratch13.sem) 0)
  else Transfers.Flight (countersEmb (U := UU)) (thr d L) (SemLoc.dma cc0_scratch13.sem) (default : HIx 1) 524288
          iprop((oLoc d ↦[chunkSet L (n - 1) 1]{fullShare} Gd) ∗ ((r1V).view.loc (thr d L) ↦[(r1V).view.set]{fullShare} rowsVal fi fw (n - 1) 1))

/-- Slot 2 before trip `n`. -/
def slot2 (d : Dev nD) (L : grid0.Coords) (fi : S25600.Idx → BitVec 32) (fw : S1000x128.Idx → Elt F .f32) (Gd : Buf (Elt F) (oLoc d)) (n : ℕ) : sProp 𝕄 :=
  if n = 0 then iprop((∃ f, (r2V).view.loc (thr d L) ↦{fullShare} f) ∗ semVal (thr d L, SemLoc.dma cc0_scratch14.sem) 0)
  else Transfers.Flight (countersEmb (U := UU)) (thr d L) (SemLoc.dma cc0_scratch14.sem) (default : HIx 1) 524288
          iprop((oLoc d ↦[chunkSet L (n - 1) 2]{fullShare} Gd) ∗ ((r2V).view.loc (thr d L) ↦[(r2V).view.set]{fullShare} rowsVal fi fw (n - 1) 2))

/-- Slot 3 before trip `n`. -/
def slot3 (d : Dev nD) (L : grid0.Coords) (fi : S25600.Idx → BitVec 32) (fw : S1000x128.Idx → Elt F .f32) (Gd : Buf (Elt F) (oLoc d)) (n : ℕ) : sProp 𝕄 :=
  if n = 0 then iprop((∃ f, (r3V).view.loc (thr d L) ↦{fullShare} f) ∗ semVal (thr d L, SemLoc.dma cc0_scratch15.sem) 0)
  else Transfers.Flight (countersEmb (U := UU)) (thr d L) (SemLoc.dma cc0_scratch15.sem) (default : HIx 1) 524288
          iprop((oLoc d ↦[chunkSet L (n - 1) 3]{fullShare} Gd) ∗ ((r3V).view.loc (thr d L) ↦[(r3V).view.set]{fullShare} rowsVal fi fw (n - 1) 3))

/-- Slot 4 before trip `n`. -/
def slot4 (d : Dev nD) (L : grid0.Coords) (fi : S25600.Idx → BitVec 32) (fw : S1000x128.Idx → Elt F .f32) (Gd : Buf (Elt F) (oLoc d)) (n : ℕ) : sProp 𝕄 :=
  if n = 0 then iprop((∃ f, (r4V).view.loc (thr d L) ↦{fullShare} f) ∗ semVal (thr d L, SemLoc.dma cc0_scratch16.sem) 0)
  else Transfers.Flight (countersEmb (U := UU)) (thr d L) (SemLoc.dma cc0_scratch16.sem) (default : HIx 1) 524288
          iprop((oLoc d ↦[chunkSet L (n - 1) 4]{fullShare} Gd) ∗ ((r4V).view.loc (thr d L) ↦[(r4V).view.set]{fullShare} rowsVal fi fw (n - 1) 4))

def inv (d : Dev nD) (L : grid0.Coords) (O : CellTallies nD τ sig (HIx 1)) (W : Waits sig (HIx 1)) (q : PosShare TreeShare)
    (fi : S25600.Idx → BitVec 32) (fw : S1000x128.Idx → Elt F .f32) (g0 Gd : Buf (Elt F) (oLoc d)) (n : ℕ) (_ : Unit) : sProp 𝕄 :=
  iprop(Transfers.MayWaits (thr d L) (none : HIx 1) O
    ∗ ((idxV).view.loc (thr d L) ↦{fullShare} fi)
    ∗ ((shV).view.loc (thr d L) ↦{Transfers.shareTok q 5 0} fw)
    ∗ ((shV).view.loc (thr d L) ↦{Transfers.shareTok q 5 1} fw)
    ∗ ((shV).view.loc (thr d L) ↦{Transfers.shareTok q 5 2} fw)
    ∗ ((shV).view.loc (thr d L) ↦{Transfers.shareTok q 5 3} fw)
    ∗ ((shV).view.loc (thr d L) ↦{Transfers.shareTok q 5 4} fw)
    ∗ semVal (thr d L, SemLoc.dma cc0_scratch7.sem) 0
    ∗ semVal (thr d L, SemLoc.dma cc0_scratch8.sem) 0
    ∗ semVal (thr d L, SemLoc.dma cc0_scratch9.sem) 0
    ∗ semVal (thr d L, SemLoc.dma cc0_scratch10.sem) 0
    ∗ semVal (thr d L, SemLoc.dma cc0_scratch11.sem) 0
    ∗ slot0 d L fi fw Gd n
    ∗ slot1 d L fi fw Gd n
    ∗ slot2 d L fi fw Gd n
    ∗ slot3 d L fi fw Gd n
    ∗ slot4 d L fi fw Gd n
    ∗ bigSep (Finset.range (n - 1)) (rowAll d L Gd)
    ∗ bigSep (Finset.Ico n 40) (rowAll d L g0)
    ∗ ∃ W', ⌜∀ p ∈ W', p ∈ W ∨ p.2 = none ∨ p.2 = some (0 : Fin 1)⌝ ∗ owes (thr d L) O W')

end Cert.Proof.KI

end
-- ==== Proof.KI.Pay.lean ====
/-
  What the one call hands each subcore and takes back: a read share of the table and of the flat indices, its
  own 25,600 output rows (back at the expected output), and its own rows of the shared table (back as a read share
  of the whole shared table and the unshared remainder of its own rows, both at the table's contents).
-/
import proofs.«204301_g9028021256511_cont_9to1_m_920_22_alg».proof.Proof.KI.Inv

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

variable (m : (ℓ : Loc nD τ sig) → Buf (Elt F) ℓ) (X : Dev nD → S819200.Idx → BitVec 32)

/-- The expected flat output. -/
abbrev Gd (d : Dev nD) : Buf (Elt F) (oLoc d) := Gflat (X d) (Wd m d)

/-- Which of the thirty-two read shares subcore `L` holds. -/
def tokNo (L : grid0.Coords) : ℕ := (L 1).val + 16 * (L 0).val

/-- What the call hands subcore `L` besides its rows of the shared table, the output rows at `f`. -/
def mainPay (d : Dev nD) (L : grid0.Coords) (f : Buf (Elt F) (oLoc d)) : sProp 𝕄 :=
  iprop((wLoc d ↦{Transfers.shareTokN fullShare (tokNo L)} m (wLoc d))
    ∗ (xfLoc d ↦{Transfers.shareTokN fullShare (tokNo L)} X d)
    ∗ (oLoc d ↦[tileSet L]{fullShare} f))

def goPay (d : Dev nD) (L : grid0.Coords) : sProp 𝕄 :=
  iprop(mainPay m X d L (m (oLoc d)) ∗ ∃ f, shLoc d (cV L) ↦[shSet (L 1).val]{fullShare} f)

def tdPay (d : Dev nD) (L : grid0.Coords) : sProp 𝕄 :=
  iprop(mainPay m X d L (Gd m X d)
    ∗ (shLoc d (cV L) ↦{Transfers.shareTokN fullShare (L 1).val} Wsh m d (cV L))
    ∗ (shLoc d (cV L) ↦[shSet (L 1).val]{Transfers.shareDrop fullShare 16} Wsh m d (cV L)))

instance mainPay_storable (d : Dev nD) (L : grid0.Coords) (f : Buf (Elt F) (oLoc d)) : BI.Storable (upEmb : UEmb _ 𝕄) (mainPay m X d L f) := by
  unfold mainPay; infer_instance
instance goPay_storable (d : Dev nD) (L : grid0.Coords) : BI.Storable (upEmb : UEmb _ 𝕄) (goPay m X d L) := by
  unfold goPay; infer_instance
instance tdPay_storable (d : Dev nD) (L : grid0.Coords) : BI.Storable (upEmb : UEmb _ 𝕄) (tdPay m X d L) := by
  unfold tdPay; infer_instance

end Cert.Proof.KI

end
-- ==== Proof.KI.TileLemmas.lean ====
/-
  Lemmas for one subcore's task: the subcore's rows of the shared table as the program slices them, what its two
  fetches land, what the barrier brings, and the subcore's own scratch buffers and semaphores listed one by one.
-/
import proofs.«204301_g9028021256511_cont_9to1_m_920_22_alg».proof.Proof.KI.Pay

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

variable (m : (ℓ : Loc nD τ sig) → Buf (Elt F) ℓ) (X : Dev nD → S819200.Idx → BitVec 32)

theorem cond1_iff : ∀ L : grid0.Coords, k0_cond1 L = 1#1 ↔ (L 1).val < 15 := by decide +kernel
theorem cond2_iff : ∀ L : grid0.Coords,
    Scalar.cmpi .ne (Scalar.extui (Scalar.cmpi .eq (BitVec.ofNat 32 (L 1).val) 15#32)) 0#32 = 1#1 ↔ (L 1).val = 15 := by decide +kernel

section Tile

variable (d : Dev nD) (L : grid0.Coords)

/-- The subcore's own rows of the shared table and of the table, as the program slices them. -/
abbrev shRectLo (h : k0_cond1 L = 1#1) : Rect S1000x128 := Rect.unit (s := S1000x128) (k0_off1 L) S64x128.size (k0_off1_inb L h)
abbrev shRectHi : Rect S1000x128 := Rect.unit (s := S1000x128) ![960, 0] S40x128.size inb_S1000x128_S40x128_960_0
abbrev shSliceLo (h : k0_cond1 L = 1#1) : Memref sig .scVector .shared S64x128 .f32 := (shV).slice (shRectLo L h) (fun _ => rfl)
abbrev shSliceHi : Memref sig .scVector .shared S40x128 .f32 := (shV).slice shRectHi (fun _ => rfl)
abbrev wSliceLo (h : k0_cond1 L = 1#1) : Memref sig .scVector .hbm S64x128 .f32 := (wV).slice (shRectLo L h) (fun _ => rfl)
abbrev wSliceHi : Memref sig .scVector .hbm S40x128 .f32 := (wV).slice shRectHi (fun _ => rfl)

omit [FloatOps F] in
theorem shSliceLo_set (h : k0_cond1 L = 1#1) : (shSliceLo L h).view.set = shSet (L 1).val := by
  show ((View.whole (cc0_scratch1 : Ref sig .scVector)).slice (shRectLo L h)).set = _
  rw [View.set_slice_whole]
  ext i
  rw [Rect.mem_set_unit, k0_off1_eq, mem_shSet]
  have hj := (cond1_iff L).mp h
  have hr := rowS_lt i
  constructor
  · intro hh
    have h0 : 64 * (L 1).val ≤ rowS i ∧ rowS i < 64 * (L 1).val + 64 := hh (0 : Fin 2)
    omega
  · intro hh a
    match a with
    | ⟨0, _⟩ =>
      show 64 * (L 1).val ≤ rowS i ∧ rowS i < 64 * (L 1).val + 64
      omega
    | ⟨1, _⟩ =>
      have h1 : (i 1).val < 128 := (i 1).isLt
      show (0 : ℕ) ≤ (i 1).val ∧ (i 1).val < 0 + 128
      omega

omit [FloatOps F] in
theorem shSliceHi_set (hj : (L 1).val = 15) : (shSliceHi).view.set = shSet (L 1).val := by
  show ((View.whole (cc0_scratch1 : Ref sig .scVector)).slice shRectHi).set = _
  rw [View.set_slice_whole]
  ext i
  rw [Rect.mem_set_unit, mem_shSet, hj]
  have hr := rowS_lt i
  constructor
  · intro hh
    have h0 : 960 ≤ rowS i ∧ rowS i < 960 + 40 := hh (0 : Fin 2)
    omega
  · intro hh a
    match a with
    | ⟨0, _⟩ =>
      show 960 ≤ rowS i ∧ rowS i < 960 + 40
      omega
    | ⟨1, _⟩ =>
      have h1 : (i 1).val < 128 := (i 1).isLt
      show (0 : ℕ) ≤ (i 1).val ∧ (i 1).val < 0 + 128
      omega

/-- The rows a subcore filled hold the table's contents there. -/
theorem sh_landed_lo (h : k0_cond1 L = 1#1) (fsh : Buf (Elt F) (shLoc d (cV L))) :
    ((shSliceLo L h).view.loc (thr d L) ↦[(shSliceLo L h).view.set]{fullShare}
        (shSliceLo L h).view.writes (Elt F) fsh [⟨Rect.whole S64x128, ReadAs.same.apply ((wSliceLo L h).view.read (Elt F) (m (wLoc d)))⟩] : sProp 𝕄)
      = shLoc d (cV L) ↦[shSet (L 1).val]{fullShare} Wsh m d (cV L) := by
  rw [pointsTo_congr (landed_congr (shSliceLo L h).view fsh _ (Wsh m d (cV L)) (fun x => rfl)), shSliceLo_set]
  rfl

theorem sh_landed_hi (hj : (L 1).val = 15) (fsh : Buf (Elt F) (shLoc d (cV L))) :
    ((shSliceHi).view.loc (thr d L) ↦[(shSliceHi).view.set]{fullShare}
        (shSliceHi).view.writes (Elt F) fsh [⟨Rect.whole S40x128, ReadAs.same.apply ((wSliceHi).view.read (Elt F) (m (wLoc d)))⟩] : sProp 𝕄)
      = shLoc d (cV L) ↦[shSet (L 1).val]{fullShare} Wsh m d (cV L) := by
  rw [pointsTo_congr (landed_congr (shSliceHi).view fsh _ (Wsh m d (cV L)) (fun x => rfl)), shSliceHi_set L hj]
  rfl

/-- The index scratch after its fetch holds the subcore's own index words. -/
theorem idx_landed (fi0 : Buf (Elt F) ((idxV).view.loc (thr d L))) :
    ((idxV).view.loc (thr d L) ↦[(idxV).view.set]{fullShare}
        (idxV).view.writes (Elt F) fi0 [⟨Rect.whole cc0_scratch0.ty.shape, ReadAs.same.apply ((xSlice L).view.read (Elt F) (X d))⟩] : sProp 𝕄)
      = (idxV).view.loc (thr d L) ↦{fullShare} (fiT (X d) L : Buf (Elt F) ((idxV).view.loc (thr d L))) := by
  rw [pointsTo_congr (landed_congr (idxV).view fi0 _ (fiT (X d) L) (fun x => rfl))]
  simp only [Memref.view_whole, View.set_whole]

/-- Every index word the loop's copies read names a table row. -/
theorem hin_of (hX : ∀ n, (X d n).toNat < 1000) :
    ∀ (r : Rect S25600) (h : ∀ a, r.stride a = 1) x, ((((idxV).slice r h).view.read (Elt F) (fiT (X d) L)) x).toNat < 1000 :=
  fun r _ x => hX ((xRect L).emb (r.emb x))

/-- After the barrier: a read share of every subcore's rows is a read share of the whole shared table. -/
theorem pays_elim : (bigSep ((bRd (F := F) m).duties (bcell d (cV L) (jV L)) 0 \ ∅) fun n => (bRd (F := F) m).payload (bcell d (cV L) (jV L)) 0 n)
    ⊢ ((shV).view.loc (thr d L) ↦{Transfers.shareTokN fullShare (L 1).val} Wsh m d (cV L) : sProp 𝕄) := by
  rw [Finset.sdiff_empty, bRd_duties₀, SparseCore.bigSep_image_of_injOn (fun a _ b _ e => Fin.val_injective e)]
  show (bigSep (Finset.univ : Finset (Fin 16)) fun n => shLoc d (cV L) ↦[shSet n.val]{Transfers.shareTokN fullShare (L 1).val} Wsh m d (cV L)) ⊢ _
  rw [← pointsTo_biUnion (ℓ := shLoc d (cV L)) (q := Transfers.shareTokN fullShare (L 1).val) (f := Wsh m d (cV L)) Finset.univ (fun n : Fin 16 => shSet n.val) shSets_disjoint, shSets_cover]
  exact BI.Entails.refl _

theorem toks5_eq (q : PosShare TreeShare) (fw : Buf (Elt F) ((shV).view.loc (thr d L))) :
    (bigSep Finset.univ fun i : Fin 5 => ((shV).view.loc (thr d L) ↦{Transfers.shareTok q 5 i} fw : sProp 𝕄))
      = iprop(((shV).view.loc (thr d L) ↦{Transfers.shareTok q 5 0} fw) ∗ ((shV).view.loc (thr d L) ↦{Transfers.shareTok q 5 1} fw)
          ∗ ((shV).view.loc (thr d L) ↦{Transfers.shareTok q 5 2} fw) ∗ ((shV).view.loc (thr d L) ↦{Transfers.shareTok q 5 3} fw)
          ∗ ((shV).view.loc (thr d L) ↦{Transfers.shareTok q 5 4} fw)) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem rowAll_eq' (f : Buf (Elt F) (oLoc d)) (k : ℕ) :
    (bigSep (Finset.range 5) fun s => (oLoc d ↦[chunkSet L k s]{fullShare} f : sProp 𝕄))
      = iprop((oLoc d ↦[chunkSet L k 0]{fullShare} f) ∗ (oLoc d ↦[chunkSet L k 1]{fullShare} f)
      ∗ (oLoc d ↦[chunkSet L k 2]{fullShare} f) ∗ (oLoc d ↦[chunkSet L k 3]{fullShare} f) ∗ (oLoc d ↦[chunkSet L k 4]{fullShare} f)) :=
  rowAll_eq d L f k

/-- The invariant after the last trip: every slot's write-back of round 39 in flight, rounds 0 to 38 done. -/
theorem inv_end (O : CellTallies nD τ sig (HIx 1)) (W : Waits sig (HIx 1)) (q : PosShare TreeShare)
    (fi : S25600.Idx → BitVec 32) (fw : S1000x128.Idx → Elt F .f32) (g0 Gd' : Buf (Elt F) (oLoc d)) (acc : Unit) :
    inv d L O W q fi fw g0 Gd' k0_t1_loop.trips acc
      = iprop(Transfers.MayWaits (thr d L) (none : HIx 1) O
    ∗ ((idxV).view.loc (thr d L) ↦{fullShare} fi)
    ∗ ((shV).view.loc (thr d L) ↦{Transfers.shareTok q 5 0} fw)
    ∗ ((shV).view.loc (thr d L) ↦{Transfers.shareTok q 5 1} fw)
    ∗ ((shV).view.loc (thr d L) ↦{Transfers.shareTok q 5 2} fw)
    ∗ ((shV).view.loc (thr d L) ↦{Transfers.shareTok q 5 3} fw)
    ∗ ((shV).view.loc (thr d L) ↦{Transfers.shareTok q 5 4} fw)
    ∗ semVal (thr d L, SemLoc.dma cc0_scratch7.sem) 0
    ∗ semVal (thr d L, SemLoc.dma cc0_scratch8.sem) 0
    ∗ semVal (thr d L, SemLoc.dma cc0_scratch9.sem) 0
    ∗ semVal (thr d L, SemLoc.dma cc0_scratch10.sem) 0
    ∗ semVal (thr d L, SemLoc.dma cc0_scratch11.sem) 0
    ∗ Transfers.Flight (countersEmb (U := UU)) (thr d L) (SemLoc.dma cc0_scratch12.sem) (default : HIx 1) 524288
          iprop((oLoc d ↦[chunkSet L 39 0]{fullShare} Gd') ∗ ((r0V).view.loc (thr d L) ↦[(r0V).view.set]{fullShare} rowsVal fi fw 39 0))
    ∗ Transfers.Flight (countersEmb (U := UU)) (thr d L) (SemLoc.dma cc0_scratch13.sem) (default : HIx 1) 524288
          iprop((oLoc d ↦[chunkSet L 39 1]{fullShare} Gd') ∗ ((r1V).view.loc (thr d L) ↦[(r1V).view.set]{fullShare} rowsVal fi fw 39 1))
    ∗ Transfers.Flight (countersEmb (U := UU)) (thr d L) (SemLoc.dma cc0_scratch14.sem) (default : HIx 1) 524288
          iprop((oLoc d ↦[chunkSet L 39 2]{fullShare} Gd') ∗ ((r2V).view.loc (thr d L) ↦[(r2V).view.set]{fullShare} rowsVal fi fw 39 2))
    ∗ Transfers.Flight (countersEmb (U := UU)) (thr d L) (SemLoc.dma cc0_scratch15.sem) (default : HIx 1) 524288
          iprop((oLoc d ↦[chunkSet L 39 3]{fullShare} Gd') ∗ ((r3V).view.loc (thr d L) ↦[(r3V).view.set]{fullShare} rowsVal fi fw 39 3))
    ∗ Transfers.Flight (countersEmb (U := UU)) (thr d L) (SemLoc.dma cc0_scratch16.sem) (default : HIx 1) 524288
          iprop((oLoc d ↦[chunkSet L 39 4]{fullShare} Gd') ∗ ((r4V).view.loc (thr d L) ↦[(r4V).view.set]{fullShare} rowsVal fi fw 39 4))
    ∗ bigSep (Finset.range 39) (fun k => bigSep (Finset.range 5) fun s => oLoc d ↦[chunkSet L k s]{fullShare} Gd')
    ∗ bigSep (Finset.Ico 40 40) (rowAll d L g0)
    ∗ ∃ W', ⌜∀ p ∈ W', p ∈ W ∨ p.2 = none ∨ p.2 = some (0 : Fin 1)⌝ ∗ owes (thr d L) O W') := by
  rw [trips_eq]
  unfold inv
  simp only [slot0, slot1, slot2, slot3, slot4, show (40 : ℕ) ≠ 0 by decide, if_false, show (40 : ℕ) - 1 = 39 from rfl]
  rfl

theorem waits_ok {W W3 : Waits sig (HIx 1)} {a b c d' e : SemLoc sig}
    (h : ∀ p ∈ W3, p ∈ insert (SemLoc.reg sc_bar0, some (0 : Fin 1)) W ∨ p.2 = none) : True := trivial

omit [FloatOps F] in
theorem ownSems0_V :
    (ownSems0 (thr d L) : sProp 𝕄)
      = iprop(semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ semVal (thr d L, SemLoc.dma cc0_scratch16.sem) 0
          ∗ semVal (thr d L, SemLoc.dma cc0_scoped0.sem) 0
          ∗ semVal (thr d L, SemLoc.dma cc0_scoped1.sem) 0
          ∗ semVal (thr d L, SemLoc.dma cc0_scoped2.sem) 0
          ∗ bigSep ((((((((((((((ownCells (thr d L)).erase (thr d L, SemLoc.dma cc0_scratch7.sem)).erase (thr d L, SemLoc.dma cc0_scratch8.sem)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scratch15.sem)).erase (thr d L, SemLoc.dma cc0_scratch16.sem)).erase (thr d L, SemLoc.dma cc0_scoped0.sem)).erase (thr d L, SemLoc.dma cc0_scoped1.sem)).erase (thr d L, SemLoc.dma cc0_scoped2.sem)) fun g => semVal g 0) := by
  unfold SparseCore.Cfg.ownSems0
  rw [SparseCore.bigSep_erase' ((mem_ownCells (g := (thr d L, SemLoc.dma cc0_scratch7.sem))).mpr ⟨rfl, by show (SemLoc.dma cc0_scratch7.sem : SemLoc sig).isScoped .scVector = true; decide⟩),
    SparseCore.bigSep_erase' (Finset.mem_erase.mpr ⟨fun e => absurd (Prod.mk.inj e).2 (by decide), (mem_ownCells (g := (thr d L, SemLoc.dma cc0_scratch8.sem))).mpr ⟨rfl, by show (SemLoc.dma cc0_scratch8.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (thr d L, SemLoc.dma cc0_scratch9.sem))).mpr ⟨rfl, by show (SemLoc.dma cc0_scratch9.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch10.sem))).mpr ⟨rfl, by show (SemLoc.dma cc0_scratch10.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch11.sem))).mpr ⟨rfl, by show (SemLoc.dma cc0_scratch11.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch12.sem))).mpr ⟨rfl, by show (SemLoc.dma cc0_scratch12.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch13.sem))).mpr ⟨rfl, by show (SemLoc.dma cc0_scratch13.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch14.sem))).mpr ⟨rfl, by show (SemLoc.dma cc0_scratch14.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch15.sem))).mpr ⟨rfl, by show (SemLoc.dma cc0_scratch15.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch16.sem))).mpr ⟨rfl, by show (SemLoc.dma cc0_scratch16.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scoped0.sem))).mpr ⟨rfl, by show (SemLoc.dma cc0_scoped0.sem : SemLoc sig).isScoped .scVector = true; decide⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scoped1.sem))).mpr ⟨rfl, by show (SemLoc.dma cc0_scoped1.sem : SemLoc sig).isScoped .scVector = true; decide⟩⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scoped2.sem))).mpr ⟨rfl, by show (SemLoc.dma cc0_scoped2.sem : SemLoc sig).isScoped .scVector = true; decide⟩⟩⟩⟩⟩⟩⟩⟩⟩⟩⟩⟩⟩)]

omit [FloatOps F] in
theorem ownBufs_V :
    (ownBufs (thr d L) : sProp 𝕄)
      = iprop((∃ f, (thr d L).loc cc0_scratch0 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ bigSep (((((((ownRefs (τ := τ) (.scVector (cV L) (jV L))).erase ((Proc.scVector (cV L) (jV L)).devRef cc0_scratch0)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  rw [SparseCore.bigSep_erase' (SparseCore.Cfg.mem_ownRefs_of_owner (p := (Proc.scVector (cV L) (jV L))) (b := (Proc.scVector (cV L) (jV L)).devRef cc0_scratch0) rfl),
    SparseCore.bigSep_erase' (Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch0 by decide), SparseCore.Cfg.mem_ownRefs_of_owner (p := (Proc.scVector (cV L) (jV L))) (b := (Proc.scVector (cV L) (jV L)).devRef cc0_scratch6) rfl⟩⟩⟩⟩⟩)]

end Tile

end Cert.Proof.KI

end
-- ==== Proof.KI.Trip.lean ====
/-
  One trip of a subcore's loop. Five slots; in each, the wait for the slot's write-back of the previous trip (none
  at the first trip), the indexed copy of the chunk's 128 table rows into the slot's row scratch, its wait, and the
  write-back of the row scratch to the chunk's output rows, left in flight for the next trip.
-/
import proofs.«204301_g9028021256511_cont_9to1_m_920_22_alg».proof.Proof.KI.Deliver

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

theorem cond3_iff : ∀ k : Fin k0_t1_loop.trips, k0_cond3 k = 1#1 ↔ 0 < k.val := by decide +kernel
theorem cond4_iff : ∀ k : Fin k0_t1_loop.trips, k0_cond4 k = 1#1 ↔ 0 < k.val := by decide +kernel
theorem cond5_iff : ∀ k : Fin k0_t1_loop.trips, k0_cond5 k = 1#1 ↔ 0 < k.val := by decide +kernel
theorem cond6_iff : ∀ k : Fin k0_t1_loop.trips, k0_cond6 k = 1#1 ↔ 0 < k.val := by decide +kernel
theorem cond7_iff : ∀ k : Fin k0_t1_loop.trips, k0_cond7 k = 1#1 ↔ 0 < k.val := by decide +kernel

theorem ins_ok {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

set_option maxHeartbeats 8000000 in
theorem trip_first (d : Dev nD) (L : grid0.Coords) (k : Fin k0_t1_loop.trips) (hk : k.val = 0)
    (O : CellTallies nD τ sig (HIx 1)) (W : Waits sig (HIx 1)) (q : PosShare TreeShare)
    (fi : Buf (Elt F) ((idxV).view.loc (thr d L))) (fw : Buf (Elt F) ((shV).view.loc (thr d L)))
    (hin : ∀ (r : Rect S25600) (h : ∀ a, r.stride a = 1) x, ((((idxV).slice r h).view.read (Elt F) fi) x).toNat < 1000)
    (f0 f1 f2 f3 f4 : Buf (Elt F) ((r0V).view.loc (thr d L)))
    (g0 Gd : Buf (Elt F) (oLoc d))
    (hG : ∀ (s : Fin 5) x, Gd ((oChunk L k s).view.emb x) = rowsVal fi fw k.val s.val x) (v2 : BitVec 32) :
    (iprop(Transfers.MayWaits (thr d L) (none : HIx 1) O
        ∗ ((idxV).view.loc (thr d L) ↦{fullShare} fi)
        ∗ ((shV).view.loc (thr d L) ↦{Transfers.shareTok q 5 0} fw)
        ∗ ((shV).view.loc (thr d L) ↦{Transfers.shareTok q 5 1} fw)
        ∗ ((shV).view.loc (thr d L) ↦{Transfers.shareTok q 5 2} fw)
        ∗ ((shV).view.loc (thr d L) ↦{Transfers.shareTok q 5 3} fw)
        ∗ ((shV).view.loc (thr d L) ↦{Transfers.shareTok q 5 4} fw)
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ ((r0V).view.loc (thr d L) ↦{fullShare} f0) ∗ semVal (thr d L, SemLoc.dma cc0_scratch12.sem) 0
        ∗ ((r1V).view.loc (thr d L) ↦{fullShare} f1) ∗ semVal (thr d L, SemLoc.dma cc0_scratch13.sem) 0
        ∗ ((r2V).view.loc (thr d L) ↦{fullShare} f2) ∗ semVal (thr d L, SemLoc.dma cc0_scratch14.sem) 0
        ∗ ((r3V).view.loc (thr d L) ↦{fullShare} f3) ∗ semVal (thr d L, SemLoc.dma cc0_scratch15.sem) 0
        ∗ ((r4V).view.loc (thr d L) ↦{fullShare} f4) ∗ semVal (thr d L, SemLoc.dma cc0_scratch16.sem) 0
        ∗ ((oChunk L k 0).view.loc (thr d L) ↦[(oChunk L k 0).view.set]{fullShare} g0)
        ∗ ((oChunk L k 1).view.loc (thr d L) ↦[(oChunk L k 1).view.set]{fullShare} g0)
        ∗ ((oChunk L k 2).view.loc (thr d L) ↦[(oChunk L k 2).view.set]{fullShare} g0)
        ∗ ((oChunk L k 3).view.loc (thr d L) ↦[(oChunk L k 3).view.set]{fullShare} g0)
        ∗ ((oChunk L k 4).view.loc (thr d L) ↦[(oChunk L k 4).view.set]{fullShare} g0)
        ∗ owes (thr d L) O W) : sProp 𝕄)
      ⊢ wp frame (wpE (defs₀ (F := F)) 𝒱₀ (thr d L) none) Set.univ
          (k0_t1_body L xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2 v2 k ())
          (fun _ => iprop(((idxV).view.loc (thr d L) ↦{fullShare} fi)
        ∗ ((shV).view.loc (thr d L) ↦{Transfers.shareTok q 5 0} fw)
        ∗ ((shV).view.loc (thr d L) ↦{Transfers.shareTok q 5 1} fw)
        ∗ ((shV).view.loc (thr d L) ↦{Transfers.shareTok q 5 2} fw)
        ∗ ((shV).view.loc (thr d L) ↦{Transfers.shareTok q 5 3} fw)
        ∗ ((shV).view.loc (thr d L) ↦{Transfers.shareTok q 5 4} fw)
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ Transfers.Flight (countersEmb (U := UU)) (thr d L) (SemLoc.dma cc0_scratch12.sem) (default : HIx 1) 524288
          iprop((oLoc d ↦[chunkSet L k.val 0]{fullShare} Gd) ∗ ((r0V).view.loc (thr d L) ↦[(r0V).view.set]{fullShare} rowsVal fi fw k.val 0))
        ∗ Transfers.Flight (countersEmb (U := UU)) (thr d L) (SemLoc.dma cc0_scratch13.sem) (default : HIx 1) 524288
          iprop((oLoc d ↦[chunkSet L k.val 1]{fullShare} Gd) ∗ ((r1V).view.loc (thr d L) ↦[(r1V).view.set]{fullShare} rowsVal fi fw k.val 1))
        ∗ Transfers.Flight (countersEmb (U := UU)) (thr d L) (SemLoc.dma cc0_scratch14.sem) (default : HIx 1) 524288
          iprop((oLoc d ↦[chunkSet L k.val 2]{fullShare} Gd) ∗ ((r2V).view.loc (thr d L) ↦[(r2V).view.set]{fullShare} rowsVal fi fw k.val 2))
        ∗ Transfers.Flight (countersEmb (U := UU)) (thr d L) (SemLoc.dma cc0_scratch15.sem) (default : HIx 1) 524288
          iprop((oLoc d ↦[chunkSet L k.val 3]{fullShare} Gd) ∗ ((r3V).view.loc (thr d L) ↦[(r3V).view.set]{fullShare} rowsVal fi fw k.val 3))
        ∗ Transfers.Flight (countersEmb (U := UU)) (thr d L) (SemLoc.dma cc0_scratch16.sem) (default : HIx 1) 524288
          iprop((oLoc d ↦[chunkSet L k.val 4]{fullShare} Gd) ∗ ((r4V).view.loc (thr d L) ↦[(r4V).view.set]{fullShare} rowsVal fi fw k.val 4))
        ∗ ∃ W', ⌜∀ p ∈ W', p ∈ W ∨ p.2 = none⌝ ∗ owes (thr d L) O W')) := by
  have k0_h3 : ¬ k0_cond3 k = 1#1 := fun h => absurd ((cond3_iff k).mp h) (by omega)
  have k0_h4 : ¬ k0_cond4 k = 1#1 := fun h => absurd ((cond4_iff k).mp h) (by omega)
  have k0_h5 : ¬ k0_cond5 k = 1#1 := fun h => absurd ((cond5_iff k).mp h) (by omega)
  have k0_h6 : ¬ k0_cond6 k = 1#1 := fun h => absurd ((cond6_iff k).mp h) (by omega)
  have k0_h7 : ¬ k0_cond7 k = 1#1 := fun h => absurd ((cond7_iff k).mp h) (by omega)
  iintro ⟨#Hmw, Hi, Hw0, Hw1, Hw2, Hw3, Hw4, Hg0, Hg1, Hg2, Hg3, Hg4, Hr0, Hs0, Hr1, Hs1, Hr2, Hs2, Hr3, Hs3, Hr4, Hs4, Ho0, Ho1, Ho2, Ho3, Ho4, HO⟩
  unfold k0_t1_body
  sl_exec
  sl_step
  ihave Hs0' := (Transfers.Flight_mono countersEmb (thr d L) (deliver0 d L k fi fw g0 f0 Gd (trip_first.sl.gather0 d L k fi fw hin) (trip_first.sl.dma0 d L k fi fw hin f0) (gather_closed k 0 fi fw _ _) rfl (hG 0))) $$ Hs0
  ihave Hs1' := (Transfers.Flight_mono countersEmb (thr d L) (deliver1 d L k fi fw g0 f1 Gd (trip_first.sl.gather1 d L k fi fw hin) (trip_first.sl.dma0_1 d L k fi fw hin f1) (gather_closed k 1 fi fw _ _) rfl (hG 1))) $$ Hs1
  ihave Hs2' := (Transfers.Flight_mono countersEmb (thr d L) (deliver2 d L k fi fw g0 f2 Gd (trip_first.sl.gather2 d L k fi fw hin) (trip_first.sl.dma0_2 d L k fi fw hin f2) (gather_closed k 2 fi fw _ _) rfl (hG 2))) $$ Hs2
  ihave Hs3' := (Transfers.Flight_mono countersEmb (thr d L) (deliver3 d L k fi fw g0 f3 Gd (trip_first.sl.gather3 d L k fi fw hin) (trip_first.sl.dma0_3 d L k fi fw hin f3) (gather_closed k 3 fi fw _ _) rfl (hG 3))) $$ Hs3
  ihave Hs4' := (Transfers.Flight_mono countersEmb (thr d L) (deliver4 d L k fi fw g0 f4 Gd (trip_first.sl.gather4 d L k fi fw hin) (trip_first.sl.dma0_4 d L k fi fw hin f4) (gather_closed k 4 fi fw _ _) rfl (hG 4))) $$ Hs4
  isplitl [Hi]; · iexact Hi
  isplitl [Hw0]; · iexact Hw0
  isplitl [Hw1]; · iexact Hw1
  isplitl [Hw2]; · iexact Hw2
  isplitl [Hw3]; · iexact Hw3
  isplitl [Hw4]; · iexact Hw4
  isplitl [Hg0]; · iexact Hg0
  isplitl [Hg1]; · iexact Hg1
  isplitl [Hg2]; · iexact Hg2
  isplitl [Hg3]; · iexact Hg3
  isplitl [Hg4]; · iexact Hg4
  isplitl [Hs0']; · iexact Hs0'
  isplitl [Hs1']; · iexact Hs1'
  isplitl [Hs2']; · iexact Hs2'
  isplitl [Hs3']; · iexact Hs3'
  isplitl [Hs4']; · iexact Hs4'
  iexists _; isplitr
  swap; · iexact HO
  ipureintro
  repeat (refine ins_ok ?_)
  exact fun p hp => .inl hp

set_option maxHeartbeats 8000000 in
theorem trip_next (d : Dev nD) (L : grid0.Coords) (k : Fin k0_t1_loop.trips) (hk : 0 < k.val) (kp : ℕ)
    (O : CellTallies nD τ sig (HIx 1)) (W : Waits sig (HIx 1)) (q : PosShare TreeShare)
    (fi : Buf (Elt F) ((idxV).view.loc (thr d L))) (fw : Buf (Elt F) ((shV).view.loc (thr d L)))
    (hin : ∀ (r : Rect S25600) (h : ∀ a, r.stride a = 1) x, ((((idxV).slice r h).view.read (Elt F) fi) x).toNat < 1000)
    (g0 Gd : Buf (Elt F) (oLoc d))
    (hG : ∀ (s : Fin 5) x, Gd ((oChunk L k s).view.emb x) = rowsVal fi fw k.val s.val x) (v2 : BitVec 32) :
    (iprop(Transfers.MayWaits (thr d L) (none : HIx 1) O
        ∗ ((idxV).view.loc (thr d L) ↦{fullShare} fi)
        ∗ ((shV).view.loc (thr d L) ↦{Transfers.shareTok q 5 0} fw)
        ∗ ((shV).view.loc (thr d L) ↦{Transfers.shareTok q 5 1} fw)
        ∗ ((shV).view.loc (thr d L) ↦{Transfers.shareTok q 5 2} fw)
        ∗ ((shV).view.loc (thr d L) ↦{Transfers.shareTok q 5 3} fw)
        ∗ ((shV).view.loc (thr d L) ↦{Transfers.shareTok q 5 4} fw)
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ Transfers.Flight (countersEmb (U := UU)) (thr d L) (SemLoc.dma cc0_scratch12.sem) (default : HIx 1) 524288
          iprop((oLoc d ↦[chunkSet L kp 0]{fullShare} Gd) ∗ ((r0V).view.loc (thr d L) ↦[(r0V).view.set]{fullShare} rowsVal fi fw kp 0))
        ∗ Transfers.Flight (countersEmb (U := UU)) (thr d L) (SemLoc.dma cc0_scratch13.sem) (default : HIx 1) 524288
          iprop((oLoc d ↦[chunkSet L kp 1]{fullShare} Gd) ∗ ((r1V).view.loc (thr d L) ↦[(r1V).view.set]{fullShare} rowsVal fi fw kp 1))
        ∗ Transfers.Flight (countersEmb (U := UU)) (thr d L) (SemLoc.dma cc0_scratch14.sem) (default : HIx 1) 524288
          iprop((oLoc d ↦[chunkSet L kp 2]{fullShare} Gd) ∗ ((r2V).view.loc (thr d L) ↦[(r2V).view.set]{fullShare} rowsVal fi fw kp 2))
        ∗ Transfers.Flight (countersEmb (U := UU)) (thr d L) (SemLoc.dma cc0_scratch15.sem) (default : HIx 1) 524288
          iprop((oLoc d ↦[chunkSet L kp 3]{fullShare} Gd) ∗ ((r3V).view.loc (thr d L) ↦[(r3V).view.set]{fullShare} rowsVal fi fw kp 3))
        ∗ Transfers.Flight (countersEmb (U := UU)) (thr d L) (SemLoc.dma cc0_scratch16.sem) (default : HIx 1) 524288
          iprop((oLoc d ↦[chunkSet L kp 4]{fullShare} Gd) ∗ ((r4V).view.loc (thr d L) ↦[(r4V).view.set]{fullShare} rowsVal fi fw kp 4))
        ∗ ((oChunk L k 0).view.loc (thr d L) ↦[(oChunk L k 0).view.set]{fullShare} g0)
        ∗ ((oChunk L k 1).view.loc (thr d L) ↦[(oChunk L k 1).view.set]{fullShare} g0)
        ∗ ((oChunk L k 2).view.loc (thr d L) ↦[(oChunk L k 2).view.set]{fullShare} g0)
        ∗ ((oChunk L k 3).view.loc (thr d L) ↦[(oChunk L k 3).view.set]{fullShare} g0)
        ∗ ((oChunk L k 4).view.loc (thr d L) ↦[(oChunk L k 4).view.set]{fullShare} g0)
        ∗ owes (thr d L) O W) : sProp 𝕄)
      ⊢ wp frame (wpE (defs₀ (F := F)) 𝒱₀ (thr d L) none) Set.univ
          (k0_t1_body L xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2 v2 k ())
          (fun _ => iprop(((idxV).view.loc (thr d L) ↦{fullShare} fi)
        ∗ ((shV).view.loc (thr d L) ↦{Transfers.shareTok q 5 0} fw)
        ∗ ((shV).view.loc (thr d L) ↦{Transfers.shareTok q 5 1} fw)
        ∗ ((shV).view.loc (thr d L) ↦{Transfers.shareTok q 5 2} fw)
        ∗ ((shV).view.loc (thr d L) ↦{Transfers.shareTok q 5 3} fw)
        ∗ ((shV).view.loc (thr d L) ↦{Transfers.shareTok q 5 4} fw)
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ Transfers.Flight (countersEmb (U := UU)) (thr d L) (SemLoc.dma cc0_scratch12.sem) (default : HIx 1) 524288
          iprop((oLoc d ↦[chunkSet L k.val 0]{fullShare} Gd) ∗ ((r0V).view.loc (thr d L) ↦[(r0V).view.set]{fullShare} rowsVal fi fw k.val 0))
        ∗ Transfers.Flight (countersEmb (U := UU)) (thr d L) (SemLoc.dma cc0_scratch13.sem) (default : HIx 1) 524288
          iprop((oLoc d ↦[chunkSet L k.val 1]{fullShare} Gd) ∗ ((r1V).view.loc (thr d L) ↦[(r1V).view.set]{fullShare} rowsVal fi fw k.val 1))
        ∗ Transfers.Flight (countersEmb (U := UU)) (thr d L) (SemLoc.dma cc0_scratch14.sem) (default : HIx 1) 524288
          iprop((oLoc d ↦[chunkSet L k.val 2]{fullShare} Gd) ∗ ((r2V).view.loc (thr d L) ↦[(r2V).view.set]{fullShare} rowsVal fi fw k.val 2))
        ∗ Transfers.Flight (countersEmb (U := UU)) (thr d L) (SemLoc.dma cc0_scratch15.sem) (default : HIx 1) 524288
          iprop((oLoc d ↦[chunkSet L k.val 3]{fullShare} Gd) ∗ ((r3V).view.loc (thr d L) ↦[(r3V).view.set]{fullShare} rowsVal fi fw k.val 3))
        ∗ Transfers.Flight (countersEmb (U := UU)) (thr d L) (SemLoc.dma cc0_scratch16.sem) (default : HIx 1) 524288
          iprop((oLoc d ↦[chunkSet L k.val 4]{fullShare} Gd) ∗ ((r4V).view.loc (thr d L) ↦[(r4V).view.set]{fullShare} rowsVal fi fw k.val 4))
        ∗ (oLoc d ↦[chunkSet L kp 0]{fullShare} Gd)
        ∗ (oLoc d ↦[chunkSet L kp 1]{fullShare} Gd)
        ∗ (oLoc d ↦[chunkSet L kp 2]{fullShare} Gd)
        ∗ (oLoc d ↦[chunkSet L kp 3]{fullShare} Gd)
        ∗ (oLoc d ↦[chunkSet L kp 4]{fullShare} Gd)
        ∗ ∃ W', ⌜∀ p ∈ W', p ∈ W ∨ p.2 = none⌝ ∗ owes (thr d L) O W')) := by
  have k0_h3 : k0_cond3 k = 1#1 := (cond3_iff k).mpr hk
  have k0_h4 : k0_cond4 k = 1#1 := (cond4_iff k).mpr hk
  have k0_h5 : k0_cond5 k = 1#1 := (cond5_iff k).mpr hk
  have k0_h6 : k0_cond6 k = 1#1 := (cond6_iff k).mpr hk
  have k0_h7 : k0_cond7 k = 1#1 := (cond7_iff k).mpr hk
  iintro ⟨#Hmw, Hi, Hw0, Hw1, Hw2, Hw3, Hw4, Hg0, Hg1, Hg2, Hg3, Hg4, Hs0, Hs1, Hs2, Hs3, Hs4, Ho0, Ho1, Ho2, Ho3, Ho4, HO⟩
  unfold k0_t1_body
  sl_exec
  sl_step
  ihave Hs0' := (Transfers.Flight_mono countersEmb (thr d L) (deliver0 d L k fi fw g0 (rowsVal fi fw kp 0) Gd (trip_next.sl.gather0 d L k fi fw hin) (trip_next.sl.dma0 d L k kp fi fw hin) (gather_closed k 0 fi fw _ _) rfl (hG 0))) $$ Hs0
  ihave Hs1' := (Transfers.Flight_mono countersEmb (thr d L) (deliver1 d L k fi fw g0 (rowsVal fi fw kp 1) Gd (trip_next.sl.gather1 d L k fi fw hin) (trip_next.sl.dma0_1 d L k kp fi fw hin) (gather_closed k 1 fi fw _ _) rfl (hG 1))) $$ Hs1
  ihave Hs2' := (Transfers.Flight_mono countersEmb (thr d L) (deliver2 d L k fi fw g0 (rowsVal fi fw kp 2) Gd (trip_next.sl.gather2 d L k fi fw hin) (trip_next.sl.dma0_2 d L k kp fi fw hin) (gather_closed k 2 fi fw _ _) rfl (hG 2))) $$ Hs2
  ihave Hs3' := (Transfers.Flight_mono countersEmb (thr d L) (deliver3 d L k fi fw g0 (rowsVal fi fw kp 3) Gd (trip_next.sl.gather3 d L k fi fw hin) (trip_next.sl.dma0_3 d L k kp fi fw hin) (gather_closed k 3 fi fw _ _) rfl (hG 3))) $$ Hs3
  ihave Hs4' := (Transfers.Flight_mono countersEmb (thr d L) (deliver4 d L k fi fw g0 (rowsVal fi fw kp 4) Gd (trip_next.sl.gather4 d L k fi fw hin) (trip_next.sl.dma0_4 d L k kp fi fw hin) (gather_closed k 4 fi fw _ _) rfl (hG 4))) $$ Hs4
  isplitl [Hi]; · iexact Hi
  isplitl [Hw0]; · iexact Hw0
  isplitl [Hw1]; · iexact Hw1
  isplitl [Hw2]; · iexact Hw2
  isplitl [Hw3]; · iexact Hw3
  isplitl [Hw4]; · iexact Hw4
  isplitl [Hg0]; · iexact Hg0
  isplitl [Hg1]; · iexact Hg1
  isplitl [Hg2]; · iexact Hg2
  isplitl [Hg3]; · iexact Hg3
  isplitl [Hg4]; · iexact Hg4
  isplitl [Hs0']; · iexact Hs0'
  isplitl [Hs1']; · iexact Hs1'
  isplitl [Hs2']; · iexact Hs2'
  isplitl [Hs3']; · iexact Hs3'
  isplitl [Hs4']; · iexact Hs4'
  isplitl [Hs0_dst]; · iexact Hs0_dst
  isplitl [Hs1_dst]; · iexact Hs1_dst
  isplitl [Hs2_dst]; · iexact Hs2_dst
  isplitl [Hs3_dst]; · iexact Hs3_dst
  isplitl [Hs4_dst]; · iexact Hs4_dst
  iexists _; isplitr
  swap; · iexact HO
  ipureintro
  repeat (refine ins_ok ?_)
  exact fun p hp => .inl hp

end Cert.Proof.KI

end
-- ==== Proof.KI.Loop.lean ====
/-
  A subcore's whole loop by its invariant. Before trip n: the index scratch and the shared table's read shares
  as found; each slot free (first trip) or its previous write-back in flight; the chunks of the rounds before the
  previous one already at the expected output, those from round n on untouched.
-/
import proofs.«204301_g9028021256511_cont_9to1_m_920_22_alg».proof.Proof.KI.Trip
import proofs.«204301_g9028021256511_cont_9to1_m_920_22_alg».proof.Proof.KI.Inv

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

set_option maxHeartbeats 4000000 in
/-- One trip carries the invariant from `k` to `k + 1`. -/
theorem inv_step (d : Dev nD) (L : grid0.Coords) (O : CellTallies nD τ sig (HIx 1)) (W : Waits sig (HIx 1)) (q : PosShare TreeShare)
    (fi : S25600.Idx → BitVec 32) (fw : S1000x128.Idx → Elt F .f32)
    (hin : ∀ (r : Rect S25600) (h : ∀ a, r.stride a = 1) x, ((((idxV).slice r h).view.read (Elt F) fi) x).toNat < 1000)
    (g0 Gd : Buf (Elt F) (oLoc d))
    (hG : ∀ (k : Fin k0_t1_loop.trips) (s : Fin 5) x, Gd ((oChunk L k s).view.emb x) = rowsVal fi fw k.val s.val x) (v2 : BitVec 32)
    (k : Fin k0_t1_loop.trips) (acc : Unit) :
    inv d L O W q fi fw g0 Gd k.val acc
      ⊢ wp frame (wpE (defs₀ (F := F)) 𝒱₀ (thr d L) none) Set.univ
          (k0_t1_body L xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2 v2 k acc)
          (inv d L O W q fi fw g0 Gd (k.val + 1)) := by
  have hk40 : k.val < 40 := trips_eq ▸ k.isLt
  have hIco : Finset.Ico k.val 40 = insert k.val (Finset.Ico (k.val + 1) 40) := by
    ext x; simp only [Finset.mem_Ico, Finset.mem_insert]; omega
  unfold inv
  rw [hIco, SparseCore.bigSep_insert' (by simp), rowAll_eq d L g0 k.val]
  by_cases hk : k.val = 0
  · -- the first trip: the slots are free
    simp only [slot0, slot1, slot2, slot3, slot4, hk, if_pos, Nat.zero_add, Nat.one_ne_zero, if_false, Nat.sub_self, Nat.zero_sub, Finset.range_zero, bigSep_empty]
    iintro ⟨#Hmw, Hi, Hw0, Hw1, Hw2, Hw3, Hw4, Hg0, Hg1, Hg2, Hg3, Hg4, ⟨⟨%f0, Hr0⟩, Hs0⟩, ⟨⟨%f1, Hr1⟩, Hs1⟩, ⟨⟨%f2, Hr2⟩, Hs2⟩, ⟨⟨%f3, Hr3⟩, Hs3⟩, ⟨⟨%f4, Hr4⟩, Hs4⟩, -, ⟨⟨Ho0, Ho1, Ho2, Ho3, Ho4⟩, Htodo⟩, %W', %hW', HO⟩
    iapply (wp_wand_r frame _ Set.univ)
    isplitl [Hi Hw0 Hw1 Hw2 Hw3 Hw4 Hg0 Hg1 Hg2 Hg3 Hg4 Hr0 Hs0 Hr1 Hs1 Hr2 Hs2 Hr3 Hs3 Hr4 Hs4 Ho0 Ho1 Ho2 Ho3 Ho4 HO]
    · iapply (trip_first d L k hk O W' q fi fw hin f0 f1 f2 f3 f4 g0 Gd (hG k) v2)
      isplitr; · iexact Hmw
      isplitl [Hi]; · iexact Hi
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hr0]; · iexact Hr0
      isplitl [Hs0]; · iexact Hs0
      isplitl [Hr1]; · iexact Hr1
      isplitl [Hs1]; · iexact Hs1
      isplitl [Hr2]; · iexact Hr2
      isplitl [Hs2]; · iexact Hs2
      isplitl [Hr3]; · iexact Hr3
      isplitl [Hs3]; · iexact Hs3
      isplitl [Hr4]; · iexact Hr4
      isplitl [Hs4]; · iexact Hs4
      isplitl [Ho0]; · rw [pts_chunk d L k 0, hk]; iexact Ho0
      isplitl [Ho1]; · rw [pts_chunk d L k 1, hk]; iexact Ho1
      isplitl [Ho2]; · rw [pts_chunk d L k 2, hk]; iexact Ho2
      isplitl [Ho3]; · rw [pts_chunk d L k 3, hk]; iexact Ho3
      isplitl [Ho4]; · rw [pts_chunk d L k 4, hk]; iexact Ho4
      iexact HO
    · iintro %_ ⟨Hi, Hw0, Hw1, Hw2, Hw3, Hw4, Hg0, Hg1, Hg2, Hg3, Hg4, Hs0, Hs1, Hs2, Hs3, Hs4, %W'', %hW'', HO⟩
      isplitr; · iexact Hmw
      isplitl [Hi]; · iexact Hi
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hs0]; · rw [hk]; iexact Hs0
      isplitl [Hs1]; · rw [hk]; iexact Hs1
      isplitl [Hs2]; · rw [hk]; iexact Hs2
      isplitl [Hs3]; · rw [hk]; iexact Hs3
      isplitl [Hs4]; · rw [hk]; iexact Hs4
      isplitr; · iempintro
      isplitl [Htodo]; · iexact Htodo
      iexists W''; isplitr
      · ipureintro; exact fun p hp => (hW'' p hp).elim (fun h => hW' p h) (fun h => .inr (.inl h))
      · iexact HO
  · -- a later trip: the slots' previous write-backs are in flight
    have hk' : 0 < k.val := Nat.pos_of_ne_zero hk
    simp only [slot0, slot1, slot2, slot3, slot4, hk, if_false, Nat.add_sub_cancel, Nat.succ_ne_zero, Nat.add_one_ne_zero]
    iintro ⟨#Hmw, Hi, Hw0, Hw1, Hw2, Hw3, Hw4, Hg0, Hg1, Hg2, Hg3, Hg4, Hs0, Hs1, Hs2, Hs3, Hs4, Hdone, ⟨⟨Ho0, Ho1, Ho2, Ho3, Ho4⟩, Htodo⟩, %W', %hW', HO⟩
    iapply (wp_wand_r frame _ Set.univ)
    isplitl [Hi Hw0 Hw1 Hw2 Hw3 Hw4 Hg0 Hg1 Hg2 Hg3 Hg4 Hs0 Hs1 Hs2 Hs3 Hs4 Ho0 Ho1 Ho2 Ho3 Ho4 HO]
    · iapply (trip_next d L k hk' (k.val - 1) O W' q fi fw hin g0 Gd (hG k) v2)
      isplitr; · iexact Hmw
      isplitl [Hi]; · iexact Hi
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      isplitl [Ho0]; · rw [pts_chunk d L k 0]; iexact Ho0
      isplitl [Ho1]; · rw [pts_chunk d L k 1]; iexact Ho1
      isplitl [Ho2]; · rw [pts_chunk d L k 2]; iexact Ho2
      isplitl [Ho3]; · rw [pts_chunk d L k 3]; iexact Ho3
      isplitl [Ho4]; · rw [pts_chunk d L k 4]; iexact Ho4
      iexact HO
    · iintro %_ ⟨Hi, Hw0, Hw1, Hw2, Hw3, Hw4, Hg0, Hg1, Hg2, Hg3, Hg4, Hs0, Hs1, Hs2, Hs3, Hs4, Hd0, Hd1, Hd2, Hd3, Hd4, %W'', %hW'', HO⟩
      isplitr; · iexact Hmw
      isplitl [Hi]; · iexact Hi
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      isplitl [Hdone Hd0 Hd1 Hd2 Hd3 Hd4]
      · rw [show k.val = (k.val - 1) + 1 from (Nat.sub_add_cancel hk').symm, Finset.range_add_one, SparseCore.bigSep_insert' Finset.notMem_range_self,
          rowAll_eq d L Gd (k.val - 1), Nat.add_sub_cancel]
        isplitl [Hd0 Hd1 Hd2 Hd3 Hd4]
        · isplitl [Hd0]; · iexact Hd0
          isplitl [Hd1]; · iexact Hd1
          isplitl [Hd2]; · iexact Hd2
          isplitl [Hd3]; · iexact Hd3
          iexact Hd4
        · iexact Hdone
      isplitl [Htodo]; · iexact Htodo
      iexists W''; isplitr
      · ipureintro; exact fun p hp => (hW'' p hp).elim (fun h => hW' p h) (fun h => .inr (.inl h))
      · iexact HO

end Cert.Proof.KI

end
-- ==== Proof.KI.Tile.lean ====
/-
  One subcore's task, whole: its rows of the table into the shared table, its index words into the index scratch,
  the barrier, the forty rounds, the last five waits.
-/
import proofs.«204301_g9028021256511_cont_9to1_m_920_22_alg».proof.Proof.KI.TileLemmas
import proofs.«204301_g9028021256511_cont_9to1_m_920_22_alg».proof.Proof.KI.Loop

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

variable (m : (ℓ : Loc nD τ sig) → Buf (Elt F) ℓ) (X : Dev nD → S819200.Idx → BitVec 32)

section Tile

variable (d : Dev nD) (L : grid0.Coords)

theorem pts_w (q : PosShare TreeShare) :
    ((wV).view.loc (thr d L) ↦{q} m (wLoc d) : sProp 𝕄) = wLoc d ↦{q} m (wLoc d) := by
  first | rfl | simp only [Memref.view_whole, View.set_whole]
theorem pts_x (q : PosShare TreeShare) :
    ((xfV).view.loc (thr d L) ↦{q} (X d : Buf (Elt F) (xfLoc d)) : sProp 𝕄) = xfLoc d ↦{q} X d := by
  first | rfl | simp only [Memref.view_whole, View.set_whole]
theorem pts_sh_lo (h : k0_cond1 L = 1#1) (f : Buf (Elt F) (shLoc d (cV L))) :
    ((shSliceLo L h).view.loc (thr d L) ↦[(shSliceLo L h).view.set]{fullShare} f : sProp 𝕄) = shLoc d (cV L) ↦[shSet (L 1).val]{fullShare} f := by
  rw [shSliceLo_set]; rfl
theorem pts_sh_hi (hj : (L 1).val = 15) (f : Buf (Elt F) (shLoc d (cV L))) :
    ((shSliceHi).view.loc (thr d L) ↦[(shSliceHi).view.set]{fullShare} f : sProp 𝕄) = shLoc d (cV L) ↦[shSet (L 1).val]{fullShare} f := by
  rw [shSliceHi_set L hj]; rfl
theorem pts_r0_set (f : Buf (Elt F) ((r0V).view.loc (thr d L))) :
    ((r0V).view.loc (thr d L) ↦[(r0V).view.set]{fullShare} f : sProp 𝕄) = (thr d L).loc cc0_scratch2 ↦{fullShare} f := by
  simp only [Memref.view_whole, View.set_whole]
theorem pts_r1_set (f : Buf (Elt F) ((r1V).view.loc (thr d L))) :
    ((r1V).view.loc (thr d L) ↦[(r1V).view.set]{fullShare} f : sProp 𝕄) = (thr d L).loc cc0_scratch3 ↦{fullShare} f := by
  simp only [Memref.view_whole, View.set_whole]
theorem pts_r2_set (f : Buf (Elt F) ((r2V).view.loc (thr d L))) :
    ((r2V).view.loc (thr d L) ↦[(r2V).view.set]{fullShare} f : sProp 𝕄) = (thr d L).loc cc0_scratch4 ↦{fullShare} f := by
  simp only [Memref.view_whole, View.set_whole]
theorem pts_r3_set (f : Buf (Elt F) ((r3V).view.loc (thr d L))) :
    ((r3V).view.loc (thr d L) ↦[(r3V).view.set]{fullShare} f : sProp 𝕄) = (thr d L).loc cc0_scratch5 ↦{fullShare} f := by
  simp only [Memref.view_whole, View.set_whole]
theorem pts_r4_set (f : Buf (Elt F) ((r4V).view.loc (thr d L))) :
    ((r4V).view.loc (thr d L) ↦[(r4V).view.set]{fullShare} f : sProp 𝕄) = (thr d L).loc cc0_scratch6 ↦{fullShare} f := by
  simp only [Memref.view_whole, View.set_whole]

/-- The rows a subcore filled hold the table's contents there, whatever the engine's payload is called. -/
theorem sh_landed_lo' (h : k0_cond1 L = 1#1) (fsh : Buf (Elt F) (shLoc d (cV L))) (pay : S64x128.Idx → Elt F .f32)
    (hp : ∀ x, Wsh m d (cV L) ((shSliceLo L h).view.emb x) = pay x) :
    ((shSliceLo L h).view.loc (thr d L) ↦[(shSliceLo L h).view.set]{fullShare}
        (shSliceLo L h).view.writes (Elt F) fsh [⟨Rect.whole S64x128, pay⟩] : sProp 𝕄)
      = shLoc d (cV L) ↦[shSet (L 1).val]{fullShare} Wsh m d (cV L) := by
  rw [pointsTo_congr (landed_congr (shSliceLo L h).view fsh pay (Wsh m d (cV L)) hp), shSliceLo_set]
  rfl
theorem sh_landed_hi' (hj : (L 1).val = 15) (fsh : Buf (Elt F) (shLoc d (cV L))) (pay : S40x128.Idx → Elt F .f32)
    (hp : ∀ x, Wsh m d (cV L) ((shSliceHi).view.emb x) = pay x) :
    ((shSliceHi).view.loc (thr d L) ↦[(shSliceHi).view.set]{fullShare}
        (shSliceHi).view.writes (Elt F) fsh [⟨Rect.whole S40x128, pay⟩] : sProp 𝕄)
      = shLoc d (cV L) ↦[shSet (L 1).val]{fullShare} Wsh m d (cV L) := by
  rw [pointsTo_congr (landed_congr (shSliceHi).view fsh pay (Wsh m d (cV L)) hp), shSliceHi_set L hj]
  rfl
theorem idx_landed' (fi0 : Buf (Elt F) ((idxV).view.loc (thr d L))) (pay : S25600.Idx → BitVec 32)
    (hp : ∀ x, fiT (X d) L x = pay x) :
    ((idxV).view.loc (thr d L) ↦{fullShare} View.write (Elt F) (idxV).view fi0 pay Finset.univ : sProp 𝕄)
      = (idxV).view.loc (thr d L) ↦{fullShare} (fiT (X d) L : Buf (Elt F) ((idxV).view.loc (thr d L))) := by
  have e : View.write (Elt F) (idxV).view fi0 pay Finset.univ = (fiT (X d) L : Buf (Elt F) ((idxV).view.loc (thr d L))) :=
    (View.write_whole_univ _ _ _).trans (funext fun x => (hp x).symm)
  rw [e]

/-- Rounds 0 to 38 and the five chunks of round 39 are the subcore's rows. -/
theorem done_join (f : Buf (Elt F) (oLoc d)) :
    iprop((bigSep (Finset.range 39) fun k => bigSep (Finset.range 5) fun s => (oLoc d ↦[chunkSet L k s]{fullShare} f : sProp 𝕄))
        ∗ (oLoc d ↦[chunkSet L 39 0]{fullShare} f) ∗ (oLoc d ↦[chunkSet L 39 1]{fullShare} f) ∗ (oLoc d ↦[chunkSet L 39 2]{fullShare} f)
        ∗ (oLoc d ↦[chunkSet L 39 3]{fullShare} f) ∗ (oLoc d ↦[chunkSet L 39 4]{fullShare} f))
      ⊢ (oLoc d ↦[tileSet L]{fullShare} f : sProp 𝕄) := by
  have e40 : (bigSep (Finset.range 40) fun k => bigSep (Finset.range 5) fun s => (oLoc d ↦[chunkSet L k s]{fullShare} f : sProp 𝕄))
      = iprop((bigSep (Finset.range 5) fun s => (oLoc d ↦[chunkSet L 39 s]{fullShare} f : sProp 𝕄))
          ∗ bigSep (Finset.range 39) fun k => bigSep (Finset.range 5) fun s => (oLoc d ↦[chunkSet L k s]{fullShare} f : sProp 𝕄)) := by
    rw [show Finset.range 40 = insert 39 (Finset.range 39) from Finset.range_add_one (n := 39)]
    exact SparseCore.bigSep_insert' Finset.notMem_range_self
  rw [tile_split (F := F) d L fullShare f, e40, rowAll_eq' d L f 39]
  iintro ⟨Hd, H0, H1, H2, H3, H4⟩
  isplitl [H0 H1 H2 H3 H4]
  · isplitl [H0]; · iexact H0
    isplitl [H1]; · iexact H1
    isplitl [H2]; · iexact H2
    isplitl [H3]; · iexact H3
    iexact H4
  · iexact Hd

theorem toks5_eq_sh (q : PosShare TreeShare) :
    (bigSep Finset.univ fun i : Fin 5 => (shLoc d (cV L) ↦{Transfers.shareTok q 5 i} Wsh m d (cV L) : sProp 𝕄))
      = iprop(((shV).view.loc (thr d L) ↦{Transfers.shareTok q 5 0} Wsh m d (cV L)) ∗ ((shV).view.loc (thr d L) ↦{Transfers.shareTok q 5 1} Wsh m d (cV L))
          ∗ ((shV).view.loc (thr d L) ↦{Transfers.shareTok q 5 2} Wsh m d (cV L)) ∗ ((shV).view.loc (thr d L) ↦{Transfers.shareTok q 5 3} Wsh m d (cV L))
          ∗ ((shV).view.loc (thr d L) ↦{Transfers.shareTok q 5 4} Wsh m d (cV L))) :=
  toks5_eq (F := F) d L q (Wsh m d (cV L))

set_option maxRecDepth 16384 in
set_option maxHeartbeats 16000000 in
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (hX : ∀ n, (X d n).toNat < 1000) :
    iprop(levAts (K (F := F)).L (K (F := F)).lev ∗ bkit m d (cV L) (jV L)
        ∗ goPay m X d L
        ∗ scopedBufs (thr d L) ∗ scopedSems0 (thr d L) ∗ owes (thr d L) (O + oxV d (cV L)) W)
      ⊢ wp frame (wpE (defs₀ (F := F)) 𝒱₀ (thr d L) none) Set.univ
          (cc0__embed_lookup L xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2)
          fun _ => iprop(tdPay m X d L
            ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0__embed_lookup_eq_skeleton]; unfold cc0__embed_lookup_skel
  rw [(K (F := F)).scopedBufs_V hF d (cV L) (jV L), SparseCore.Cfg.scopedSems0_V (Val := Elt F) d (cV L) (jV L), ownSems0_V, ownBufs_V]
  unfold bkit goPay mainPay
  iintro ⟨#Hlv, ⟨⟨%κ, #Hinv⟩, Htoks, #Hrch, Hat, Hcred⟩, ⟨⟨Hw, Hx, Ho⟩, %fsh, Hsh⟩, ⟨⟨%fi0, Hi⟩, ⟨%f0, Hr0⟩, ⟨%f1, Hr1⟩, ⟨%f2, Hr2⟩, ⟨%f3, Hr3⟩, ⟨%f4, Hr4⟩, Hbufs⟩, ⟨Hg0, Hg1, Hg2, Hg3, Hg4, Hs0, Hs1, Hs2, Hs3, Hs4, Hc0, Hc1, Hc2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  ihave Hw' := (Entails.of_eq (pts_w (F := F) m d L _).symm) $$ Hw
  ihave Hx' := (Entails.of_eq (pts_x (F := F) X d L _).symm) $$ Hx
  ihave Hi' := (Entails.of_eq (show ((thr d L).loc cc0_scratch0 ↦{fullShare} fi0 : sProp 𝕄) = ((idxV).view.loc (thr d L) ↦{fullShare} fi0) from rfl)) $$ Hi
  ihave Hr0' := (Entails.of_eq (show ((thr d L).loc cc0_scratch2 ↦{fullShare} f0 : sProp 𝕄) = ((r0V).view.loc (thr d L) ↦{fullShare} f0) from rfl)) $$ Hr0
  ihave Hr1' := (Entails.of_eq (show ((thr d L).loc cc0_scratch3 ↦{fullShare} f1 : sProp 𝕄) = ((r1V).view.loc (thr d L) ↦{fullShare} f1) from rfl)) $$ Hr1
  ihave Hr2' := (Entails.of_eq (show ((thr d L).loc cc0_scratch4 ↦{fullShare} f2 : sProp 𝕄) = ((r2V).view.loc (thr d L) ↦{fullShare} f2) from rfl)) $$ Hr2
  ihave Hr3' := (Entails.of_eq (show ((thr d L).loc cc0_scratch5 ↦{fullShare} f3 : sProp 𝕄) = ((r3V).view.loc (thr d L) ↦{fullShare} f3) from rfl)) $$ Hr3
  ihave Hr4' := (Entails.of_eq (show ((thr d L).loc cc0_scratch6 ↦{fullShare} f4 : sProp 𝕄) = ((r4V).view.loc (thr d L) ↦{fullShare} f4) from rfl)) $$ Hr4
  by_cases hj : (L 1).val < 15
  · have k0_h1 : k0_cond1 L = 1#1 := (cond1_iff L).mpr hj
    have k0_h2 : ¬ Scalar.cmpi .ne (Scalar.extui (Scalar.cmpi .eq (BitVec.ofNat 32 (L 1).val) 15#32)) 0#32 = 1#1 :=
      fun h => absurd ((cond2_iff L).mp h) (by omega)
    ihave Hsh' := (Entails.of_eq (pts_sh_lo (F := F) d L k0_h1 fsh).symm) $$ Hsh
    sl_exec
    ihave Hsh2 := (Entails.of_eq (sh_landed_lo' (F := F) m d L k0_h1 fsh (tile_body.sl.dma0 m d L k0_h1) (fun x => rfl))) $$ Hsh'
    ihave Hi2 := (Entails.of_eq (idx_landed' (F := F) X d L fi0 (tile_body.sl.dma0_1 X d L) (fun x => rfl))) $$ Hi'
    -- the barrier: a read share of the rows to every subcore, a read share of every subcore's rows back
    ihave Hsplit := (Transfers.pointsTo_toks_split fullShare 16) $$ Hsh2
    icases Hsplit with ⟨Hshrest, Hshtoks⟩
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hshtoks Hcred Hat]
    · isplitr; · iexact Hinv
      isplitl [HO]; · iexact HO
      isplitl [Htoks Hshtoks]
      · rw [bigSep_sep', bigSep_sep']
        isplitl [Htoks]; · iexact Htoks
        isplitl [Hshtoks]; · iexact Hshtoks
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hall := (pays_elim m d L) $$ Hgot
    ihave Htk := (Transfers.pointsTo_toks_split (Transfers.shareTokN fullShare (L 1).val) 5) $$ Hall
    icases Htk with ⟨Hw5rest, Htk5⟩
    ihave Htk5' := (Entails.of_eq (toks5_eq (F := F) d L _ _)) $$ Htk5
    icases Htk5' with ⟨Hw0, Hw1, Hw2, Hw3, Hw4⟩
    -- the output rows, chunk by chunk
    ihave Hoc := (Entails.of_eq (tile_split (F := F) d L fullShare (m (oLoc d)))) $$ Ho
    sl_for (inv d L O W (Transfers.shareTokN fullShare (L 1).val) (fiT (X d) L) (Wsh m d (cV L)) (m (oLoc d)) (Gd m X d)) $$ [Hmw2 Hi2 Hw0 Hw1 Hw2 Hw3 Hw4 Hg0 Hg1 Hg2 Hg3 Hg4 Hr0' Hs0 Hr1' Hs1 Hr2' Hs2 Hr3' Hs3 Hr4' Hs4 Hoc HO]
    case region =>
      intro k acc
      exact inv_step d L O W _ (fiT (X d) L) (Wsh m d (cV L)) (hin_of (F := F) X d L hX) (m (oLoc d)) (Gd m X d)
        (fun k s x => hG_closed (X d) (Wd m d) L k s x) _ k acc
    · unfold inv
      simp only [slot0, slot1, slot2, slot3, slot4, if_pos, Nat.zero_sub, Finset.range_zero, bigSep_empty]
      isplitl [Hmw2]; · iexact Hmw2
      isplitl [Hi2]; · iexact Hi2
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hr0' Hs0]
      · isplitl [Hr0']; · iexists _; iexact Hr0'
        iexact Hs0
      isplitl [Hr1' Hs1]
      · isplitl [Hr1']; · iexists _; iexact Hr1'
        iexact Hs1
      isplitl [Hr2' Hs2]
      · isplitl [Hr2']; · iexists _; iexact Hr2'
        iexact Hs2
      isplitl [Hr3' Hs3]
      · isplitl [Hr3']; · iexists _; iexact Hr3'
        iexact Hs3
      isplitl [Hr4' Hs4]
      · isplitl [Hr4']; · iexists _; iexact Hr4'
        iexact Hs4
      isplitr; · iempintro
      isplitl [Hoc]; · rw [← Finset.range_eq_Ico]; iexact Hoc
      iexists _; isplitr
      swap; · iexact HO
      ipureintro
      intro p hp
      simp only [Finset.mem_insert] at hp
      rcases hp with rfl | rfl | rfl | hp
      · exact .inr (.inr rfl)
      · exact .inr (.inl rfl)
      · exact .inr (.inl rfl)
      · exact .inl hp
    iintro %_ HI
    ihave HI' := (Entails.of_eq (inv_end (F := F) d L O _ _ _ _ _ _ _)) $$ HI
    icases HI' with ⟨-, Hi2, Hw0, Hw1, Hw2, Hw3, Hw4, Hg0, Hg1, Hg2, Hg3, Hg4, Hs0, Hs1, Hs2, Hs3, Hs4, Hdone, -, %W3, %hW3, HO⟩
    -- the last round's five write-backs
    sl_exec
    sl_step
    -- everything back
    isplitl [Hw' Hx' Hdone Hs0_dst Hs1_dst Hs2_dst Hs3_dst Hs4_dst Hw0 Hw1 Hw2 Hw3 Hw4 Hw5rest Hshrest]
    · unfold tdPay mainPay
      isplitl [Hw' Hx' Hdone Hs0_dst Hs1_dst Hs2_dst Hs3_dst Hs4_dst]
      · isplitl [Hw']; · iexact Hw'
        isplitl [Hx']; · iexact Hx'
        iapply (done_join (F := F) d L (Gd m X d))
        isplitl [Hdone]; · iexact Hdone
        isplitl [Hs0_dst]; · iexact Hs0_dst
        isplitl [Hs1_dst]; · iexact Hs1_dst
        isplitl [Hs2_dst]; · iexact Hs2_dst
        isplitl [Hs3_dst]; · iexact Hs3_dst
        iexact Hs4_dst
      isplitl [Hw0 Hw1 Hw2 Hw3 Hw4 Hw5rest]
      · iapply (Transfers.pointsTo_toks_join (Transfers.shareTokN fullShare (L 1).val) 5)
        isplitl [Hw5rest]; · iexact Hw5rest
        rw [toks5_eq_sh (F := F) m d L _]
        isplitl [Hw0]; · iexact Hw0
        isplitl [Hw1]; · iexact Hw1
        isplitl [Hw2]; · iexact Hw2
        isplitl [Hw3]; · iexact Hw3
        iexact Hw4
      · iexact Hshrest
    isplitl [Hi2 Hs0_src Hs1_src Hs2_src Hs3_src Hs4_src Hbufs]
    · isplitl [Hi2]; · iexists _; iexact Hi2
      isplitl [Hs0_src]; · iexists _; iapply (Entails.of_eq (pts_r0_set (F := F) d L _)); iexact Hs0_src
      isplitl [Hs1_src]; · iexists _; iapply (Entails.of_eq (pts_r1_set (F := F) d L _)); iexact Hs1_src
      isplitl [Hs2_src]; · iexists _; iapply (Entails.of_eq (pts_r2_set (F := F) d L _)); iexact Hs2_src
      isplitl [Hs3_src]; · iexists _; iapply (Entails.of_eq (pts_r3_set (F := F) d L _)); iexact Hs3_src
      isplitl [Hs4_src]; · iexists _; iapply (Entails.of_eq (pts_r4_set (F := F) d L _)); iexact Hs4_src
      iexact Hbufs
    isplitl [Hg0 Hg1 Hg2 Hg3 Hg4 Hs0 Hs1 Hs2 Hs3 Hs4 Hc0 Hc1 Hc2 Hsems]
    · isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      isplitl [Hc0]; · iexact Hc0
      isplitl [Hc1]; · iexact Hc1
      isplitl [Hc2]; · iexact Hc2
      iexact Hsems
    iexists _; isplitr
    swap; · iexact HO
    ipureintro
    intro p hp
    simp only [Finset.mem_insert] at hp
    rcases hp with rfl | rfl | rfl | rfl | rfl | hp
    iterate 5 exact .inr (.inl rfl)
    exact hW3 p hp

  · have hj15 : (L 1).val = 15 := by have := L1_lt L; omega
    have k0_h1 : ¬ k0_cond1 L = 1#1 := fun h => hj ((cond1_iff L).mp h)
    have k0_h2 : Scalar.cmpi .ne (Scalar.extui (Scalar.cmpi .eq (BitVec.ofNat 32 (L 1).val) 15#32)) 0#32 = 1#1 := (cond2_iff L).mpr hj15
    ihave Hsh' := (Entails.of_eq (pts_sh_hi (F := F) d L hj15 fsh).symm) $$ Hsh
    sl_exec
    ihave Hsh2 := (Entails.of_eq (sh_landed_hi' (F := F) m d L hj15 fsh (tile_body.sl.dma0_2 m d) (fun x => rfl))) $$ Hsh'
    ihave Hi2 := (Entails.of_eq (idx_landed' (F := F) X d L fi0 (tile_body.sl.dma0_3 X d L) (fun x => rfl))) $$ Hi'
    -- the barrier: a read share of the rows to every subcore, a read share of every subcore's rows back
    ihave Hsplit := (Transfers.pointsTo_toks_split fullShare 16) $$ Hsh2
    icases Hsplit with ⟨Hshrest, Hshtoks⟩
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hshtoks Hcred Hat]
    · isplitr; · iexact Hinv
      isplitl [HO]; · iexact HO
      isplitl [Htoks Hshtoks]
      · rw [bigSep_sep', bigSep_sep']
        isplitl [Htoks]; · iexact Htoks
        isplitl [Hshtoks]; · iexact Hshtoks
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hall := (pays_elim m d L) $$ Hgot
    ihave Htk := (Transfers.pointsTo_toks_split (Transfers.shareTokN fullShare (L 1).val) 5) $$ Hall
    icases Htk with ⟨Hw5rest, Htk5⟩
    ihave Htk5' := (Entails.of_eq (toks5_eq (F := F) d L _ _)) $$ Htk5
    icases Htk5' with ⟨Hw0, Hw1, Hw2, Hw3, Hw4⟩
    -- the output rows, chunk by chunk
    ihave Hoc := (Entails.of_eq (tile_split (F := F) d L fullShare (m (oLoc d)))) $$ Ho
    sl_for (inv d L O W (Transfers.shareTokN fullShare (L 1).val) (fiT (X d) L) (Wsh m d (cV L)) (m (oLoc d)) (Gd m X d)) $$ [Hmw2 Hi2 Hw0 Hw1 Hw2 Hw3 Hw4 Hg0 Hg1 Hg2 Hg3 Hg4 Hr0' Hs0 Hr1' Hs1 Hr2' Hs2 Hr3' Hs3 Hr4' Hs4 Hoc HO]
    case region =>
      intro k acc
      exact inv_step d L O W _ (fiT (X d) L) (Wsh m d (cV L)) (hin_of (F := F) X d L hX) (m (oLoc d)) (Gd m X d)
        (fun k s x => hG_closed (X d) (Wd m d) L k s x) _ k acc
    · unfold inv
      simp only [slot0, slot1, slot2, slot3, slot4, if_pos, Nat.zero_sub, Finset.range_zero, bigSep_empty]
      isplitl [Hmw2]; · iexact Hmw2
      isplitl [Hi2]; · iexact Hi2
      isplitl [Hw0]; · iexact Hw0
      isplitl [Hw1]; · iexact Hw1
      isplitl [Hw2]; · iexact Hw2
      isplitl [Hw3]; · iexact Hw3
      isplitl [Hw4]; · iexact Hw4
      isplitl [Hg0]; · iexact Hg0
      isplitl [Hg1]; · iexact Hg1
      isplitl [Hg2]; · iexact Hg2
      isplitl [Hg3]; · iexact Hg3
      isplitl [Hg4]; · iexact Hg4
      isplitl [Hr0' Hs0]
      · isplitl [Hr0']; · iexists _; iexact Hr0'
        iexact Hs0
      isplitl [Hr1' Hs1]
      · isplitl [Hr1']; · iexists _; iexact Hr1'
        iexact Hs1
      isplitl [Hr2' Hs2]
      · isplitl [Hr2']; · iexists _; iexact Hr2'
        iexact Hs2
      isplitl [Hr3' Hs3]
      · isplitl [Hr3']; · iexists _; iexact Hr3'
        iexact Hs3
      isplitl [Hr4' Hs4]
      · isplitl [Hr4']; · iexists _; iexact Hr4'
        iexact Hs4
      isplitr; · iempintro
      isplitl [Hoc]; · rw [← Finset.range_eq_Ico]; iexact Hoc
      iexists _; isplitr
      swap; · iexact HO
      ipureintro
      intro p hp
      simp only [Finset.mem_insert] at hp
      rcases hp with rfl | rfl | rfl | hp
      · exact .inr (.inr rfl)
      · exact .inr (.inl rfl)
      · exact .inr (.inl rfl)
      · exact .inl hp
    iintro %_ HI
    ihave HI' := (Entails.of_eq (inv_end (F := F) d L O _ _ _ _ _ _ _)) $$ HI
    icases HI' with ⟨-, Hi2, Hw0, Hw1, Hw2, Hw3, Hw4, Hg0, Hg1, Hg2, Hg3, Hg4, Hs0, Hs1, Hs2, Hs3, Hs4, Hdone, -, %W3, %hW3, HO⟩
    -- the last round's five write-backs
    sl_exec
    sl_step
    -- everything back
    isplitl [Hw' Hx' Hdone Hs0_dst Hs1_dst Hs2_dst Hs3_dst Hs4_dst Hw0 Hw1 Hw2 Hw3 Hw4 Hw5rest Hshrest]
    · unfold tdPay mainPay
      isplitl [Hw' Hx' Hdone Hs0_dst Hs1_dst Hs2_dst Hs3_dst Hs4_dst]
      · isplitl [Hw']; · iexact Hw'
        isplitl [Hx']; · iexact Hx'
        iapply (done_join (F := F) d L (Gd m X d))
        isplitl [Hdone]; · iexact Hdone
        isplitl [Hs0_dst]; · iexact Hs0_dst
        isplitl [Hs1_dst]; · iexact Hs1_dst
        isplitl [Hs2_dst]; · iexact Hs2_dst
        isplitl [Hs3_dst]; · iexact Hs3_dst
        iexact Hs4_dst
      isplitl [Hw0 Hw1 Hw2 Hw3 Hw4 Hw5rest]
      · iapply (Transfers.pointsTo_toks_join (Transfers.shareTokN fullShare (L 1).val) 5)
        isplitl [Hw5rest]; · iexact Hw5rest
        rw [toks5_eq_sh (F := F) m d L _]
        isplitl [Hw0]; · iexact Hw0
        isplitl [Hw1]; · iexact Hw1
        isplitl [Hw2]; · iexact Hw2
        isplitl [Hw3]; · iexact Hw3
        iexact Hw4
      · iexact Hshrest
    isplitl [Hi2 Hs0_src Hs1_src Hs2_src Hs3_src Hs4_src Hbufs]
    · isplitl [Hi2]; · iexists _; iexact Hi2
      isplitl [Hs0_src]; · iexists _; iapply (Entails.of_eq (pts_r0_set (F := F) d L _)); iexact Hs0_src
      isplitl [Hs1_src]; · iexists _; iapply (Entails.of_eq (pts_r1_set (F := F) d L _)); iexact Hs1_src
      isplitl [Hs2_src]; · iexists _; iapply (Entails.of_eq (pts_r2_set (F := F) d L _)); iexact Hs2_src
      isplitl [Hs3_src]; · iexists _; iapply (Entails.of_eq (pts_r3_set (F := F) d L _)); iexact Hs3_src
      isplitl [Hs4_src]; · iexists _; iapply (Entails.of_eq (pts_r4_set (F := F) d L _)); iexact Hs4_src
      iexact Hbufs
    isplitl [Hg0 Hg1 Hg2 Hg3 Hg4 Hs0 Hs1 Hs2 Hs3 Hs4 Hc0 Hc1 Hc2 Hsems]
    · isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      isplitl [Hc0]; · iexact Hc0
      isplitl [Hc1]; · iexact Hc1
      isplitl [Hc2]; · iexact Hc2
      iexact Hsems
    iexists _; isplitr
    swap; · iexact HO
    ipureintro
    intro p hp
    simp only [Finset.mem_insert] at hp
    rcases hp with rfl | rfl | rfl | rfl | rfl | hp
    iterate 5 exact .inr (.inl rfl)
    exact hW3 p hp

end Tile

end Cert.Proof.KI

end
-- ==== Proof.KI.Launch.lean ====
/-
  The launch. The one call hands each SparseCore, for each of its sixteen subcores, a read share of the table and
  of the flat indices and the subcore's 25,600 output rows; the SparseCore's shared table goes to its subcores row
  block by row block and comes back whole. Around the call the TensorCore flattens the indices before and reshapes
  the flat output after. The run ends with the arguments as found and the result the expected output, reshaped.
-/
import proofs.«204301_g9028021256511_cont_9to1_m_920_22_alg».proof.Proof.KI.Tile

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

open Idealize.ShloMosaic.StableHlo (held held_split held_sdiff_result wp_hlo_within)

variable (m : (ℓ : Loc nD τ sig) → Buf (Elt F) ℓ) (ρ : Dev nD → PrngReg) (X : Dev nD → S819200.Idx → BitVec 32)

/-- The subcore of core number `c`, task `i`, as grid coordinates. -/
def Lof (c : Fin ((K (F := F)).nCore 0)) (i : Fin ((K (F := F)).nSub 0)) : grid0.Coords := coordsV ⟨c.val, c.isLt⟩ ⟨i.val, i.isLt⟩

/-! ## What the handshakes carry -/

def P : (K (F := F)).Pay (nD := nD) (Val := Elt F) (Name := ℕ) (U := UU) where
  st := fun q d c => match q with
    | 0 => bigSep Finset.univ fun i : Fin ((K (F := F)).nSub 0) => mainPay m X d (Lof c i) (m (oLoc d))
  dn := fun q d c => match q with
    | 0 => bigSep Finset.univ fun i : Fin ((K (F := F)).nSub 0) => mainPay m X d (Lof c i) (Gd m X d)
  go := fun q d c i => match q with
    | 0 => goPay m X d (Lof c i)
  td := fun q d c i => match q with
    | 0 => tdPay m X d (Lof c i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m X).IsStorable where
  st q d c := match q with
    | 0 => (inferInstance : BI.Storable (upEmb : UEmb _ 𝕄) (bigSep Finset.univ fun i : Fin ((K (F := F)).nSub 0) => mainPay m X d (Lof c i) (m (oLoc d))))
  dn q d c := match q with
    | 0 => (inferInstance : BI.Storable (upEmb : UEmb _ 𝕄) (bigSep Finset.univ fun i : Fin ((K (F := F)).nSub 0) => mainPay m X d (Lof c i) (Gd m X d)))
  go q d c i := match q with
    | 0 => (inferInstance : BI.Storable (upEmb : UEmb _ 𝕄) (goPay m X d (Lof c i)))
  td q d c i := match q with
    | 0 => (inferInstance : BI.Storable (upEmb : UEmb _ 𝕄) (tdPay m X d (Lof c i)))

/-! ## The obligation -/

theorem defs₀_vector (c : Fin τ.nSC) (s : Fin τ.nSub) :
    defs₀ (F := F) (.scVector c s) 0 ()
      = SparseCore.onTile hcore0 hsub0 (fun c s => cc0__embed_lookup (coordsV c s)
          xfV (Memref.isWhole_whole _) wV (Memref.isWhole_whole _) oV (Memref.isWhole_whole _)
            idxV (Memref.isWhole_whole _) shV (Memref.isWhole_whole _) r0V (Memref.isWhole_whole _) r1V (Memref.isWhole_whole _)
            r2V (Memref.isWhole_whole _) r3V (Memref.isWhole_whole _) r4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1 cc0_scoped2) ⟨⟩ c s := rfl

set_option maxRecDepth 16384 in
theorem tileObl (hF : (K (F := F)).Facts) (hX : ∀ d n, (X d n).toNat < 1000) : (K (F := F)).TileObl (D (F := F)) 𝒱 (P m X) v₀ 0 := by
  intro d c i O W hO hOlev _
  have hci : ((K (F := F)).core 0 c).val < grid0.bound 0 ∧ ((K (F := F)).sub 0 i).val < grid0.bound 1 := ⟨c.isLt, i.isLt⟩
  rw [show (P m X).ox 0 (V d ((K (F := F)).core 0 c) ((K (F := F)).sub 0 i)) = oxV d ((K (F := F)).core 0 c) from rfl,
    show (P m X).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m X d (coordsV ⟨_, hci.1⟩ ⟨_, hci.2⟩) hF O W hO hOlev (hX d)

/-! ## The shared table split among the subcores and rejoined -/

omit [FloatOps F] in
theorem shPts_rows (d : Dev nD) (c : Fin τ.nSC) (q : PosShare TreeShare) (f : Buf (Elt F) (shLoc d c)) :
    (shLoc d c ↦{q} f : sProp 𝕄) = bigSep Finset.univ fun i : Fin 16 => shLoc d c ↦[shSet i.val]{q} f := by
  rw [← pointsTo_biUnion (ℓ := shLoc d c) (q := q) (f := f) Finset.univ (fun n : Fin 16 => shSet n.val) shSets_disjoint, shSets_cover]; try rfl

omit [FloatOps F] in
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit (P m X) 0 := by
  intro d c
  show iprop((bigSep Finset.univ fun i : Fin ((K (F := F)).nSub 0) => mainPay m X d (Lof c i) (m (oLoc d))) ∗ ownBufs (S d (coreOf c))) ⊢ |={Set.univ}=> iprop(
      (bigSep Finset.univ fun i : Fin ((K (F := F)).nSub 0) =>
        iprop(mainPay m X d (Lof c i) (m (oLoc d)) ∗ ∃ f, shLoc d (coreOf c) ↦[shSet (Fin.cast nSub_zero i).val]{fullShare} f))
      ∗ ((bigSep Finset.univ fun i : Fin ((K (F := F)).nSub 0) =>
            iprop(mainPay m X d (Lof c i) (Gd m X d)
              ∗ (shLoc d (coreOf c) ↦{Transfers.shareTok fullShare 16 (Fin.cast nSub_zero i)} Wsh m d (coreOf c))
              ∗ (shLoc d (coreOf c) ↦[shSet (Fin.cast nSub_zero i).val]{Transfers.shareDrop fullShare 16} Wsh m d (coreOf c))))
          -∗ iprop((bigSep Finset.univ fun i : Fin ((K (F := F)).nSub 0) => mainPay m X d (Lof c i) (Gd m X d)) ∗ ownBufs (S d (coreOf c)))))
  rw [bigSep_sep', bigSep_sep', bigSep_sep', ownBufs_S,
    bigSep_tasks (F := F) (fun i => iprop(∃ f, shLoc d (coreOf c) ↦[shSet i.val]{fullShare} f)),
    bigSep_tasks (F := F) (fun i => (shLoc d (coreOf c) ↦{Transfers.shareTok fullShare 16 i} Wsh m d (coreOf c) : sProp 𝕄)),
    bigSep_tasks (F := F) (fun i => (shLoc d (coreOf c) ↦[shSet i.val]{Transfers.shareDrop fullShare 16} Wsh m d (coreOf c) : sProp 𝕄))]
  iintro ⟨Hmain, ⟨%fsh, Hsh⟩, Hrest⟩; imodintro
  isplitl [Hmain Hsh]
  · isplitl [Hmain]; · iexact Hmain
    ihave Hsh' := ((Entails.of_eq (shPts_rows (F := F) d (coreOf c) fullShare fsh)).trans (SparseCore.ent (bigSep_mono (Φ := fun i : Fin 16 => (shLoc d (coreOf c) ↦[shSet i.val]{fullShare} fsh : sProp 𝕄))
      (Ψ := fun i : Fin 16 => iprop(∃ f, shLoc d (coreOf c) ↦[shSet i.val]{fullShare} f))
      fun i _ => BI.BIClass.exists_intro (Φ := fun f => (shLoc d (coreOf c) ↦[shSet i.val]{fullShare} f : sProp 𝕄)) fsh))) $$ Hsh
    iexact Hsh'
  iintro ⟨Hmain, Htoks, Hdrops⟩
  isplitl [Hmain]; · iexact Hmain
  isplitl [Htoks Hdrops]
  · iexists (Wsh m d (coreOf c))
    iapply (Transfers.pointsTo_toks_join fullShare 16)
    isplitl [Hdrops]
    · rw [shPts_rows (F := F) d (coreOf c) (Transfers.shareDrop fullShare 16) (Wsh m d (coreOf c))]; iexact Hdrops
    · iexact Htoks
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

theorem creds_b : ((P (F := F) m X).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m X).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m X).oxFrom 0 (V d c i) = oxV d c := fun i => by
    rw [show (0 : ℕ) = (0 : Fin 1).val from rfl, (P m X).oxFrom_step, (P m X).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m X).x q (SparseCore.T d)) = iprop(emp) :=
  bigSep_univ_of_subsingleton (0 : Fin 1)
theorem Px_S (d : Dev nD) (c : Fin τ.nSC) : (bigSep Finset.univ fun q : Fin 1 => (P (F := F) m X).x q (S d c)) = iprop(emp) :=
  bigSep_univ_of_subsingleton (0 : Fin 1)
theorem Px_V (d : Dev nD) (c : Fin τ.nSC) (i : Fin τ.nSub) :
    (bigSep Finset.univ fun q : Fin 1 => (P (F := F) m X).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m X).x q thr : sProp 𝕄) := by
  rw [SparseCore.Cfg.bigSep_threads (fun thr : Thread nD τ => bigSep Finset.univ fun q : Fin 1 => (P m X).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m X).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m X).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m X) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m X)
  isplitr
  · isplitl; · iexists κ; iexact Hinv'
    iexact Hr'
  isplitl [Hat']; · iexact Hat'
  isplitl [Htok']; · iexact Htok'
  iexact Hcred'

/-! ## The arrays dealt to the thirty-two subcores and gathered back -/

omit [FloatOps F] in
theorem range32 (Φ : ℕ → sProp 𝕄) :
    bigSep (Finset.range 32) Φ = bigSep Finset.univ fun c : Fin 2 => bigSep Finset.univ fun i : Fin 16 => Φ (i.val + 16 * c.val) := by
  have h : Finset.range 32 = (Finset.univ : Finset (Fin 2 × Fin 16)).image (fun p => p.2.val + 16 * p.1.val) := by
    ext x
    simp only [Finset.mem_range, Finset.mem_image, Finset.mem_univ, true_and]
    constructor
    · intro hx; exact ⟨(⟨x / 16, by omega⟩, ⟨x % 16, by omega⟩), by simp only; omega⟩
    · rintro ⟨⟨c, i⟩, rfl⟩; have := c.isLt; have := i.isLt; simp only; omega
  rw [h, SparseCore.bigSep_image_of_injOn (by
    rintro ⟨c, i⟩ - ⟨c', i'⟩ - e
    have e' : i.val + 16 * c.val = i'.val + 16 * c'.val := e
    have := c.isLt; have := i.isLt; have := c'.isLt; have := i'.isLt
    refine Prod.ext (Fin.ext ?_) (Fin.ext ?_)
    · show c.val = c'.val; omega
    · show i.val = i'.val; omega), bigSep_univ_prod]

theorem tiles_disjoint : ∀ p ∈ (Finset.univ : Finset (Fin 2 × Fin 16)), ∀ p' ∈ (Finset.univ : Finset (Fin 2 × Fin 16)), p ≠ p' →
    Disjoint (tileSet (coordsV p.1 p.2)) (tileSet (coordsV p'.1 p'.2)) := by
  rintro ⟨c, i⟩ - ⟨c', i'⟩ - hne
  refine Finset.disjoint_left.mpr fun x h1 h2 => hne ?_
  rw [mem_tileSet] at h1 h2
  have e1 : tileNo (coordsV c i) = 2 * i.val + c.val := rfl
  have e2 : tileNo (coordsV c' i') = 2 * i'.val + c'.val := rfl
  have := c.isLt; have := c'.isLt
  rw [e1] at h1; rw [e2] at h2
  refine Prod.ext (Fin.ext ?_) (Fin.ext ?_)
  · show c.val = c'.val; omega
  · show i.val = i'.val; omega

theorem tiles_cover : (Finset.univ : Finset (Fin 2 × Fin 16)).biUnion (fun p => tileSet (coordsV p.1 p.2)) = Finset.univ := by
  ext x
  simp only [Finset.mem_biUnion, Finset.mem_univ, true_and, iff_true]
  have hr := rowN_lt x
  refine ⟨(⟨(rowN x / 25600) % 2, by omega⟩, ⟨(rowN x / 25600) / 2, by omega⟩), mem_tileSet.mpr ?_⟩
  show rowN x / 25600 = 2 * ((rowN x / 25600) / 2) + (rowN x / 25600) % 2
  omega

theorem oPts_tiles (d : Dev nD) (q : PosShare TreeShare) (f : Buf (Elt F) (oLoc d)) :
    (oLoc d ↦{q} f : sProp 𝕄) = bigSep Finset.univ fun c : Fin 2 => bigSep Finset.univ fun i : Fin 16 => oLoc d ↦[tileSet (coordsV c i)]{q} f := by
  rw [← bigSep_univ_prod (fun p : Fin 2 × Fin 16 => (oLoc d ↦[tileSet (coordsV p.1 p.2)]{q} f : sProp 𝕄)),
    ← pointsTo_biUnion (ℓ := oLoc d) (q := q) (f := f) Finset.univ (fun p : Fin 2 × Fin 16 => tileSet (coordsV p.1 p.2)) tiles_disjoint, tiles_cover]

/-- The three arrays the call reads and writes, whole, are what the thirty-two subcores hold and two unshared remainders. -/
theorem main_split (d : Dev nD) (f : Buf (Elt F) (oLoc d)) :
    iprop((wLoc d ↦{fullShare} m (wLoc d)) ∗ (xfLoc d ↦{fullShare} X d) ∗ (oLoc d ↦{fullShare} f))
      ⊣⊢ (iprop((wLoc d ↦{Transfers.shareDrop fullShare 32} m (wLoc d)) ∗ (xfLoc d ↦{Transfers.shareDrop fullShare 32} X d)
          ∗ bigSep Finset.univ fun c : Fin 2 => bigSep Finset.univ fun i : Fin 16 => mainPay m X d (coordsV c i) f) : sProp 𝕄) := by
  have hw := Transfers.pointsTo_toks_range (ℓ := wLoc d) (S := Finset.univ) (f := m (wLoc d)) (Val := Elt F) (Ix := HIx 1) (Name := ℕ) (U := UU) (Lvl := ℕ) fullShare 32
  have hx := Transfers.pointsTo_toks_range (ℓ := xfLoc d) (S := Finset.univ) (f := (X d : Buf (Elt F) (xfLoc d))) (Val := Elt F) (Ix := HIx 1) (Name := ℕ) (U := UU) (Lvl := ℕ) fullShare 32
  rw [range32] at hw hx
  have hm : (bigSep Finset.univ fun c : Fin 2 => bigSep Finset.univ fun i : Fin 16 => mainPay m X d (coordsV c i) f)
      = iprop((bigSep Finset.univ fun c : Fin 2 => bigSep Finset.univ fun i : Fin 16 => (wLoc d ↦{Transfers.shareTokN fullShare (i.val + 16 * c.val)} m (wLoc d) : sProp 𝕄))
        ∗ (bigSep Finset.univ fun c : Fin 2 => bigSep Finset.univ fun i : Fin 16 => (xfLoc d ↦{Transfers.shareTokN fullShare (i.val + 16 * c.val)} X d : sProp 𝕄))
        ∗ (bigSep Finset.univ fun c : Fin 2 => bigSep Finset.univ fun i : Fin 16 => (oLoc d ↦[tileSet (coordsV c i)]{fullShare} f : sProp 𝕄))) := by
    unfold mainPay
    rw [← bigSep_sep', ← bigSep_sep']
    refine bigSep_congr fun c _ => ?_
    rw [← bigSep_sep', ← bigSep_sep']
    rfl
  rw [hm, ← oPts_tiles]
  constructor
  · iintro ⟨Hw, Hx, Ho⟩
    ihave Hw' := hw.1 $$ Hw
    ihave Hx' := hx.1 $$ Hx
    icases Hw' with ⟨Hwr, Hwt⟩
    icases Hx' with ⟨Hxr, Hxt⟩
    isplitl [Hwr]; · iexact Hwr
    isplitl [Hxr]; · iexact Hxr
    isplitl [Hwt]; · iexact Hwt
    isplitl [Hxt]; · iexact Hxt
    iexact Ho
  · iintro ⟨Hwr, Hxr, Hwt, Hxt, Ho⟩
    isplitl [Hwr Hwt]
    · iapply hw.2; isplitl [Hwr]; · iexact Hwr
      iexact Hwt
    isplitl [Hxr Hxt]
    · iapply hx.2; isplitl [Hxr]; · iexact Hxr
      iexact Hxt
    iexact Ho

theorem st0_eq (d : Dev nD) : (bigSep Finset.univ fun c : Fin ((K (F := F)).nCore 0) => (P m X).st 0 d c)
    = bigSep Finset.univ fun c : Fin 2 => bigSep Finset.univ fun i : Fin 16 => mainPay m X d (coordsV c i) (m (oLoc d)) := rfl
theorem dn0_eq (d : Dev nD) : (bigSep Finset.univ fun c : Fin ((K (F := F)).nCore 0) => (P m X).dn 0 d c)
    = bigSep Finset.univ fun c : Fin 2 => bigSep Finset.univ fun i : Fin 16 => mainPay m X d (coordsV c i) (Gd m X d) := rfl

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev a0Loc (d : Dev nD) : Loc nD τ sig := (SparseCore.T d).loc main_arg0
abbrev v2Loc (d : Dev nD) : Loc nD τ sig := (SparseCore.T d).loc main_v2

/-- The flattening before the call and the reshape after it, as host operations. -/
abbrev opFlat : HloOp τ sig (Elt F) := StableHlo.reshape main_arg0 main_v0 rfl Facts₀.shapeCasts_S4096x200_S819200
abbrev opOut : HloOp τ sig (Elt F) := StableHlo.reshape main_v1 main_v2 rfl Facts₀.shapeCasts_S819200x128_S4096x200x128

abbrev S5 : Finset (DevRef τ sig) := {a0', a1', v0', v1', v2'}

def V0 (d : Dev nD) : Valuation τ sig (Elt F) := fun b => m (d, b)
/-- The flat indices the kernel reads. -/
def Xf (d : Dev nD) : S819200.Idx → BitVec 32 := (opFlat (F := F)).result (V0 m d) v0'
/-- The buffers after the call: the flat output at the expected output. -/
def V1 (d : Dev nD) : Valuation τ sig (Elt F) := Function.update ((opFlat (F := F)).result (V0 m d)) v1' (Gd m (Xf m) d)
/-- The result. -/
def Res (d : Dev nD) : S4096x200x128.Idx → Elt F .f32 := (opOut (F := F)).result (V1 m d) v2'

omit [FloatOps F] in
theorem held_S5 (d : Dev nD) (W : Valuation τ sig (Elt F)) :
    (held (T d) S5 W : sProp 𝕄) = iprop((a0Loc d ↦{fullShare} W a0') ∗ (wLoc d ↦{fullShare} W a1') ∗ (xfLoc d ↦{fullShare} W v0')
      ∗ (oLoc d ↦{fullShare} W v1') ∗ (v2Loc d ↦{fullShare} W v2')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (wLoc d ↦{fullShare} W main_arg1) ∗ (xfLoc d ↦{fullShare} W main_v0)
      ∗ (oLoc d ↦{fullShare} W main_v1) ∗ (v2Loc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S5 (V0 m d) := by
  rw [unscopedBufs_eq, held_S5]; rfl

theorem hFlat : (opFlat (F := F)).bufs ⊆ S5 := show ({a0', v0'} : Finset (DevRef τ sig)) ⊆ S5 by decide
theorem hOut : (opOut (F := F)).bufs ⊆ S5 := show ({v1', v2'} : Finset (DevRef τ sig)) ⊆ S5 by decide

theorem flat_a0 (d : Dev nD) : (opFlat (F := F)).result (V0 m d) a0' = m (a0Loc d) :=
  (opFlat (F := F)).result_of_not_mem (V0 m d) (b := a0') (show a0' ∉ ({v0'} : Finset (DevRef τ sig)) by decide)
theorem flat_a1 (d : Dev nD) : (opFlat (F := F)).result (V0 m d) a1' = m (wLoc d) :=
  (opFlat (F := F)).result_of_not_mem (V0 m d) (b := a1') (show a1' ∉ ({v0'} : Finset (DevRef τ sig)) by decide)
theorem flat_v1 (d : Dev nD) : (opFlat (F := F)).result (V0 m d) v1' = m (oLoc d) :=
  (opFlat (F := F)).result_of_not_mem (V0 m d) (b := v1') (show v1' ∉ ({v0'} : Finset (DevRef τ sig)) by decide)
theorem flat_v2 (d : Dev nD) : (opFlat (F := F)).result (V0 m d) v2' = m (v2Loc d) :=
  (opFlat (F := F)).result_of_not_mem (V0 m d) (b := v2') (show v2' ∉ ({v0'} : Finset (DevRef τ sig)) by decide)

theorem V1_a0 (d : Dev nD) : V1 m d a0' = m (a0Loc d) := (Function.update_of_ne (show a0' ≠ v1' by decide) _ _).trans (flat_a0 m d)
theorem V1_a1 (d : Dev nD) : V1 m d a1' = m (wLoc d) := (Function.update_of_ne (show a1' ≠ v1' by decide) _ _).trans (flat_a1 m d)
theorem V1_v0 (d : Dev nD) : V1 m d v0' = Xf m d := Function.update_of_ne (show v0' ≠ v1' by decide) _ _
theorem V1_v1 (d : Dev nD) : V1 m d v1' = Gd m (Xf m) d := Function.update_self _ _ _
theorem V1_v2 (d : Dev nD) : V1 m d v2' = m (v2Loc d) := (Function.update_of_ne (show v2' ≠ v1' by decide) _ _).trans (flat_v2 m d)

theorem out_a0 (d : Dev nD) : (opOut (F := F)).result (V1 m d) a0' = m (a0Loc d) :=
  ((opOut (F := F)).result_of_not_mem (V1 m d) (b := a0') (show a0' ∉ ({v2'} : Finset (DevRef τ sig)) by decide)).trans (V1_a0 m d)
theorem out_a1 (d : Dev nD) : (opOut (F := F)).result (V1 m d) a1' = m (wLoc d) :=
  ((opOut (F := F)).result_of_not_mem (V1 m d) (b := a1') (show a1' ∉ ({v2'} : Finset (DevRef τ sig)) by decide)).trans (V1_a1 m d)

/-- What @main leaves the claim: the two arguments as found, the result at `Res`. -/
abbrev FIN (d : Dev nD) : sProp 𝕄 :=
  iprop((a0Loc d ↦{fullShare} m (a0Loc d)) ∗ (wLoc d ↦{fullShare} m (wLoc d)) ∗ (v2Loc d ↦{fullShare} Res m d))

set_option maxHeartbeats 4000000 in
theorem hmain (κ : GSem nD τ sig → ℕ) (d : Dev nD) :
    iprop((K (F := F)).ctx EH (P m (Xf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flattening of the indices
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  rw [wp_ret]; imodintro
  ihave Hh := (Entails.of_eq (held_S5 (F := F) d _)) $$ Hheld
  rw [flat_a0, flat_a1, flat_v1, flat_v2]
  icases Hh with ⟨Ha0, Ha1, Hv0, Hv1, Hv2⟩
  -- the call
  ihave Hsp := (main_split m (Xf m) d (m (oLoc d))).1 $$ [Ha1 Hv0 Hv1]
  · isplitl [Ha1]; · iexact Ha1
    isplitl [Hv0]; · iexact Hv0
    iexact Hv1
  icases Hsp with ⟨Hwr, Hxr, Hpay⟩
  iapply ((K (F := F)).wp_run (D (F := F)) 𝒱 (EH := EH) (P := P m (Xf m)) κ d 0) $$ [Hst Hpay Hwr Hxr Ha0 Hv2 Hb]
  isplitr; · iexact Hctx
  isplitl [Hst]; · iexact Hst
  isplitl [Hpay]
  · rw [st0_eq]; iexact Hpay
  iintro ⟨Hst, Hdn⟩
  ihave Hdn' := (Entails.of_eq (dn0_eq m (Xf m) d)) $$ Hdn
  ihave Hjn := (main_split m (Xf m) d (Gd m (Xf m) d)).2 $$ [Hwr Hxr Hdn']
  · isplitl [Hwr]; · iexact Hwr
    isplitl [Hxr]; · iexact Hxr
    iexact Hdn'
  icases Hjn with ⟨Ha1, Hv0, Hv1⟩
  -- the reshape of the flat output
  iapply (wp_hlo_within 𝒱 (SparseCore.T d) none Set.univ (op := opOut) (S := S5) hOut (V := V1 m d)) $$ [Hb Ha0 Ha1 Hv0 Hv1 Hv2]
  · isplitl [Hb]; · iexact Hb
    rw [held_S5, V1_a0, V1_a1, V1_v0, V1_v1, V1_v2]
    isplitl [Ha0]; · iexact Ha0
    isplitl [Ha1]; · iexact Ha1
    isplitl [Hv0]; · iexact Hv0
    isplitl [Hv1]; · iexact Hv1
    iexact Hv2
  iintro ⟨Hb, Hheld⟩
  ihave Hh := (Entails.of_eq (held_S5 (F := F) d _)) $$ Hheld
  rw [out_a0, out_a1]
  icases Hh with ⟨Ha0, Ha1, -, -, Hv2⟩
  rw [wp_ret]; imodintro; imodintro
  isplitl [Hst]; · iexact Hst
  isplitl [Ha0]; · iexact Ha0
  isplitl [Ha1]; · iexact Ha1
  iexact Hv2

def fq (d : Dev nD) (s' : Phys nD τ sig (Elt F)) : Prop :=
  s'.mem.mem (a0Loc d) = m (a0Loc d) ∧ s'.mem.mem (wLoc d) = m (wLoc d) ∧ s'.mem.mem (v2Loc d) = Res m d

theorem hfin (d : Dev nD) (s' : Phys nD τ sig (Elt F)) : iprop(FIN m d ∗ SI s') ⊢ (⌜fq m d s'⌝ : sProp 𝕄) := by
  iintro ⟨⟨Ha0, Ha1, Hv2⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Ha1]
  · isplitl [HSI] <;> iassumption
  icases H with ⟨%h2, HSI, -⟩
  ihave H := (SI_pointsTo_agree (st := s') (ℓ := v2Loc d) (I := Finset.univ) (q := fullShare) (f := Res m d)) $$ [HSI Hv2]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (v2Loc c) = Res m c ∧ r.2.mem (a0Loc c) = m (a0Loc c) ∧ r.2.mem (wLoc c) = m (wLoc c)

theorem run_main [∀ e, Nonempty (Elt F e)] (hX : ∀ d n, (Xf m d n).toNat < 1000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (Xf m)) facts v₀
    (fun q hq => match q with | 0 => nomatch hq)
    (fun q _ => match q with | 0 => tileObl m (Xf m) facts hX)
    (fun q _ => match q with | 0 => vecSplit m (Xf m))
    m ρ main (fun _ => iprop(emp)) (FIN m) (u₀ (F := F)) (hu₀ m (Xf m)) (hmain m ρ) (fq m) (hfin m) (QC m)
    (fun _ h c => ⟨(h c).2.2, (h c).1, (h c).2.1⟩)

end Cert.Proof.KI

end
-- ==== Proof.KI.Result.lean ====
/-
  The result, entry by entry. The flat indices are the indices read row-major; the result is the flat output
  read row-major; so entry (b, t, q) of the result is the table's entry (x[b, t], q).
-/
import proofs.«204301_g9028021256511_cont_9to1_m_920_22_alg».proof.Proof.KI.Launch

import Idealize.ShloMosaic.Lib.Pipeline.Value

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xfV" => (Memref.whole Cert.KernelIdeal.main_v0_scv : Memref Cert.KernelIdeal.sig Kind.scVector Space.hbm Cert.KernelIdeal.S819200 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S819200x128 EltTy.f32)
local notation "idxV" => (Memref.whole Cert.KernelIdeal.cc0_scratch0 : Memref Cert.KernelIdeal.sig Kind.scVector Space.vmem Cert.KernelIdeal.S25600 EltTy.i32)
local notation "shV" => (Memref.whole Cert.KernelIdeal.cc0_scratch1 : Memref Cert.KernelIdeal.sig Kind.scVector Space.shared Cert.KernelIdeal.S1000x128 EltTy.f32)
local notation "r0V" => (Memref.whole Cert.KernelIdeal.cc0_scratch2 : Memref Cert.KernelIdeal.sig Kind.scVector Space.vmem Cert.KernelIdeal.S128x128 EltTy.f32)
local notation "r1V" => (Memref.whole Cert.KernelIdeal.cc0_scratch3 : Memref Cert.KernelIdeal.sig Kind.scVector Space.vmem Cert.KernelIdeal.S128x128 EltTy.f32)
local notation "r2V" => (Memref.whole Cert.KernelIdeal.cc0_scratch4 : Memref Cert.KernelIdeal.sig Kind.scVector Space.vmem Cert.KernelIdeal.S128x128 EltTy.f32)
local notation "r3V" => (Memref.whole Cert.KernelIdeal.cc0_scratch5 : Memref Cert.KernelIdeal.sig Kind.scVector Space.vmem Cert.KernelIdeal.S128x128 EltTy.f32)
local notation "r4V" => (Memref.whole Cert.KernelIdeal.cc0_scratch6 : Memref Cert.KernelIdeal.sig Kind.scVector Space.vmem Cert.KernelIdeal.S128x128 EltTy.f32)

variable (m : (ℓ : Loc nD τ sig) → Buf (Elt F) ℓ)

theorem Xf_eq (d : Dev nD) :
    Xf m d = fun i => shapeCast S819200 (m (a0Loc d) : S4096x200.Idx → BitVec 32) Facts₀.shapeCasts_S4096x200_S819200 i := by
  unfold Xf
  exact StableHlo.reshape_result main_arg0 main_v0 rfl Facts₀.shapeCasts_S4096x200_S819200 _ _ (V0 m d)

/-- Every flat index word is one of the index words. -/
theorem Xf_lt (d : Dev nD) (h : ∀ i : S4096x200.Idx, ((m (a0Loc d) : S4096x200.Idx → BitVec 32) i).toNat < 1000) :
    ∀ n, (Xf m d n).toNat < 1000 := by
  intro n
  rw [Xf_eq]
  exact h _

theorem Xf_apply (d : Dev nD) (b : Fin 4096) (t : Fin 200) (hn : 200 * b.val + t.val < 819200) :
    Xf m d (ix1 ⟨200 * b.val + t.val, hn⟩) = (m (a0Loc d) : S4096x200.Idx → BitVec 32) (ix2 b t) := by
  rw [Xf_eq]
  refine shapeCast_apply _ _ _ (ix2 b t) ?_
  rw [Shape.rowMajor_val_two, Shape.rowMajor_val_one]
  show b.val * 200 + t.val = 200 * b.val + t.val
  omega

theorem Res_eq (d : Dev nD) :
    Res m d = fun i => shapeCast S4096x200x128 (Gd m (Xf m) d : S819200x128.Idx → Elt F .f32) Facts₀.shapeCasts_S819200x128_S4096x200x128 i := by
  unfold Res
  rw [StableHlo.reshape_result main_v1 main_v2 rfl Facts₀.shapeCasts_S819200x128_S4096x200x128 _ _ (V1 m d), V1_v1]
  rfl

/-- Entry (b, t, q) of the result: the table's entry (x[b, t], q). -/
theorem Res_apply (d : Dev nD) (b : Fin 4096) (t : Fin 200) (q : Fin 128) :
    Res m d (ix3 b t q) = (m (wLoc d) : S1000x128.Idx → Elt F .f32) (ix2 (rowOf ((m (a0Loc d) : S4096x200.Idx → BitVec 32) (ix2 b t))) q) := by
  have hn : 200 * b.val + t.val < 819200 := by have := b.isLt; have := t.isLt; omega
  rw [Res_eq]
  refine (shapeCast_apply (Gd m (Xf m) d : S819200x128.Idx → Elt F .f32) Facts₀.shapeCasts_S819200x128_S4096x200x128 (ix3 b t q)
    (ix2 ⟨200 * b.val + t.val, hn⟩ q) ?_).trans ?_
  · show (S819200x128.rowMajor (ix2 ⟨200 * b.val + t.val, hn⟩ q)).val = (S4096x200x128.rowMajor (ix3 b t q)).val
    rw [Shape.rowMajor_val_two, Shape.rowMajor_val_three]
    show (200 * b.val + t.val) * 128 + q.val = (b.val * 200 + t.val) * 128 + q.val
    omega
  · show Wd m d (ix2 (rowOf (Xf m d (ix1 ⟨200 * b.val + t.val, hn⟩))) q) = _
    rw [Xf_apply m d b t hn]

end Cert.Proof.KI

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.LibGatherAt.lean ====
/-
  A gather along the leading axis read at an index. With one start index per result row (a column of start indices),
  the result's row e is the operand's row at the start index of e, read as a signed integer and clamped onto the axis:
  for a matrix operand every column j of that row, for a vector operand its one entry.
-/
import Idealize.ShloMosaic.Lib.ValueIdx

namespace Cert.GatherAt

open Idealize.ShloMosaic Idealize.ShloMosaic.ValueIdx

variable {α : Type}

/-- Rows of an [N, C] operand at an [E, 1] column of start indices: result [E, C]. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of an [N] operand at an [E, 1] column of start indices: result [E]. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row gather at (e, j): the operand at (the start index of e, clamped; j). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j)
      = x (ix2 ⟨min (idx (ix2 e ⟨0, Nat.one_pos⟩)).toInt.toNat (N - 1), by omega⟩ j) := by
  unfold Host.gather
  refine congrArg x (funext fun a => Fin.ext ?_)
  show (rowDims N C E wf).start (ix2 e j) idx a + (rowDims N C E wf).batchCoord (ix2 e j) a
    + (rowDims N C E wf).offCoord (ix2 e j) a = _
  rw [GatherDims.batchCoord_eq_zero _ _ _ List.not_mem_nil]
  have h0 : (rowDims N C E wf).start (ix2 e j) idx (0 : Fin 2) + 0 + (rowDims N C E wf).offCoord (ix2 e j) (0 : Fin 2)
      = min (idx (ix2 e ⟨0, Nat.one_pos⟩)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e j) ⟨List.idxOf (0 : Fin 2) (rowDims N C E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : (rowDims N C E wf).start (ix2 e j) idx (1 : Fin 2) + 0 + (rowDims N C E wf).offCoord (ix2 e j) (1 : Fin 2)
      = j.val := by
    have hs : (rowDims N C E wf).start (ix2 e j) idx (1 : Fin 2) = 0 := by
      unfold GatherDims.start
      rw [dif_neg (fun h => Nat.one_ne_zero (congrArg Fin.val (List.mem_singleton.mp h)))]
    have hk : (1 : Fin 2) ∈ (rowDims N C E wf).sKept :=
      (GatherDims.mem_sKept _ _).mpr ⟨fun h => Nat.one_ne_zero (congrArg Fin.val (List.mem_singleton.mp h)), List.not_mem_nil⟩
    have ho : (rowDims N C E wf).offCoord (ix2 e j) (1 : Fin 2) = j.val := by
      unfold GatherDims.offCoord
      rw [dif_pos hk]
      rfl
    rw [hs, ho]
    omega
  match a with
  | ⟨0, _⟩ => exact h0
  | ⟨1, _⟩ => exact h1

/-- The vector gather at e: the operand at the start index of e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨min (idx (ix2 e ⟨0, Nat.one_pos⟩)).toInt.toNat (N - 1), by omega⟩) := by
  unfold Host.gather
  refine congrArg x (funext fun a => Fin.ext ?_)
  obtain rfl : a = 0 := Subsingleton.elim _ _
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end Cert.GatherAt
-- ==== Proof.LibReduceAnd.lean ====
/-
  A reduction by `and` over one-bit words whose operand is 1 everywhere, started from 1, is 1 at every result index.
-/
import Idealize.ShloMosaic.Lib.ReduceAll

namespace Cert.MaskFacts

open Idealize.ShloMosaic

/-- A left fold by `and` from 1 over a list of ones is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

variable {s t u : Shape} {axes : List (Fin s.rank)}

/-- The reduction by `and` of an operand that is 1 everywhere, from 1, is 1. -/
theorem reduce_andi_one (x : s.Idx → BitVec 1) (init : u.Idx → BitVec 1) (h : s.ReducesTo axes t) (hu : 0 < u.numel)
    (j : t.Idx) (hinit : init (Shape.Idx.first hu) = 1#1) (hx : ∀ i, x i = 1#1) :
    Host.reduce IntOp.andi x init h hu j = 1#1 := by
  rw [Host.reduce_eq_foldl, hinit]
  exact foldl_andi_one x _ fun n _ => hx n

end Cert.MaskFacts
-- ==== Proof.Ref.Run.lean ====
/-
  The reference side: a table lookup along the leading axis, `take(weight, x, axis = 0)`, as the host computes it.

  The program is a straight line of twenty-three host operations: a negative index is wrapped by adding the axis
  length (a comparison with zero, an addition of 1000, a selection), the wrapped indices become a column of start
  indices, a mask says which start indices lie inside the axis (at least 0 and at most 999, the two comparisons
  joined by `and` and reduced by `and` over the unit axis), the gather reads one row of the table per start index,
  and the result is the gathered row where the mask holds and NaN elsewhere.

  * `run`: from any memory, the program terminates, the result buffer ends at `Rout` of the two argument buffers'
    launch contents, and the argument buffers end unchanged.
  * `pre_range`: under the input-domain precondition every index, read as a natural number, is below 1000.
  * `Rout_apply`: for indices below 1000 the result at (b, t, q) is the table at (x[b, t], q): the index is not
    negative, so the wrap keeps it; both comparisons hold, so the mask is 1 and the selection takes the gathered
    value; and the start index is inside the axis, so the gather's clamp is the identity.
-/
import proofs.«204301_g9028021256511_cont_9to1_m_920_22_alg».proof.Defs
import proofs.«204301_g9028021256511_cont_9to1_m_920_22_alg».proof.Proof.Gen.ReferenceIdeal
import proofs.«204301_g9028021256511_cont_9to1_m_920_22_alg».proof.Proof.Gen.Pre_input_domain
import proofs.«204301_g9028021256511_cont_9to1_m_920_22_alg».proof.Proof.LibTypedRefs
import proofs.«204301_g9028021256511_cont_9to1_m_920_22_alg».proof.Proof.LibGatherAt
import proofs.«204301_g9028021256511_cont_9to1_m_920_22_alg».proof.Proof.LibReduceAnd
import Idealize.ShloMosaic.Lib.StableHlo.Run
import Idealize.ShloMosaic.Lib.ValueIdx
import Idealize.ShloMosaic.Lib.ReduceAll

-- declarations are elaborated one at a time
set_option Elab.async false

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-! ## The result as a term of the arguments -/

/-- The indices with the negative ones wrapped: `x + 1000` where `x < 0`, else `x`. -/
def wrapped (X : IVec S4096x200 32) : IVec S4096x200 32 :=
  select (cmpi .slt X (broadcastInDim S4096x200 ![] bcast_S_S4096x200 (constantI S_ 32 0#32)))
    (addi X (broadcastInDim S4096x200 ![] bcast_S_S4096x200 (constantI S_ 32 1000#32))) X

/-- The wrapped indices as a column of start indices, one per result row. -/
def starts (X : IVec S4096x200 32) : IVec S4096x200x1 32 :=
  broadcastInDim S4096x200x1 ![0, 1] bcast_S4096x200_S4096x200x1_0_1 (wrapped X)

/-- Which start indices lie inside the axis: at least 0 and at most 999, reduced by `and` over the unit axis. -/
def mask (X : IVec S4096x200 32) : IVec S4096x200 1 :=
  Host.reduce IntOp.andi
    (andi (cmpi .sge (starts X) (broadcastInDim S4096x200x1 ![] bcast_S_S4096x200x1 (constantI S_ 32 0#32)))
      (cmpi .sle (starts X)
        (broadcastInDim S4096x200x1 ![0, 1, 2] bcast_S1x1x1_S4096x200x1_0_1_2
          (broadcastInDim S1x1x1 ![2] bcast_S1_S1x1x1_2 (constantI S1 32 999#32)))))
    (constantI S_ 1 1#1) reducesTo_S4096x200x1_S4096x200_d2 h_S_

/-- What the program computes from the two arguments' contents: the gathered rows where the mask holds, NaN elsewhere. -/
def Rout (X : S4096x200.Idx → BitVec 32) (Wt : S1000x128.Idx → Elt F .f32) : S4096x200x128.Idx → Elt F .f32 :=
  select (broadcastInDim S4096x200x128 ![0, 1] bcast_S4096x200_S4096x200x128_0_1 (mask X))
    (Host.gather gather_S1000x128_S4096x200x1_S4096x200x128_2_0_n_n_0_2_1128 Wt (starts X))
    (broadcastInDim S4096x200x128 ![] bcast_S_S4096x200x128 (constant S_ .f32 0x7FC00000#32))

/-! ## The precondition: every index is inside the table -/

/-- A 32-bit word below 1000 as a natural number is that number as a signed integer. -/
theorem toInt_of_lt {v : BitVec 32} (h : v.toNat < 1000) : v.toInt = (v.toNat : Int) := by
  rw [BitVec.toInt_eq_toNat_cond]
  split
  · rfl
  · omega

theorem toInt_zero : (0#32 : BitVec 32).toInt = 0 := by decide
theorem toInt_999 : (999#32 : BitVec 32).toInt = 999 := by decide

/-- A word that is at least 0 and at most 999 as a signed integer is below 1000 as a natural number. -/
theorem toNat_lt_of_signed {v : BitVec 32} (h0 : (0#32 : BitVec 32).toInt ≤ v.toInt) (h1 : v.toInt ≤ (999#32 : BitVec 32).toInt) :
    v.toNat < 1000 := by
  rw [toInt_zero] at h0
  rw [toInt_999] at h1
  have hv := BitVec.toInt_eq_toNat_cond v
  split at hv <;> omega

/-- Under the input-domain precondition every index, read as a natural number, is below 1000: the predicate's last
    `and` gives its second operand, the reduction by `and` over all the indices that it is 1 at each of them, and there
    the two signed comparisons with 0 and with 999. -/
theorem pre_range (X : S4096x200.Idx → BitVec 32) (Wt : S1000x128.Idx → Elt F .f32)
    (h : Cert.Pre_input_domain.fn (F := F) X Wt = fun _ => 1#1) : ∀ i, (X i).toNat < 1000 := by
  intro i
  haveI : Subsingleton Cert.Pre_input_domain.S_.Idx := ⟨fun a b => funext fun d => d.elim0⟩
  have e := congrFun h ValueIdx.ix0
  obtain ⟨-, e9⟩ := IntOp.andi_eq_one.1 e
  have e8 := Host.reduce_andi_all _ _ _ _ _ e9 i
  obtain ⟨e5, e7⟩ := IntOp.andi_eq_one.1 e8
  exact toNat_lt_of_signed (IntOp.cmpi_sge.1 e5) (IntOp.cmpi_sle.1 e7)

/-! ## The result at an index -/

open Idealize.ShloMosaic.ValueIdx

/-- The start-index column read at (b, t, 0) is the operand at (b, t). -/
theorem bcast_col_apply {α : Type} (x : S4096x200.Idx → α) (b : Fin 4096) (t : Fin 200) (z : Fin 1) :
    broadcastInDim S4096x200x1 ![0, 1] bcast_S4096x200_S4096x200x1_0_1 x (ix3 b t z) = x (ix2 b t) := by
  unfold broadcastInDim
  refine congrArg x (funext fun a => ?_)
  match a with
  | ⟨0, _⟩ => rfl
  | ⟨1, _⟩ => rfl

/-- A [4096, 200] operand broadcast along a trailing axis of 128, read at (b, t, q), is the operand at (b, t). -/
theorem bcast_row_apply {α : Type} (x : S4096x200.Idx → α) (b : Fin 4096) (t : Fin 200) (q : Fin 128) :
    broadcastInDim S4096x200x128 ![0, 1] bcast_S4096x200_S4096x200x128_0_1 x (ix3 b t q) = x (ix2 b t) := by
  unfold broadcastInDim
  refine congrArg x (funext fun a => ?_)
  match a with
  | ⟨0, _⟩ => rfl
  | ⟨1, _⟩ => rfl

/-- An index below 1000 is not negative, so the wrap keeps it. -/
theorem wrapped_apply (X : IVec S4096x200 32) (hX : ∀ i, (X i).toNat < 1000) (i : S4096x200.Idx) : wrapped X i = X i := by
  have hn : ¬ IntOp.cmpi .slt (X i) 0#32 = 1#1 := fun hc => by
    have h1 := IntOp.cmpi_slt.1 hc
    rw [toInt_zero, toInt_of_lt (hX i)] at h1
    omega
  show Scalar.select (IntOp.cmpi .slt (X i) 0#32) (IntOp.addi (X i) 1000#32) (X i) = X i
  exact if_neg hn

/-- The start index of result row (b, t) is the index x[b, t]. -/
theorem starts_apply (X : IVec S4096x200 32) (hX : ∀ i, (X i).toNat < 1000) (b : Fin 4096) (t : Fin 200) (z : Fin 1) :
    starts X (ix3 b t z) = X (ix2 b t) := by
  unfold starts
  rw [bcast_col_apply, wrapped_apply X hX]

/-- Every start index is inside the axis, so the mask is 1 everywhere. -/
theorem mask_apply (X : IVec S4096x200 32) (hX : ∀ i, (X i).toNat < 1000) (i : S4096x200.Idx) : mask X i = 1#1 := by
  unfold mask
  refine Cert.MaskFacts.reduce_andi_one _ _ _ _ i rfl fun j => ?_
  obtain ⟨b, t, z, rfl⟩ : ∃ b t z, j = ix3 b t z := ⟨j 0, j 1, j 2, eq_ix3 j⟩
  show IntOp.andi (IntOp.cmpi .sge (starts X (ix3 b t z)) 0#32) (IntOp.cmpi .sle (starts X (ix3 b t z)) 999#32) = 1#1
  rw [starts_apply X hX]
  have hi := toInt_of_lt (hX (ix2 b t))
  refine IntOp.andi_eq_one.2 ⟨IntOp.cmpi_sge.2 ?_, IntOp.cmpi_sle.2 ?_⟩
  · rw [toInt_zero, hi]; omega
  · rw [toInt_999, hi]; have := hX (ix2 b t); omega

/-- Rows of an [N, C] operand at a [B, T, 1] array of start indices: result [B, T, C]. -/
abbrev rowDims3 (N C B T : Nat)
    (wf : GatherDims.WF ⟨2, ![N, C]⟩ ⟨3, ![B, T, 1]⟩ ⟨3, ![B, T, C]⟩ [2] [0] [] [0] [] 2 ![1, C]) :
    GatherDims ⟨2, ![N, C]⟩ ⟨3, ![B, T, 1]⟩ ⟨3, ![B, T, C]⟩ where
  offsetDims := [2]
  collapsedSliceDims := [0]
  operandBatchingDims := []
  startIndicesBatchingDims := []
  startIndexMap := [0]
  indexVectorDim := 2
  sliceSizes := ![1, C]
  wf := wf

/-- The row gather at (b, t, q): the operand at (the start index of (b, t), read signed and clamped onto the axis; q).
    On operand axis 0, the collapsed one the start index names, the coordinate is the clamped start index alone; on
    axis 1 the start is 0 and the coordinate is the result's offset coordinate q. -/
theorem gather_rows3_apply {α : Type} {N C B T w : Nat} (hN : 0 < N)
    (wf : GatherDims.WF ⟨2, ![N, C]⟩ ⟨3, ![B, T, 1]⟩ ⟨3, ![B, T, C]⟩ [2] [0] [] [0] [] 2 ![1, C])
    (x : (⟨2, ![N, C]⟩ : Shape).Idx → α) (idx : IVec ⟨3, ![B, T, 1]⟩ w) (b : Fin B) (t : Fin T) (q : Fin C) :
    Host.gather (rowDims3 N C B T wf) x idx (ix3 b t q)
      = x (ix2 ⟨min (idx (ix3 b t ⟨0, Nat.one_pos⟩)).toInt.toNat (N - 1), by omega⟩ q) := by
  unfold Host.gather
  refine congrArg x (funext fun a => Fin.ext ?_)
  show (rowDims3 N C B T wf).start (ix3 b t q) idx a + (rowDims3 N C B T wf).batchCoord (ix3 b t q) a + (rowDims3 N C B T wf).offCoord (ix3 b t q) a = _
  rw [GatherDims.batchCoord_eq_zero _ _ _ List.not_mem_nil]
  have h0 : (rowDims3 N C B T wf).start (ix3 b t q) idx (0 : Fin 2) + 0 + (rowDims3 N C B T wf).offCoord (ix3 b t q) (0 : Fin 2)
      = min (idx (ix3 b t ⟨0, Nat.one_pos⟩)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims3 N C B T wf).startIndexMap from List.mem_singleton.mpr rfl)]
    have hsi : (rowDims3 N C B T wf).siIdx (ix3 b t q) ⟨List.idxOf (0 : Fin 2) (rowDims3 N C B T wf).startIndexMap,
        List.idxOf_lt_length_iff.2 (List.mem_singleton.mpr rfl)⟩ = ix3 b t ⟨0, Nat.one_pos⟩ := by
      funext c; refine Fin.ext ?_
      match c with
      | ⟨0, _⟩ => rfl
      | ⟨1, _⟩ => rfl
      | ⟨2, _⟩ => rfl
    rw [hsi]
    rfl
  have h1 : (rowDims3 N C B T wf).start (ix3 b t q) idx (1 : Fin 2) + 0 + (rowDims3 N C B T wf).offCoord (ix3 b t q) (1 : Fin 2) = q.val := by
    have hs : (rowDims3 N C B T wf).start (ix3 b t q) idx (1 : Fin 2) = 0 := by
      unfold GatherDims.start
      rw [dif_neg (fun h => Nat.one_ne_zero (congrArg Fin.val (List.mem_singleton.mp h)))]
    have hk : (1 : Fin 2) ∈ (rowDims3 N C B T wf).sKept :=
      (GatherDims.mem_sKept _ _).mpr
        ⟨fun h => Nat.one_ne_zero (congrArg Fin.val (List.mem_singleton.mp h)), List.not_mem_nil⟩
    have ho : (rowDims3 N C B T wf).offCoord (ix3 b t q) (1 : Fin 2) = q.val := by
      unfold GatherDims.offCoord
      rw [dif_pos hk]
      rfl
    rw [hs, ho]
    omega
  match a with
  | ⟨0, _⟩ => exact h0
  | ⟨1, _⟩ => exact h1

/-- For indices below 1000 the result at (b, t, q) is the table at (x[b, t], q). -/
theorem Rout_apply (X : S4096x200.Idx → BitVec 32) (Wt : S1000x128.Idx → Elt F .f32) (hX : ∀ i, (X i).toNat < 1000)
    (b : Fin 4096) (t : Fin 200) (q : Fin 128) :
    Rout X Wt (ix3 b t q) = Wt (ix2 ⟨(X (ix2 b t)).toNat, hX _⟩ q) := by
  have hg : Host.gather gather_S1000x128_S4096x200x1_S4096x200x128_2_0_n_n_0_2_1128 Wt (starts X) (ix3 b t q)
      = Wt (ix2 ⟨min (starts X (ix3 b t ⟨0, Nat.one_pos⟩)).toInt.toNat (1000 - 1), by omega⟩ q) :=
    gather_rows3_apply (N := 1000) (C := 128) (B := 4096) (T := 200) (by omega) _ Wt (starts X) b t q
  unfold Rout
  rw [select_apply, bcast_row_apply, mask_apply X hX, select_one, hg]
  refine congrArg (fun n => Wt (ix2 n q)) (Fin.ext ?_)
  show min (starts X (ix3 b t ⟨0, Nat.one_pos⟩)).toInt.toNat (1000 - 1) = (X (ix2 b t)).toNat
  rw [starts_apply X hX, toInt_of_lt (hX _)]
  have := hX (ix2 b t)
  omega
/-! ## The program as a list of operations, and its run -/

/-- @main's operations in order, the two calls unfolded: the wrap (six operations and the callee's selection), the
    start-index column, the mask (nine), the gather, and the final selection against NaN (four). -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S1000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

set_option maxRecDepth 1024 in
/-- @main is that straight line: the two functions' definitions unfolded at their calls and the records at their
    fields, both sides are one chain of host steps once sequencing is reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 400000 in
/-- The fold at the result buffer is `Rout` of the argument buffers: the fold unrolled, each operation's result at
    its own buffer is its function's value and at any other buffer what was there, the typed references' transports
    are the identity at these literal references, and what is left is `Rout`'s own term. The reduction and the
    gather are kept folded meanwhile. -/
theorem out_eq (V : Valuation τ sig (Elt F)) :
    after ops V (main_v0 : DevRef τ sig) = Rout (V (main_arg0 : DevRef τ sig)) (V (main_arg1 : DevRef τ sig)) := by
  after_results_simp
  repeat (first | rw [TRef.toBuf_self] | rw [TRef.ofBuf_self])
  unfold Rout mask starts wrapped
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters, every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run, closed: the result buffer ends at `Rout` of the argument buffers' launch contents, and the argument
    buffers end as they began. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩
      (fun r => ∀ c : Dev nD,
        r.2.mem ((c.tc : Thread nD τ).loc main_v0)
            = Rout (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1)) :=
  (θ_run _ _ _).mono
    (fun _ h c => ⟨(h c main_v0).trans (out_eq _), (h c main_arg0).trans (arg0_eq _), (h c main_arg1).trans (arg1_eq _)⟩)
    (run_main m ρ)

end Cert.Proof.Ref

end
-- ==== Proof.lean ====
/-
  The claim: the embedding lookup on the SparseCores computes jnp.take(weight, x, axis=0) on indices 0 ≤ x ≤ 999.
  Both programs' runs are read entry by entry: entry (b, t, q) of either result is the table's entry (x[b, t], q).
  The kernel's three parts — its subcores' tasks, the barrier that shares the table among a SparseCore's subcores,
  the launch — are in Proof/KB (the program as printed) and Proof/KI (its idealization); the reference's run in
  Proof/Ref. The idealization rewrote nothing, so there is nothing to preserve.
-/
import proofs.«204301_g9028021256511_cont_9to1_m_920_22_alg».proof.Defs
import proofs.«204301_g9028021256511_cont_9to1_m_920_22_alg».proof.Proof.Gen.Kernel
import proofs.«204301_g9028021256511_cont_9to1_m_920_22_alg».proof.Proof.Gen.Kernel.Skeleton
import proofs.«204301_g9028021256511_cont_9to1_m_920_22_alg».proof.Proof.Gen.KernelIdeal
import proofs.«204301_g9028021256511_cont_9to1_m_920_22_alg».proof.Proof.Gen.KernelIdeal.Skeleton
import proofs.«204301_g9028021256511_cont_9to1_m_920_22_alg».proof.Proof.Gen.ReferenceIdeal
import proofs.«204301_g9028021256511_cont_9to1_m_920_22_alg».proof.Proof.Gen.Pre_input_domain
import proofs.«204301_g9028021256511_cont_9to1_m_920_22_alg».proof.Proof.KB.Result
import proofs.«204301_g9028021256511_cont_9to1_m_920_22_alg».proof.Proof.KI.Result
import proofs.«204301_g9028021256511_cont_9to1_m_920_22_alg».proof.Proof.Ref.Run
import Idealize.ShloMosaic.Adequacy
import Idealize.ShloMosaic.Init

noncomputable section

namespace Cert.Proof

open Idealize.ShloMosaic Idealize.SL.Sem Idealize.ShloMosaic.ValueIdx

/-- The printed kernel runs and keeps its arguments. -/
theorem frame_K : Cert.frame_Kernel := fun m ρ hpre =>
  (θ_run Cert.Kernel.defs _ _).mono (fun _ h c => ⟨(h c).2.1, (h c).2.2⟩)
    (Cert.Proof.KB.run_main (F := Bits) m ρ (fun d => Cert.Proof.KB.Xf_lt m d (Cert.Proof.Ref.pre_range _ _ (hpre d))))

/-- So does its idealization. -/
theorem frame_KI : Cert.frame_KernelIdeal := fun m ρ hpre =>
  (θ_run Cert.KernelIdeal.defs _ _).mono (fun _ h c => ⟨(h c).2.1, (h c).2.2⟩)
    (Cert.Proof.KI.run_main (F := Ideal) m ρ (fun d => Cert.Proof.KI.Xf_lt m d (Cert.Proof.Ref.pre_range _ _ (hpre d))))

/-- And the reference. -/
theorem frame_R : Cert.frame_ReferenceIdeal := fun m ρ _ =>
  (θ_run Cert.ReferenceIdeal.defs _ _).mono (fun _ h c => (h c).2) (Cert.Proof.Ref.run (F := Ideal) m ρ)

/-- The two results agree entry by entry: both are the table's row x[b, t]. -/
theorem algebraic : Cert.algebraic_KernelIdeal_ReferenceIdeal := by
  intro m ρ m' ρ' hpre hagree
  have hX : ∀ (d : Dev Cert.KernelIdeal.nD) (i : Cert.KernelIdeal.S4096x200.Idx), ((m (Cert.Proof.KI.a0Loc d) : Cert.KernelIdeal.S4096x200.Idx → BitVec 32) i).toNat < 1000 :=
    fun d => Cert.Proof.Ref.pre_range _ _ (hpre d)
  refine ⟨fun c => Cert.Proof.KI.Res (F := Ideal) m c, ?_, ?_⟩
  · exact Cert.Proof.KI.run_main (F := Ideal) m ρ (fun d => Cert.Proof.KI.Xf_lt m d (hX d))
  · refine (θ_run Cert.ReferenceIdeal.defs _ _).mono (fun _ h c => ⟨(h c).1.trans ?_, (h c).2⟩) (Cert.Proof.Ref.run (F := Ideal) m' ρ')
    rw [(hagree c).1, (hagree c).2]
    funext i
    obtain ⟨b, t, q, rfl⟩ : ∃ b t q, i = ix3 b t q := ⟨i 0, i 1, i 2, eq_ix3 i⟩
    rw [Cert.Proof.Ref.Rout_apply _ _ (hX c) b t q]
    refine Eq.trans ?_ (Cert.Proof.KI.Res_apply (F := Ideal) m c b t q).symm
    exact congrArg (fun r => (m (Cert.Proof.KI.wLoc c) : Cert.KernelIdeal.S1000x128.Idx → Elt Ideal .f32) (ix2 r q))
      (Fin.ext (Cert.Proof.KI.rowOf_val (hX c (ix2 b t))).symm)

theorem claim : Cert.Claim := ⟨Cert.Kernel.Gen.facts, Cert.KernelIdeal.Gen.facts, Cert.ReferenceIdeal.Gen.facts, Cert.Pre_input_domain.Gen.facts,
  frame_K, frame_KI, frame_R, trivial, algebraic⟩

end Cert.Proof

end
